-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v808) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x2 : Shape := ⟨2, ![1000000, 2]⟩
abbrev S_ : Shape := ⟨0, ![]⟩

class Facts : Prop where
  bcast_S_S1000000x2 : S_.BroadcastsInDim S1000000x2 (![] : Fin 0 → Fin S1000000x2.rank)
  reducesTo_S1000000x2_S_d0_1 : S1000000x2.ReducesTo [0, 1] S_
  h_S_ : 0 < S_.numel

variable [Facts]

def fn {F : FTy → Type} [FloatOps F] (main_arg0 : FVec F S1000000x2 .f32) : IVec S_ 1 :=
  let main_v0 : FVec F S1000000x2 .f32 := Host.absf main_arg0
  let main_cst : FVec F S_ .f32 := constant S_ .f32 0x7F800000#32
  let main_v1 : FVec F S1000000x2 .f32 := broadcastInDim S1000000x2 ![] bcast_S_S1000000x2 main_cst
  let main_v2 : IVec S1000000x2 1 := cmpf .olt main_v0 main_v1
  let main_c : IVec S_ 1 := constantI S_ 1 1#1
  let main_v3 : IVec S_ 1 := (fun x v => Host.reduce IntOp.andi x v reducesTo_S1000000x2_S_d0_1 h_S_) main_v2 main_c
  main_v3
-- ==== Kernel.lean ====
abbrev S1000000x2 : Shape := ⟨2, ![1000000, 2]⟩
abbrev S1000000x100 : Shape := ⟨2, ![1000000, 100]⟩
abbrev S400x2 : Shape := ⟨2, ![400, 2]⟩
abbrev S400x100 : Shape := ⟨2, ![400, 100]⟩
abbrev S400x1 : Shape := ⟨2, ![400, 1]⟩
abbrev S400 : Shape := ⟨1, ![400]⟩

abbrev nBuf : Space → Nat
  | .hbm => 2
  | .vmem => 4
  | .smem => 0
  | _ => 0

abbrev bufTy : (tb : Table) → Fin (tcTables nBuf tb) → BufTy
  | .hbm, ⟨0, _⟩ => ⟨S1000000x2, .f32⟩
  | .hbm, ⟨1, _⟩ => ⟨S1000000x100, .f32⟩
  | .local _ .vmem, ⟨0, _⟩ => ⟨S400x2, .f32⟩
  | .local _ .vmem, ⟨1, _⟩ => ⟨S400x2, .f32⟩
  | .local _ .vmem, ⟨2, _⟩ => ⟨S400x100, .f32⟩
  | .local _ .vmem, ⟨3, _⟩ => ⟨S400x100, .f32⟩
  | _, _ => ⟨S1000000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S400x2_S400x2_0_0 : ∀ a, (![0, 0] : Fin 2 → Nat) a + S400x2.size a ≤ S400x2.size a
  h_S400x2 : 0 < S400x2.numel
  slices_S400x2_o0_0_S400x1 : S400x2.Slices ![0, 0] S400x1
  shapeCasts_S400x1_S400 : S400x1.ShapeCasts S400
  slices_S400x2_o0_1_S400x1 : S400x2.Slices ![0, 1] S400x1
  shapeCasts_S400_S400x1 : S400.ShapeCasts S400x1
  concatenates_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x1_S400x100_d1 : Shape.Concatenates (S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: S400x1 :: []) S400x100 1
  inb_S400x100_S400x100_0_0 : ∀ a, (![0, 0] : Fin 2 → Nat) a + S400x100.size a ≤ S400x100.size a
  h_S400x100 : 0 < S400x100.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x2.size a ≤ S1000000x2.size a
  hwx0_0 : ∀ i : grid0.Coords, EltTy.bits .f32 = 32 ∨ (Rect.block (s := S1000000x2) S400x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x100.size a ≤ S1000000x100.size a
  hwx0_1 : ∀ i : grid0.Coords, EltTy.bits .f32 = 32 ∨ (Rect.block (s := S1000000x100) S400x100.size (cc0_transform_1 i) (hinb0_1 i)).WholeWords (EltTy.packing .f32)

variable [Facts₀]

abbrev win0_0 : Pipeline.Window sig grid0 :=
  Pipeline.Window.ofSpec (Memref.whole main_arg0) S400x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S400x100.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1000000x2 : Shape := ⟨2, ![1000000, 2]⟩
abbrev S1000000x1 : Shape := ⟨2, ![1000000, 1]⟩
abbrev S1000000 : Shape := ⟨1, ![1000000]⟩
abbrev S_ : Shape := ⟨0, ![]⟩
abbrev S1000000x16 : Shape := ⟨2, ![1000000, 16]⟩
abbrev S1000000x4 : Shape := ⟨2, ![1000000, 4]⟩
abbrev S1000000x100 : Shape := ⟨2, ![1000000, 100]⟩

abbrev nBuf : Space → Nat
  | .hbm => 1059
  | .vmem => 0
  | .smem => 0
  | _ => 0

abbrev hbmTy0_0 (i : Nat) : BufTy := match i % 128 with
  | 0 => ⟨S1000000x2, .f32⟩
  | 1 => ⟨S1000000x1, .f32⟩
  | 2 => ⟨S1000000, .f32⟩
  | 3 => ⟨S1000000x1, .f32⟩
  | 4 => ⟨S1000000, .f32⟩
  | 5 => ⟨S_, .f32⟩
  | 6 => ⟨S1000000, .f32⟩
  | 7 => ⟨S1000000, .f32⟩
  | 8 => ⟨S_, .f32⟩
  | 9 => ⟨S1000000, .f32⟩
  | 10 => ⟨S1000000, .f32⟩
  | 11 => ⟨S_, .f32⟩
  | 12 => ⟨S1000000, .f32⟩
  | 13 => ⟨S1000000, .f32⟩
  | 14 => ⟨S_, .f32⟩
  | 15 => ⟨S1000000, .f32⟩
  | 16 => ⟨S1000000, .f32⟩
  | 17 => ⟨S1000000, .f32⟩
  | 18 => ⟨S1000000, .f32⟩
  | 19 => ⟨S_, .f32⟩
  | 20 => ⟨S1000000, .f32⟩
  | 21 => ⟨S_, .f32⟩
  | 22 => ⟨S1000000, .f32⟩
  | 23 => ⟨S1000000, .f32⟩
  | 24 => ⟨S1000000, .f32⟩
  | 25 => ⟨S_, .f32⟩
  | 26 => ⟨S1000000, .f32⟩
  | 27 => ⟨S1000000, .f32⟩
  | 28 => ⟨S1000000, .f32⟩
  | 29 => ⟨S_, .f32⟩
  | 30 => ⟨S1000000, .f32⟩
  | 31 => ⟨S1000000, .f32⟩
  | 32 => ⟨S1000000, .f32⟩
  | 33 => ⟨S_, .f32⟩
  | 34 => ⟨S1000000, .f32⟩
  | 35 => ⟨S1000000, .f32⟩
  | 36 => ⟨S_, .f32⟩
  | 37 => ⟨S1000000, .f32⟩
  | 38 => ⟨S1000000, .f32⟩
  | 39 => ⟨S1000000, .f32⟩
  | 40 => ⟨S_, .f32⟩
  | 41 => ⟨S1000000, .f32⟩
  | 42 => ⟨S1000000, .f32⟩
  | 43 => ⟨S1000000, .f32⟩
  | 44 => ⟨S_, .f32⟩
  | 45 => ⟨S1000000, .f32⟩
  | 46 => ⟨S1000000, .f32⟩
  | 47 => ⟨S_, .f32⟩
  | 48 => ⟨S1000000, .f32⟩
  | 49 => ⟨S1000000, .f32⟩
  | 50 => ⟨S1000000, .f32⟩
  | 51 => ⟨S_, .f32⟩
  | 52 => ⟨S1000000, .f32⟩
  | 53 => ⟨S1000000, .f32⟩
  | 54 => ⟨S1000000, .f32⟩
  | 55 => ⟨S_, .f32⟩
  | 56 => ⟨S1000000, .f32⟩
  | 57 => ⟨S1000000, .f32⟩
  | 58 => ⟨S_, .f32⟩
  | 59 => ⟨S1000000, .f32⟩
  | 60 => ⟨S1000000, .f32⟩
  | 61 => ⟨S1000000, .f32⟩
  | 62 => ⟨S_, .f32⟩
  | 63 => ⟨S1000000, .f32⟩
  | 64 => ⟨S1000000, .f32⟩
  | 65 => ⟨S1000000, .f32⟩
  | 66 => ⟨S_, .f32⟩
  | 67 => ⟨S1000000, .f32⟩
  | 68 => ⟨S1000000, .f32⟩
  | 69 => ⟨S_, .f32⟩
  | 70 => ⟨S1000000, .f32⟩
  | 71 => ⟨S1000000, .f32⟩
  | 72 => ⟨S1000000, .f32⟩
  | 73 => ⟨S_, .f32⟩
  | 74 => ⟨S1000000, .f32⟩
  | 75 => ⟨S1000000, .f32⟩
  | 76 => ⟨S1000000, .f32⟩
  | 77 => ⟨S_, .f32⟩
  | 78 => ⟨S1000000, .f32⟩
  | 79 => ⟨S1000000, .f32⟩
  | 80 => ⟨S_, .f32⟩
  | 81 => ⟨S1000000, .f32⟩
  | 82 => ⟨S1000000, .f32⟩
  | 83 => ⟨S1000000, .f32⟩
  | 84 => ⟨S_, .f32⟩
  | 85 => ⟨S1000000, .f32⟩
  | 86 => ⟨S1000000, .f32⟩
  | 87 => ⟨S1000000, .f32⟩
  | 88 => ⟨S_, .f32⟩
  | 89 => ⟨S1000000, .f32⟩
  | 90 => ⟨S1000000, .f32⟩
  | 91 => ⟨S_, .f32⟩
  | 92 => ⟨S1000000, .f32⟩
  | 93 => ⟨S1000000, .f32⟩
  | 94 => ⟨S1000000, .f32⟩
  | 95 => ⟨S_, .f32⟩
  | 96 => ⟨S1000000, .f32⟩
  | 97 => ⟨S1000000, .f32⟩
  | 98 => ⟨S1000000, .f32⟩
  | 99 => ⟨S_, .f32⟩
  | 100 => ⟨S1000000, .f32⟩
  | 101 => ⟨S1000000, .f32⟩
  | 102 => ⟨S_, .f32⟩
  | 103 => ⟨S1000000, .f32⟩
  | 104 => ⟨S1000000, .f32⟩
  | 105 => ⟨S1000000, .f32⟩
  | 106 => ⟨S_, .f32⟩
  | 107 => ⟨S1000000, .f32⟩
  | 108 => ⟨S1000000, .f32⟩
  | 109 => ⟨S1000000, .f32⟩
  | 110 => ⟨S_, .f32⟩
  | 111 => ⟨S1000000, .f32⟩
  | 112 => ⟨S1000000, .f32⟩
  | 113 => ⟨S_, .f32⟩
  | 114 => ⟨S1000000, .f32⟩
  | 115 => ⟨S1000000, .f32⟩
  | 116 => ⟨S1000000, .f32⟩
  | 117 => ⟨S_, .f32⟩
  | 118 => ⟨S1000000, .f32⟩
  | 119 => ⟨S1000000, .f32⟩
  | 120 => ⟨S1000000, .f32⟩
  | 121 => ⟨S_, .f32⟩
  | 122 => ⟨S1000000, .f32⟩
  | 123 => ⟨S1000000, .f32⟩
  | 124 => ⟨S1000000, .f32⟩
  | 125 => ⟨S_, .f32⟩
  | 126 => ⟨S1000000, .f32⟩
  | 127 => ⟨S1000000, .f32⟩
  | _ => ⟨S1000000x2, .f32⟩

abbrev hbmTy0_1 (i : Nat) : BufTy := match i % 128 with
  | 0 => ⟨S1000000, .f32⟩
  | 1 => ⟨S_, .f32⟩
  | 2 => ⟨S1000000, .f32⟩
  | 3 => ⟨S1000000, .f32⟩
  | 4 => ⟨S_, .f32⟩
  | 5 => ⟨S1000000, .f32⟩
  | 6 => ⟨S1000000, .f32⟩
  | 7 => ⟨S1000000, .f32⟩
  | 8 => ⟨S_, .f32⟩
  | 9 => ⟨S1000000, .f32⟩
  | 10 => ⟨S1000000, .f32⟩
  | 11 => ⟨S1000000, .f32⟩
  | 12 => ⟨S_, .f32⟩
  | 13 => ⟨S1000000, .f32⟩
  | 14 => ⟨S1000000, .f32⟩
  | 15 => ⟨S_, .f32⟩
  | 16 => ⟨S1000000, .f32⟩
  | 17 => ⟨S1000000, .f32⟩
  | 18 => ⟨S1000000, .f32⟩
  | 19 => ⟨S_, .f32⟩
  | 20 => ⟨S1000000, .f32⟩
  | 21 => ⟨S1000000, .f32⟩
  | 22 => ⟨S1000000, .f32⟩
  | 23 => ⟨S_, .f32⟩
  | 24 => ⟨S1000000, .f32⟩
  | 25 => ⟨S1000000, .f32⟩
  | 26 => ⟨S_, .f32⟩
  | 27 => ⟨S1000000, .f32⟩
  | 28 => ⟨S1000000, .f32⟩
  | 29 => ⟨S1000000, .f32⟩
  | 30 => ⟨S_, .f32⟩
  | 31 => ⟨S1000000, .f32⟩
  | 32 => ⟨S1000000, .f32⟩
  | 33 => ⟨S1000000, .f32⟩
  | 34 => ⟨S_, .f32⟩
  | 35 => ⟨S1000000, .f32⟩
  | 36 => ⟨S1000000, .f32⟩
  | 37 => ⟨S_, .f32⟩
  | 38 => ⟨S1000000, .f32⟩
  | 39 => ⟨S1000000, .f32⟩
  | 40 => ⟨S1000000, .f32⟩
  | 41 => ⟨S_, .f32⟩
  | 42 => ⟨S1000000, .f32⟩
  | 43 => ⟨S1000000, .f32⟩
  | 44 => ⟨S1000000, .f32⟩
  | 45 => ⟨S_, .f32⟩
  | 46 => ⟨S1000000, .f32⟩
  | 47 => ⟨S1000000, .f32⟩
  | 48 => ⟨S_, .f32⟩
  | 49 => ⟨S1000000, .f32⟩
  | 50 => ⟨S1000000, .f32⟩
  | 51 => ⟨S1000000, .f32⟩
  | 52 => ⟨S_, .f32⟩
  | 53 => ⟨S1000000, .f32⟩
  | 54 => ⟨S1000000, .f32⟩
  | 55 => ⟨S1000000, .f32⟩
  | 56 => ⟨S_, .f32⟩
  | 57 => ⟨S1000000, .f32⟩
  | 58 => ⟨S1000000, .f32⟩
  | 59 => ⟨S_, .f32⟩
  | 60 => ⟨S1000000, .f32⟩
  | 61 => ⟨S1000000, .f32⟩
  | 62 => ⟨S1000000, .f32⟩
  | 63 => ⟨S_, .f32⟩
  | 64 => ⟨S1000000, .f32⟩
  | 65 => ⟨S1000000, .f32⟩
  | 66 => ⟨S1000000, .f32⟩
  | 67 => ⟨S_, .f32⟩
  | 68 => ⟨S1000000, .f32⟩
  | 69 => ⟨S1000000, .f32⟩
  | 70 => ⟨S_, .f32⟩
  | 71 => ⟨S1000000, .f32⟩
  | 72 => ⟨S1000000, .f32⟩
  | 73 => ⟨S1000000, .f32⟩
  | 74 => ⟨S_, .f32⟩
  | 75 => ⟨S1000000, .f32⟩
  | 76 => ⟨S1000000, .f32⟩
  | 77 => ⟨S1000000, .f32⟩
  | 78 => ⟨S_, .f32⟩
  | 79 => ⟨S1000000, .f32⟩
  | 80 => ⟨S1000000, .f32⟩
  | 81 => ⟨S1000000, .f32⟩
  | 82 => ⟨S_, .f32⟩
  | 83 => ⟨S1000000, .f32⟩
  | 84 => ⟨S1000000, .f32⟩
  | 85 => ⟨S1000000, .f32⟩
  | 86 => ⟨S_, .f32⟩
  | 87 => ⟨S1000000, .f32⟩
  | 88 => ⟨S1000000, .f32⟩
  | 89 => ⟨S_, .f32⟩
  | 90 => ⟨S1000000, .f32⟩
  | 91 => ⟨S1000000, .f32⟩
  | 92 => ⟨S1000000, .f32⟩
  | 93 => ⟨S_, .f32⟩
  | 94 => ⟨S1000000, .f32⟩
  | 95 => ⟨S1000000, .f32⟩
  | 96 => ⟨S1000000, .f32⟩
  | 97 => ⟨S_, .f32⟩
  | 98 => ⟨S1000000, .f32⟩
  | 99 => ⟨S1000000, .f32⟩
  | 100 => ⟨S_, .f32⟩
  | 101 => ⟨S1000000, .f32⟩
  | 102 => ⟨S1000000, .f32⟩
  | 103 => ⟨S1000000, .f32⟩
  | 104 => ⟨S_, .f32⟩
  | 105 => ⟨S1000000, .f32⟩
  | 106 => ⟨S1000000, .f32⟩
  | 107 => ⟨S1000000, .f32⟩
  | 108 => ⟨S_, .f32⟩
  | 109 => ⟨S1000000, .f32⟩
  | 110 => ⟨S1000000, .f32⟩
  | 111 => ⟨S_, .f32⟩
  | 112 => ⟨S1000000, .f32⟩
  | 113 => ⟨S1000000, .f32⟩
  | 114 => ⟨S1000000, .f32⟩
  | 115 => ⟨S_, .f32⟩
  | 116 => ⟨S1000000, .f32⟩
  | 117 => ⟨S1000000, .f32⟩
  | 118 => ⟨S1000000, .f32⟩
  | 119 => ⟨S_, .f32⟩
  | 120 => ⟨S1000000, .f32⟩
  | 121 => ⟨S1000000, .f32⟩
  | 122 => ⟨S_, .f32⟩
  | 123 => ⟨S1000000, .f32⟩
  | 124 => ⟨S1000000, .f32⟩
  | 125 => ⟨S1000000, .f32⟩
  | 126 => ⟨S_, .f32⟩
  | 127 => ⟨S1000000, .f32⟩
  | _ => ⟨S1000000x2, .f32⟩

abbrev hbmTy0_2 (i : Nat) : BufTy := match i % 128 with
  | 0 => ⟨S1000000, .f32⟩
  | 1 => ⟨S1000000, .f32⟩
  | 2 => ⟨S_, .f32⟩
  | 3 => ⟨S1000000, .f32⟩
  | 4 => ⟨S1000000, .f32⟩
  | 5 => ⟨S_, .f32⟩
  | 6 => ⟨S1000000, .f32⟩
  | 7 => ⟨S1000000, .f32⟩
  | 8 => ⟨S1000000, .f32⟩
  | 9 => ⟨S_, .f32⟩
  | 10 => ⟨S1000000, .f32⟩
  | 11 => ⟨S1000000, .f32⟩
  | 12 => ⟨S1000000, .f32⟩
  | 13 => ⟨S_, .f32⟩
  | 14 => ⟨S1000000, .f32⟩
  | 15 => ⟨S1000000, .f32⟩
  | 16 => ⟨S_, .f32⟩
  | 17 => ⟨S1000000, .f32⟩
  | 18 => ⟨S1000000, .f32⟩
  | 19 => ⟨S1000000, .f32⟩
  | 20 => ⟨S_, .f32⟩
  | 21 => ⟨S1000000, .f32⟩
  | 22 => ⟨S1000000, .f32⟩
  | 23 => ⟨S1000000, .f32⟩
  | 24 => ⟨S_, .f32⟩
  | 25 => ⟨S1000000, .f32⟩
  | 26 => ⟨S1000000, .f32⟩
  | 27 => ⟨S1000000, .f32⟩
  | 28 => ⟨S_, .f32⟩
  | 29 => ⟨S1000000, .f32⟩
  | 30 => ⟨S1000000, .f32⟩
  | 31 => ⟨S1000000, .f32⟩
  | 32 => ⟨S_, .f32⟩
  | 33 => ⟨S1000000, .f32⟩
  | 34 => ⟨S1000000, .f32⟩
  | 35 => ⟨S_, .f32⟩
  | 36 => ⟨S1000000, .f32⟩
  | 37 => ⟨S1000000, .f32⟩
  | 38 => ⟨S1000000, .f32⟩
  | 39 => ⟨S_, .f32⟩
  | 40 => ⟨S1000000, .f32⟩
  | 41 => ⟨S1000000, .f32⟩
  | 42 => ⟨S1000000, .f32⟩
  | 43 => ⟨S_, .f32⟩
  | 44 => ⟨S1000000, .f32⟩
  | 45 => ⟨S1000000, .f32⟩
  | 46 => ⟨S_, .f32⟩
  | 47 => ⟨S1000000, .f32⟩
  | 48 => ⟨S1000000, .f32⟩
  | 49 => ⟨S1000000, .f32⟩
  | 50 => ⟨S_, .f32⟩
  | 51 => ⟨S1000000, .f32⟩
  | 52 => ⟨S1000000, .f32⟩
  | 53 => ⟨S1000000, .f32⟩
  | 54 => ⟨S_, .f32⟩
  | 55 => ⟨S1000000, .f32⟩
  | 56 => ⟨S1000000, .f32⟩
  | 57 => ⟨S_, .f32⟩
  | 58 => ⟨S1000000, .f32⟩
  | 59 => ⟨S1000000, .f32⟩
  | 60 => ⟨S1000000, .f32⟩
  | 61 => ⟨S_, .f32⟩
  | 62 => ⟨S1000000, .f32⟩
  | 63 => ⟨S1000000, .f32⟩
  | 64 => ⟨S1000000, .f32⟩
  | 65 => ⟨S_, .f32⟩
  | 66 => ⟨S1000000, .f32⟩
  | 67 => ⟨S1000000, .f32⟩
  | 68 => ⟨S_, .f32⟩
  | 69 => ⟨S1000000, .f32⟩
  | 70 => ⟨S1000000, .f32⟩
  | 71 => ⟨S1000000, .f32⟩
  | 72 => ⟨S_, .f32⟩
  | 73 => ⟨S1000000, .f32⟩
  | 74 => ⟨S1000000, .f32⟩
  | 75 => ⟨S1000000, .f32⟩
  | 76 => ⟨S_, .f32⟩
  | 77 => ⟨S1000000, .f32⟩
  | 78 => ⟨S1000000, .f32⟩
  | 79 => ⟨S_, .f32⟩
  | 80 => ⟨S1000000, .f32⟩
  | 81 => ⟨S1000000, .f32⟩
  | 82 => ⟨S1000000, .f32⟩
  | 83 => ⟨S_, .f32⟩
  | 84 => ⟨S1000000, .f32⟩
  | 85 => ⟨S1000000, .f32⟩
  | 86 => ⟨S1000000, .f32⟩
  | 87 => ⟨S_, .f32⟩
  | 88 => ⟨S1000000, .f32⟩
  | 89 => ⟨S1000000, .f32⟩
  | 90 => ⟨S1000000, .f32⟩
  | 91 => ⟨S_, .f32⟩
  | 92 => ⟨S1000000, .f32⟩
  | 93 => ⟨S1000000, .f32⟩
  | 94 => ⟨S1000000, .f32⟩
  | 95 => ⟨S_, .f32⟩
  | 96 => ⟨S1000000, .f32⟩
  | 97 => ⟨S1000000, .f32⟩
  | 98 => ⟨S_, .f32⟩
  | 99 => ⟨S1000000, .f32⟩
  | 100 => ⟨S1000000, .f32⟩
  | 101 => ⟨S1000000, .f32⟩
  | 102 => ⟨S_, .f32⟩
  | 103 => ⟨S1000000, .f32⟩
  | 104 => ⟨S1000000, .f32⟩
  | 105 => ⟨S1000000, .f32⟩
  | 106 => ⟨S_, .f32⟩
  | 107 => ⟨S1000000, .f32⟩
  | 108 => ⟨S1000000, .f32⟩
  | 109 => ⟨S_, .f32⟩
  | 110 => ⟨S1000000, .f32⟩
  | 111 => ⟨S1000000, .f32⟩
  | 112 => ⟨S1000000, .f32⟩
  | 113 => ⟨S_, .f32⟩
  | 114 => ⟨S1000000, .f32⟩
  | 115 => ⟨S1000000, .f32⟩
  | 116 => ⟨S1000000, .f32⟩
  | 117 => ⟨S_, .f32⟩
  | 118 => ⟨S1000000, .f32⟩
  | 119 => ⟨S1000000, .f32⟩
  | 120 => ⟨S_, .f32⟩
  | 121 => ⟨S1000000, .f32⟩
  | 122 => ⟨S1000000, .f32⟩
  | 123 => ⟨S1000000, .f32⟩
  | 124 => ⟨S_, .f32⟩
  | 125 => ⟨S1000000, .f32⟩
  | 126 => ⟨S1000000, .f32⟩
  | 127 => ⟨S1000000, .f32⟩
  | _ => ⟨S1000000x2, .f32⟩

abbrev hbmTy0_3 (i : Nat) : BufTy := match i % 128 with
  | 0 => ⟨S_, .f32⟩
  | 1 => ⟨S1000000, .f32⟩
  | 2 => ⟨S1000000, .f32⟩
  | 3 => ⟨S_, .f32⟩
  | 4 => ⟨S1000000, .f32⟩
  | 5 => ⟨S1000000, .f32⟩
  | 6 => ⟨S1000000, .f32⟩
  | 7 => ⟨S_, .f32⟩
  | 8 => ⟨S1000000, .f32⟩
  | 9 => ⟨S1000000, .f32⟩
  | 10 => ⟨S1000000, .f32⟩
  | 11 => ⟨S_, .f32⟩
  | 12 => ⟨S1000000, .f32⟩
  | 13 => ⟨S1000000, .f32⟩
  | 14 => ⟨S1000000, .f32⟩
  | 15 => ⟨S_, .f32⟩
  | 16 => ⟨S1000000, .f32⟩
  | 17 => ⟨S1000000, .f32⟩
  | 18 => ⟨S1000000, .f32⟩
  | 19 => ⟨S_, .f32⟩
  | 20 => ⟨S1000000, .f32⟩
  | 21 => ⟨S1000000, .f32⟩
  | 22 => ⟨S_, .f32⟩
  | 23 => ⟨S1000000, .f32⟩
  | 24 => ⟨S1000000, .f32⟩
  | 25 => ⟨S1000000, .f32⟩
  | 26 => ⟨S_, .f32⟩
  | 27 => ⟨S1000000, .f32⟩
  | 28 => ⟨S1000000, .f32⟩
  | 29 => ⟨S1000000, .f32⟩
  | 30 => ⟨S_, .f32⟩
  | 31 => ⟨S1000000, .f32⟩
  | 32 => ⟨S1000000, .f32⟩
  | 33 => ⟨S_, .f32⟩
  | 34 => ⟨S1000000, .f32⟩
  | 35 => ⟨S1000000, .f32⟩
  | 36 => ⟨S1000000, .f32⟩
  | 37 => ⟨S_, .f32⟩
  | 38 => ⟨S1000000, .f32⟩
  | 39 => ⟨S1000000, .f32⟩
  | 40 => ⟨S1000000, .f32⟩
  | 41 => ⟨S_, .f32⟩
  | 42 => ⟨S1000000, .f32⟩
  | 43 => ⟨S1000000, .f32⟩
  | 44 => ⟨S_, .f32⟩
  | 45 => ⟨S1000000, .f32⟩
  | 46 => ⟨S1000000, .f32⟩
  | 47 => ⟨S1000000, .f32⟩
  | 48 => ⟨S_, .f32⟩
  | 49 => ⟨S1000000, .f32⟩
  | 50 => ⟨S1000000, .f32⟩
  | 51 => ⟨S1000000, .f32⟩
  | 52 => ⟨S_, .f32⟩
  | 53 => ⟨S1000000, .f32⟩
  | 54 => ⟨S1000000, .f32⟩
  | 55 => ⟨S1000000, .f32⟩
  | 56 => ⟨S_, .f32⟩
  | 57 => ⟨S1000000, .f32⟩
  | 58 => ⟨S1000000, .f32⟩
  | 59 => ⟨S1000000, .f32⟩
  | 60 => ⟨S_, .f32⟩
  | 61 => ⟨S1000000, .f32⟩
  | 62 => ⟨S1000000, .f32⟩
  | 63 => ⟨S_, .f32⟩
  | 64 => ⟨S1000000, .f32⟩
  | 65 => ⟨S1000000, .f32⟩
  | 66 => ⟨S1000000, .f32⟩
  | 67 => ⟨S_, .f32⟩
  | 68 => ⟨S1000000, .f32⟩
  | 69 => ⟨S1000000, .f32⟩
  | 70 => ⟨S1000000, .f32⟩
  | 71 => ⟨S_, .f32⟩
  | 72 => ⟨S1000000, .f32⟩
  | 73 => ⟨S1000000, .f32⟩
  | 74 => ⟨S_, .f32⟩
  | 75 => ⟨S1000000, .f32⟩
  | 76 => ⟨S1000000, .f32⟩
  | 77 => ⟨S1000000, .f32⟩
  | 78 => ⟨S_, .f32⟩
  | 79 => ⟨S1000000, .f32⟩
  | 80 => ⟨S1000000, .f32⟩
  | 81 => ⟨S1000000, .f32⟩
  | 82 => ⟨S_, .f32⟩
  | 83 => ⟨S1000000, .f32⟩
  | 84 => ⟨S1000000, .f32⟩
  | 85 => ⟨S1000000, .f32⟩
  | 86 => ⟨S_, .f32⟩
  | 87 => ⟨S1000000, .f32⟩
  | 88 => ⟨S1000000, .f32⟩
  | 89 => ⟨S1000000, .f32⟩
  | 90 => ⟨S_, .f32⟩
  | 91 => ⟨S1000000, .f32⟩
  | 92 => ⟨S1000000, .f32⟩
  | 93 => ⟨S_, .f32⟩
  | 94 => ⟨S1000000, .f32⟩
  | 95 => ⟨S1000000, .f32⟩
  | 96 => ⟨S1000000, .f32⟩
  | 97 => ⟨S_, .f32⟩
  | 98 => ⟨S1000000, .f32⟩
  | 99 => ⟨S1000000, .f32⟩
  | 100 => ⟨S1000000, .f32⟩
  | 101 => ⟨S_, .f32⟩
  | 102 => ⟨S1000000, .f32⟩
  | 103 => ⟨S1000000, .f32⟩
  | 104 => ⟨S1000000, .f32⟩
  | 105 => ⟨S_, .f32⟩
  | 106 => ⟨S1000000, .f32⟩
  | 107 => ⟨S1000000, .f32⟩
  | 108 => ⟨S1000000, .f32⟩
  | 109 => ⟨S_, .f32⟩
  | 110 => ⟨S1000000, .f32⟩
  | 111 => ⟨S1000000, .f32⟩
  | 112 => ⟨S1000000, .f32⟩
  | 113 => ⟨S_, .f32⟩
  | 114 => ⟨S1000000, .f32⟩
  | 115 => ⟨S1000000, .f32⟩
  | 116 => ⟨S1000000, .f32⟩
  | 117 => ⟨S_, .f32⟩
  | 118 => ⟨S1000000, .f32⟩
  | 119 => ⟨S1000000, .f32⟩
  | 120 => ⟨S1000000, .f32⟩
  | 121 => ⟨S_, .f32⟩
  | 122 => ⟨S1000000, .f32⟩
  | 123 => ⟨S1000000, .f32⟩
  | 124 => ⟨S1000000, .f32⟩
  | 125 => ⟨S_, .f32⟩
  | 126 => ⟨S1000000, .f32⟩
  | 127 => ⟨S1000000, .f32⟩
  | _ => ⟨S1000000x2, .f32⟩

abbrev hbmTy0_4 (i : Nat) : BufTy := match i % 128 with
  | 0 => ⟨S1000000, .f32⟩
  | 1 => ⟨S_, .f32⟩
  | 2 => ⟨S1000000, .f32⟩
  | 3 => ⟨S1000000, .f32⟩
  | 4 => ⟨S1000000, .f32⟩
  | 5 => ⟨S_, .f32⟩
  | 6 => ⟨S1000000, .f32⟩
  | 7 => ⟨S1000000, .f32⟩
  | 8 => ⟨S1000000, .f32⟩
  | 9 => ⟨S_, .f32⟩
  | 10 => ⟨S1000000, .f32⟩
  | 11 => ⟨S1000000, .f32⟩
  | 12 => ⟨S1000000, .f32⟩
  | 13 => ⟨S_, .f32⟩
  | 14 => ⟨S1000000, .f32⟩
  | 15 => ⟨S1000000, .f32⟩
  | 16 => ⟨S1000000, .f32⟩
  | 17 => ⟨S_, .f32⟩
  | 18 => ⟨S1000000, .f32⟩
  | 19 => ⟨S1000000, .f32⟩
  | 20 => ⟨S1000000, .f32⟩
  | 21 => ⟨S_, .f32⟩
  | 22 => ⟨S1000000, .f32⟩
  | 23 => ⟨S1000000, .f32⟩
  | 24 => ⟨S1000000, .f32⟩
  | 25 => ⟨S_, .f32⟩
  | 26 => ⟨S1000000, .f32⟩
  | 27 => ⟨S1000000, .f32⟩
  | 28 => ⟨S1000000, .f32⟩
  | 29 => ⟨S_, .f32⟩
  | 30 => ⟨S1000000, .f32⟩
  | 31 => ⟨S1000000, .f32⟩
  | 32 => ⟨S1000000, .f32⟩
  | 33 => ⟨S_, .f32⟩
  | 34 => ⟨S1000000, .f32⟩
  | 35 => ⟨S1000000, .f32⟩
  | 36 => ⟨S1000000, .f32⟩
  | 37 => ⟨S_, .f32⟩
  | 38 => ⟨S1000000, .f32⟩
  | 39 => ⟨S1000000, .f32⟩
  | 40 => ⟨S1000000, .f32⟩
  | 41 => ⟨S_, .f32⟩
  | 42 => ⟨S1000000, .f32⟩
  | 43 => ⟨S1000000, .f32⟩
  | 44 => ⟨S1000000, .f32⟩
  | 45 => ⟨S_, .f32⟩
  | 46 => ⟨S1000000, .f32⟩
  | 47 => ⟨S1000000, .f32⟩
  | 48 => ⟨S1000000, .f32⟩
  | 49 => ⟨S_, .f32⟩
  | 50 => ⟨S1000000, .f32⟩
  | 51 => ⟨S1000000, .f32⟩
  | 52 => ⟨S_, .f32⟩
  | 53 => ⟨S1000000, .f32⟩
  | 54 => ⟨S1000000, .f32⟩
  | 55 => ⟨S1000000, .f32⟩
  | 56 => ⟨S_, .f32⟩
  | 57 => ⟨S1000000, .f32⟩
  | 58 => ⟨S1000000, .f32⟩
  | 59 => ⟨S_, .f32⟩
  | 60 => ⟨S1000000, .f32⟩
  | 61 => ⟨S1000000, .f32⟩
  | 62 => ⟨S1000000, .f32⟩
  | 63 => ⟨S_, .f32⟩
  | 64 => ⟨S1000000, .f32⟩
  | 65 => ⟨S1000000, .f32⟩
  | 66 => ⟨S1000000, .f32⟩
  | 67 => ⟨S_, .f32⟩
  | 68 => ⟨S1000000, .f32⟩
  | 69 => ⟨S1000000, .f32⟩
  | 70 => ⟨S1000000, .f32⟩
  | 71 => ⟨S_, .f32⟩
  | 72 => ⟨S1000000, .f32⟩
  | 73 => ⟨S1000000, .f32⟩
  | 74 => ⟨S_, .f32⟩
  | 75 => ⟨S1000000, .f32⟩
  | 76 => ⟨S1000000, .f32⟩
  | 77 => ⟨S1000000, .f32⟩
  | 78 => ⟨S_, .f32⟩
  | 79 => ⟨S1000000, .f32⟩
  | 80 => ⟨S1000000, .f32⟩
  | 81 => ⟨S1000000, .f32⟩
  | 82 => ⟨S_, .f32⟩
  | 83 => ⟨S1000000, .f32⟩
  | 84 => ⟨S1000000, .f32⟩
  | 85 => ⟨S1000000, .f32⟩
  | 86 => ⟨S_, .f32⟩
  | 87 => ⟨S1000000, .f32⟩
  | 88 => ⟨S1000000, .f32⟩
  | 89 => ⟨S1000000, .f32⟩
  | 90 => ⟨S_, .f32⟩
  | 91 => ⟨S1000000, .f32⟩
  | 92 => ⟨S1000000, .f32⟩
  | 93 => ⟨S1000000, .f32⟩
  | 94 => ⟨S_, .f32⟩
  | 95 => ⟨S1000000, .f32⟩
  | 96 => ⟨S1000000, .f32⟩
  | 97 => ⟨S_, .f32⟩
  | 98 => ⟨S1000000, .f32⟩
  | 99 => ⟨S1000000, .f32⟩
  | 100 => ⟨S1000000, .f32⟩
  | 101 => ⟨S_, .f32⟩
  | 102 => ⟨S1000000, .f32⟩
  | 103 => ⟨S1000000, .f32⟩
  | 104 => ⟨S1000000, .f32⟩
  | 105 => ⟨S_, .f32⟩
  | 106 => ⟨S1000000, .f32⟩
  | 107 => ⟨S1000000, .f32⟩
  | 108 => ⟨S1000000, .f32⟩
  | 109 => ⟨S_, .f32⟩
  | 110 => ⟨S1000000, .f32⟩
  | 111 => ⟨S1000000, .f32⟩
  | 112 => ⟨S1000000, .f32⟩
  | 113 => ⟨S_, .f32⟩
  | 114 => ⟨S1000000, .f32⟩
  | 115 => ⟨S1000000, .f32⟩
  | 116 => ⟨S1000000, .f32⟩
  | 117 => ⟨S_, .f32⟩
  | 118 => ⟨S1000000, .f32⟩
  | 119 => ⟨S1000000, .f32⟩
  | 120 => ⟨S1000000, .f32⟩
  | 121 => ⟨S_, .f32⟩
  | 122 => ⟨S1000000, .f32⟩
  | 123 => ⟨S1000000, .f32⟩
  | 124 => ⟨S1000000, .f32⟩
  | 125 => ⟨S_, .f32⟩
  | 126 => ⟨S1000000, .f32⟩
  | 127 => ⟨S1000000, .f32⟩
  | _ => ⟨S1000000x2, .f32⟩

abbrev hbmTy0_5 (i : Nat) : BufTy := match i % 128 with
  | 0 => ⟨S_, .f32⟩
  | 1 => ⟨S1000000, .f32⟩
  | 2 => ⟨S1000000, .f32⟩
  | 3 => ⟨S1000000, .f32⟩
  | 4 => ⟨S_, .f32⟩
  | 5 => ⟨S1000000, .f32⟩
  | 6 => ⟨S1000000, .f32⟩
  | 7 => ⟨S1000000, .f32⟩
  | 8 => ⟨S_, .f32⟩
  | 9 => ⟨S1000000, .f32⟩
  | 10 => ⟨S1000000, .f32⟩
  | 11 => ⟨S1000000, .f32⟩
  | 12 => ⟨S_, .f32⟩
  | 13 => ⟨S1000000, .f32⟩
  | 14 => ⟨S1000000, .f32⟩
  | 15 => ⟨S1000000, .f32⟩
  | 16 => ⟨S_, .f32⟩
  | 17 => ⟨S1000000, .f32⟩
  | 18 => ⟨S1000000, .f32⟩
  | 19 => ⟨S1000000, .f32⟩
  | 20 => ⟨S_, .f32⟩
  | 21 => ⟨S1000000, .f32⟩
  | 22 => ⟨S1000000, .f32⟩
  | 23 => ⟨S1000000, .f32⟩
  | 24 => ⟨S_, .f32⟩
  | 25 => ⟨S1000000, .f32⟩
  | 26 => ⟨S1000000, .f32⟩
  | 27 => ⟨S1000000, .f32⟩
  | 28 => ⟨S_, .f32⟩
  | 29 => ⟨S1000000, .f32⟩
  | 30 => ⟨S1000000, .f32⟩
  | 31 => ⟨S1000000, .f32⟩
  | 32 => ⟨S_, .f32⟩
  | 33 => ⟨S1000000, .f32⟩
  | 34 => ⟨S1000000, .f32⟩
  | 35 => ⟨S1000000, .f32⟩
  | 36 => ⟨S_, .f32⟩
  | 37 => ⟨S1000000, .f32⟩
  | 38 => ⟨S1000000, .f32⟩
  | 39 => ⟨S_, .f32⟩
  | 40 => ⟨S1000000, .f32⟩
  | 41 => ⟨S1000000, .f32⟩
  | 42 => ⟨S1000000, .f32⟩
  | 43 => ⟨S_, .f32⟩
  | 44 => ⟨S1000000, .f32⟩
  | 45 => ⟨S1000000, .f32⟩
  | 46 => ⟨S1000000, .f32⟩
  | 47 => ⟨S_, .f32⟩
  | 48 => ⟨S1000000, .f32⟩
  | 49 => ⟨S1000000, .f32⟩
  | 50 => ⟨S1000000, .f32⟩
  | 51 => ⟨S_, .f32⟩
  | 52 => ⟨S1000000, .f32⟩
  | 53 => ⟨S1000000, .f32⟩
  | 54 => ⟨S1000000, .f32⟩
  | 55 => ⟨S_, .f32⟩
  | 56 => ⟨S1000000, .f32⟩
  | 57 => ⟨S1000000, .f32⟩
  | 58 => ⟨S1000000, .f32⟩
  | 59 => ⟨S_, .f32⟩
  | 60 => ⟨S1000000, .f32⟩
  | 61 => ⟨S1000000, .f32⟩
  | 62 => ⟨S1000000, .f32⟩
  | 63 => ⟨S_, .f32⟩
  | 64 => ⟨S1000000, .f32⟩
  | 65 => ⟨S1000000, .f32⟩
  | 66 => ⟨S1000000, .f32⟩
  | 67 => ⟨S_, .f32⟩
  | 68 => ⟨S1000000, .f32⟩
  | 69 => ⟨S1000000, .f32⟩
  | 70 => ⟨S1000000, .f32⟩
  | 71 => ⟨S_, .f32⟩
  | 72 => ⟨S1000000, .f32⟩
  | 73 => ⟨S1000000, .f32⟩
  | 74 => ⟨S1000000, .f32⟩
  | 75 => ⟨S_, .f32⟩
  | 76 => ⟨S1000000, .f32⟩
  | 77 => ⟨S1000000, .f32⟩
  | 78 => ⟨S1000000, .f32⟩
  | 79 => ⟨S_, .f32⟩
  | 80 => ⟨S1000000, .f32⟩
  | 81 => ⟨S1000000, .f32⟩
  | 82 => ⟨S1000000, .f32⟩
  | 83 => ⟨S_, .f32⟩
  | 84 => ⟨S1000000, .f32⟩
  | 85 => ⟨S1000000, .f32⟩
  | 86 => ⟨S_, .f32⟩
  | 87 => ⟨S1000000, .f32⟩
  | 88 => ⟨S1000000, .f32⟩
  | 89 => ⟨S1000000, .f32⟩
  | 90 => ⟨S_, .f32⟩
  | 91 => ⟨S1000000, .f32⟩
  | 92 => ⟨S1000000, .f32⟩
  | 93 => ⟨S1000000, .f32⟩
  | 94 => ⟨S_, .f32⟩
  | 95 => ⟨S1000000, .f32⟩
  | 96 => ⟨S1000000, .f32⟩
  | 97 => ⟨S1000000, .f32⟩
  | 98 => ⟨S_, .f32⟩
  | 99 => ⟨S1000000, .f32⟩
  | 100 => ⟨S1000000, .f32⟩
  | 101 => ⟨S1000000, .f32⟩
  | 102 => ⟨S_, .f32⟩
  | 103 => ⟨S1000000, .f32⟩
  | 104 => ⟨S1000000, .f32⟩
  | 105 => ⟨S1000000, .f32⟩
  | 106 => ⟨S_, .f32⟩
  | 107 => ⟨S1000000, .f32⟩
  | 108 => ⟨S1000000, .f32⟩
  | 109 => ⟨S1000000, .f32⟩
  | 110 => ⟨S_, .f32⟩
  | 111 => ⟨S1000000, .f32⟩
  | 112 => ⟨S1000000, .f32⟩
  | 113 => ⟨S1000000, .f32⟩
  | 114 => ⟨S_, .f32⟩
  | 115 => ⟨S1000000, .f32⟩
  | 116 => ⟨S1000000, .f32⟩
  | 117 => ⟨S1000000, .f32⟩
  | 118 => ⟨S_, .f32⟩
  | 119 => ⟨S1000000, .f32⟩
  | 120 => ⟨S1000000, .f32⟩
  | 121 => ⟨S1000000, .f32⟩
  | 122 => ⟨S_, .f32⟩
  | 123 => ⟨S1000000, .f32⟩
  | 124 => ⟨S1000000, .f32⟩
  | 125 => ⟨S1000000, .f32⟩
  | 126 => ⟨S_, .f32⟩
  | 127 => ⟨S1000000, .f32⟩
  | _ => ⟨S1000000x2, .f32⟩

abbrev hbmTy0_6 (i : Nat) : BufTy := match i % 128 with
  | 0 => ⟨S1000000, .f32⟩
  | 1 => ⟨S1000000, .f32⟩
  | 2 => ⟨S_, .f32⟩
  | 3 => ⟨S1000000, .f32⟩
  | 4 => ⟨S1000000, .f32⟩
  | 5 => ⟨S1000000, .f32⟩
  | 6 => ⟨S_, .f32⟩
  | 7 => ⟨S1000000, .f32⟩
  | 8 => ⟨S1000000, .f32⟩
  | 9 => ⟨S1000000, .f32⟩
  | 10 => ⟨S_, .f32⟩
  | 11 => ⟨S1000000, .f32⟩
  | 12 => ⟨S1000000, .f32⟩
  | 13 => ⟨S_, .f32⟩
  | 14 => ⟨S1000000, .f32⟩
  | 15 => ⟨S1000000, .f32⟩
  | 16 => ⟨S1000000, .f32⟩
  | 17 => ⟨S_, .f32⟩
  | 18 => ⟨S1000000, .f32⟩
  | 19 => ⟨S1000000, .f32⟩
  | 20 => ⟨S1000000, .f32⟩
  | 21 => ⟨S_, .f32⟩
  | 22 => ⟨S1000000, .f32⟩
  | 23 => ⟨S1000000, .f32⟩
  | 24 => ⟨S1000000, .f32⟩
  | 25 => ⟨S_, .f32⟩
  | 26 => ⟨S1000000, .f32⟩
  | 27 => ⟨S1000000, .f32⟩
  | 28 => ⟨S1000000, .f32⟩
  | 29 => ⟨S_, .f32⟩
  | 30 => ⟨S1000000, .f32⟩
  | 31 => ⟨S1000000, .f32⟩
  | 32 => ⟨S1000000, .f32⟩
  | 33 => ⟨S_, .f32⟩
  | 34 => ⟨S1000000, .f32⟩
  | 35 => ⟨S1000000, .f32⟩
  | 36 => ⟨S1000000, .f32⟩
  | 37 => ⟨S_, .f32⟩
  | 38 => ⟨S1000000, .f32⟩
  | 39 => ⟨S1000000, .f32⟩
  | 40 => ⟨S1000000, .f32⟩
  | 41 => ⟨S_, .f32⟩
  | 42 => ⟨S1000000, .f32⟩
  | 43 => ⟨S1000000, .f32⟩
  | 44 => ⟨S1000000, .f32⟩
  | 45 => ⟨S_, .f32⟩
  | 46 => ⟨S1000000, .f32⟩
  | 47 => ⟨S1000000, .f32⟩
  | 48 => ⟨S1000000, .f32⟩
  | 49 => ⟨S_, .f32⟩
  | 50 => ⟨S1000000, .f32⟩
  | 51 => ⟨S1000000, .f32⟩
  | 52 => ⟨S1000000, .f32⟩
  | 53 => ⟨S_, .f32⟩
  | 54 => ⟨S1000000, .f32⟩
  | 55 => ⟨S1000000, .f32⟩
  | 56 => ⟨S1000000, .f32⟩
  | 57 => ⟨S_, .f32⟩
  | 58 => ⟨S1000000, .f32⟩
  | 59 => ⟨S1000000, .f32⟩
  | 60 => ⟨S1000000, .f32⟩
  | 61 => ⟨S_, .f32⟩
  | 62 => ⟨S1000000, .f32⟩
  | 63 => ⟨S1000000, .f32⟩
  | 64 => ⟨S1000000, .f32⟩
  | 65 => ⟨S_, .f32⟩
  | 66 => ⟨S1000000, .f32⟩
  | 67 => ⟨S1000000, .f32⟩
  | 68 => ⟨S1000000, .f32⟩
  | 69 => ⟨S_, .f32⟩
  | 70 => ⟨S1000000, .f32⟩
  | 71 => ⟨S1000000, .f32⟩
  | 72 => ⟨S1000000, .f32⟩
  | 73 => ⟨S_, .f32⟩
  | 74 => ⟨S1000000, .f32⟩
  | 75 => ⟨S1000000, .f32⟩
  | 76 => ⟨S_, .f32⟩
  | 77 => ⟨S1000000, .f32⟩
  | 78 => ⟨S1000000, .f32⟩
  | 79 => ⟨S1000000, .f32⟩
  | 80 => ⟨S_, .f32⟩
  | 81 => ⟨S1000000, .f32⟩
  | 82 => ⟨S1000000, .f32⟩
  | 83 => ⟨S1000000, .f32⟩
  | 84 => ⟨S_, .f32⟩
  | 85 => ⟨S1000000, .f32⟩
  | 86 => ⟨S1000000, .f32⟩
  | 87 => ⟨S1000000, .f32⟩
  | 88 => ⟨S_, .f32⟩
  | 89 => ⟨S1000000, .f32⟩
  | 90 => ⟨S1000000, .f32⟩
  | 91 => ⟨S1000000, .f32⟩
  | 92 => ⟨S_, .f32⟩
  | 93 => ⟨S1000000, .f32⟩
  | 94 => ⟨S1000000, .f32⟩
  | 95 => ⟨S1000000, .f32⟩
  | 96 => ⟨S_, .f32⟩
  | 97 => ⟨S1000000, .f32⟩
  | 98 => ⟨S1000000, .f32⟩
  | 99 => ⟨S1000000, .f32⟩
  | 100 => ⟨S_, .f32⟩
  | 101 => ⟨S1000000, .f32⟩
  | 102 => ⟨S1000000, .f32⟩
  | 103 => ⟨S1000000, .f32⟩
  | 104 => ⟨S_, .f32⟩
  | 105 => ⟨S1000000, .f32⟩
  | 106 => ⟨S1000000, .f32⟩
  | 107 => ⟨S1000000, .f32⟩
  | 108 => ⟨S_, .f32⟩
  | 109 => ⟨S1000000, .f32⟩
  | 110 => ⟨S1000000, .f32⟩
  | 111 => ⟨S1000000, .f32⟩
  | 112 => ⟨S_, .f32⟩
  | 113 => ⟨S1000000, .f32⟩
  | 114 => ⟨S1000000, .f32⟩
  | 115 => ⟨S1000000, .f32⟩
  | 116 => ⟨S_, .f32⟩
  | 117 => ⟨S1000000, .f32⟩
  | 118 => ⟨S1000000, .f32⟩
  | 119 => ⟨S1000000, .f32⟩
  | 120 => ⟨S_, .f32⟩
  | 121 => ⟨S1000000, .f32⟩
  | 122 => ⟨S1000000, .f32⟩
  | 123 => ⟨S1000000, .f32⟩
  | 124 => ⟨S_, .f32⟩
  | 125 => ⟨S1000000, .f32⟩
  | 126 => ⟨S1000000, .f32⟩
  | 127 => ⟨S1000000, .f32⟩
  | _ => ⟨S1000000x2, .f32⟩

abbrev hbmTy0_7 (i : Nat) : BufTy := match i % 128 with
  | 0 => ⟨S_, .f32⟩
  | 1 => ⟨S1000000, .f32⟩
  | 2 => ⟨S1000000, .f32⟩
  | 3 => ⟨S1000000, .f32⟩
  | 4 => ⟨S_, .f32⟩
  | 5 => ⟨S1000000, .f32⟩
  | 6 => ⟨S1000000, .f32⟩
  | 7 => ⟨S1000000, .f32⟩
  | 8 => ⟨S_, .f32⟩
  | 9 => ⟨S1000000, .f32⟩
  | 10 => ⟨S1000000, .f32⟩
  | 11 => ⟨S1000000, .f32⟩
  | 12 => ⟨S_, .f32⟩
  | 13 => ⟨S1000000, .f32⟩
  | 14 => ⟨S1000000, .f32⟩
  | 15 => ⟨S1000000, .f32⟩
  | 16 => ⟨S_, .f32⟩
  | 17 => ⟨S1000000, .f32⟩
  | 18 => ⟨S1000000, .f32⟩
  | 19 => ⟨S_, .f32⟩
  | 20 => ⟨S1000000, .f32⟩
  | 21 => ⟨S1000000, .f32⟩
  | 22 => ⟨S1000000, .f32⟩
  | 23 => ⟨S_, .f32⟩
  | 24 => ⟨S1000000, .f32⟩
  | 25 => ⟨S1000000, .f32⟩
  | 26 => ⟨S1000000, .f32⟩
  | 27 => ⟨S_, .f32⟩
  | 28 => ⟨S1000000, .f32⟩
  | 29 => ⟨S1000000, .f32⟩
  | 30 => ⟨S1000000, .f32⟩
  | 31 => ⟨S_, .f32⟩
  | 32 => ⟨S1000000, .f32⟩
  | 33 => ⟨S1000000, .f32⟩
  | 34 => ⟨S1000000, .f32⟩
  | 35 => ⟨S_, .f32⟩
  | 36 => ⟨S1000000, .f32⟩
  | 37 => ⟨S1000000, .f32⟩
  | 38 => ⟨S1000000, .f32⟩
  | 39 => ⟨S_, .f32⟩
  | 40 => ⟨S1000000, .f32⟩
  | 41 => ⟨S1000000, .f32⟩
  | 42 => ⟨S1000000, .f32⟩
  | 43 => ⟨S_, .f32⟩
  | 44 => ⟨S1000000, .f32⟩
  | 45 => ⟨S1000000, .f32⟩
  | 46 => ⟨S1000000, .f32⟩
  | 47 => ⟨S_, .f32⟩
  | 48 => ⟨S1000000, .f32⟩
  | 49 => ⟨S1000000, .f32⟩
  | 50 => ⟨S1000000, .f32⟩
  | 51 => ⟨S_, .f32⟩
  | 52 => ⟨S1000000, .f32⟩
  | 53 => ⟨S1000000, .f32⟩
  | 54 => ⟨S1000000, .f32⟩
  | 55 => ⟨S1000000x1, .f32⟩
  | 56 => ⟨S1000000x1, .f32⟩
  | 57 => ⟨S1000000x1, .f32⟩
  | 58 => ⟨S1000000x1, .f32⟩
  | 59 => ⟨S1000000x1, .f32⟩
  | 60 => ⟨S1000000x1, .f32⟩
  | 61 => ⟨S1000000x1, .f32⟩
  | 62 => ⟨S1000000x1, .f32⟩
  | 63 => ⟨S1000000x1, .f32⟩
  | 64 => ⟨S1000000x1, .f32⟩
  | 65 => ⟨S1000000x1, .f32⟩
  | 66 => ⟨S1000000x1, .f32⟩
  | 67 => ⟨S1000000x1, .f32⟩
  | 68 => ⟨S1000000x1, .f32⟩
  | 69 => ⟨S1000000x1, .f32⟩
  | 70 => ⟨S1000000x1, .f32⟩
  | 71 => ⟨S1000000x1, .f32⟩
  | 72 => ⟨S1000000x1, .f32⟩
  | 73 => ⟨S1000000x1, .f32⟩
  | 74 => ⟨S1000000x1, .f32⟩
  | 75 => ⟨S1000000x1, .f32⟩
  | 76 => ⟨S1000000x1, .f32⟩
  | 77 => ⟨S1000000x1, .f32⟩
  | 78 => ⟨S1000000x1, .f32⟩
  | 79 => ⟨S1000000x1, .f32⟩
  | 80 => ⟨S1000000x1, .f32⟩
  | 81 => ⟨S1000000x1, .f32⟩
  | 82 => ⟨S1000000x1, .f32⟩
  | 83 => ⟨S1000000x1, .f32⟩
  | 84 => ⟨S1000000x1, .f32⟩
  | 85 => ⟨S1000000x1, .f32⟩
  | 86 => ⟨S1000000x1, .f32⟩
  | 87 => ⟨S1000000x1, .f32⟩
  | 88 => ⟨S1000000x1, .f32⟩
  | 89 => ⟨S1000000x1, .f32⟩
  | 90 => ⟨S1000000x1, .f32⟩
  | 91 => ⟨S1000000x1, .f32⟩
  | 92 => ⟨S1000000x1, .f32⟩
  | 93 => ⟨S1000000x1, .f32⟩
  | 94 => ⟨S1000000x1, .f32⟩
  | 95 => ⟨S1000000x1, .f32⟩
  | 96 => ⟨S1000000x1, .f32⟩
  | 97 => ⟨S1000000x1, .f32⟩
  | 98 => ⟨S1000000x1, .f32⟩
  | 99 => ⟨S1000000x1, .f32⟩
  | 100 => ⟨S1000000x1, .f32⟩
  | 101 => ⟨S1000000x1, .f32⟩
  | 102 => ⟨S1000000x1, .f32⟩
  | 103 => ⟨S1000000x1, .f32⟩
  | 104 => ⟨S1000000x1, .f32⟩
  | 105 => ⟨S1000000x1, .f32⟩
  | 106 => ⟨S1000000x1, .f32⟩
  | 107 => ⟨S1000000x1, .f32⟩
  | 108 => ⟨S1000000x1, .f32⟩
  | 109 => ⟨S1000000x1, .f32⟩
  | 110 => ⟨S1000000x1, .f32⟩
  | 111 => ⟨S1000000x1, .f32⟩
  | 112 => ⟨S1000000x1, .f32⟩
  | 113 => ⟨S1000000x1, .f32⟩
  | 114 => ⟨S1000000x1, .f32⟩
  | 115 => ⟨S1000000x1, .f32⟩
  | 116 => ⟨S1000000x1, .f32⟩
  | 117 => ⟨S1000000x1, .f32⟩
  | 118 => ⟨S1000000x1, .f32⟩
  | 119 => ⟨S1000000x1, .f32⟩
  | 120 => ⟨S1000000x1, .f32⟩
  | 121 => ⟨S1000000x1, .f32⟩
  | 122 => ⟨S1000000x1, .f32⟩
  | 123 => ⟨S1000000x1, .f32⟩
  | 124 => ⟨S1000000x1, .f32⟩
  | 125 => ⟨S1000000x1, .f32⟩
  | 126 => ⟨S1000000x1, .f32⟩
  | 127 => ⟨S1000000x1, .f32⟩
  | _ => ⟨S1000000x2, .f32⟩

abbrev hbmTy0_8 (i : Nat) : BufTy := match i % 128 with
  | 0 => ⟨S1000000x1, .f32⟩
  | 1 => ⟨S1000000x1, .f32⟩
  | 2 => ⟨S1000000x1, .f32⟩
  | 3 => ⟨S1000000x1, .f32⟩
  | 4 => ⟨S1000000x1, .f32⟩
  | 5 => ⟨S1000000x1, .f32⟩
  | 6 => ⟨S1000000x1, .f32⟩
  | 7 => ⟨S1000000x1, .f32⟩
  | 8 => ⟨S1000000x1, .f32⟩
  | 9 => ⟨S1000000x1, .f32⟩
  | 10 => ⟨S1000000x1, .f32⟩
  | 11 => ⟨S1000000x1, .f32⟩
  | 12 => ⟨S1000000x1, .f32⟩
  | 13 => ⟨S1000000x1, .f32⟩
  | 14 => ⟨S1000000x1, .f32⟩
  | 15 => ⟨S1000000x1, .f32⟩
  | 16 => ⟨S1000000x1, .f32⟩
  | 17 => ⟨S1000000x1, .f32⟩
  | 18 => ⟨S1000000x1, .f32⟩
  | 19 => ⟨S1000000x1, .f32⟩
  | 20 => ⟨S1000000x1, .f32⟩
  | 21 => ⟨S1000000x1, .f32⟩
  | 22 => ⟨S1000000x1, .f32⟩
  | 23 => ⟨S1000000x1, .f32⟩
  | 24 => ⟨S1000000x1, .f32⟩
  | 25 => ⟨S1000000x1, .f32⟩
  | 26 => ⟨S1000000x1, .f32⟩
  | 27 => ⟨S1000000x16, .f32⟩
  | 28 => ⟨S1000000x16, .f32⟩
  | 29 => ⟨S1000000x16, .f32⟩
  | 30 => ⟨S1000000x16, .f32⟩
  | 31 => ⟨S1000000x16, .f32⟩
  | 32 => ⟨S1000000x16, .f32⟩
  | 33 => ⟨S1000000x4, .f32⟩
  | 34 => ⟨S1000000x100, .f32⟩
  | _ => ⟨S1000000x2, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S1000000x2, .f32⟩

abbrev bufTy : (tb : Table) → Fin (tcTables nBuf tb) → BufTy
  | .hbm, ⟨i, _⟩ => hbmTy i
  | _, _ => ⟨S1000000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_cst_4 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_5 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_6 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_7 : Ref sig .tc := ⟨.hbm, 33, rfl⟩
abbrev main_v24 : Ref sig .tc := ⟨.hbm, 34, rfl⟩
abbrev main_v25 : Ref sig .tc := ⟨.hbm, 35, rfl⟩
abbrev main_cst_8 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_9 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_10 : Ref sig .tc := ⟨.hbm, 44, rfl⟩
abbrev main_v32 : Ref sig .tc := ⟨.hbm, 45, rfl⟩
abbrev main_v33 : Ref sig .tc := ⟨.hbm, 46, rfl⟩
abbrev main_cst_11 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_12 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_13 : Ref sig .tc := ⟨.hbm, 55, rfl⟩
abbrev main_v40 : Ref sig .tc := ⟨.hbm, 56, rfl⟩
abbrev main_v41 : Ref sig .tc := ⟨.hbm, 57, rfl⟩
abbrev main_cst_14 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_15 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_16 : Ref sig .tc := ⟨.hbm, 66, rfl⟩
abbrev main_v48 : Ref sig .tc := ⟨.hbm, 67, rfl⟩
abbrev main_v49 : Ref sig .tc := ⟨.hbm, 68, rfl⟩
abbrev main_cst_17 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_18 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_19 : Ref sig .tc := ⟨.hbm, 77, rfl⟩
abbrev main_v56 : Ref sig .tc := ⟨.hbm, 78, rfl⟩
abbrev main_v57 : Ref sig .tc := ⟨.hbm, 79, rfl⟩
abbrev main_cst_20 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_21 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_22 : Ref sig .tc := ⟨.hbm, 88, rfl⟩
abbrev main_v64 : Ref sig .tc := ⟨.hbm, 89, rfl⟩
abbrev main_v65 : Ref sig .tc := ⟨.hbm, 90, rfl⟩
abbrev main_cst_23 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_24 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_25 : Ref sig .tc := ⟨.hbm, 99, rfl⟩
abbrev main_v72 : Ref sig .tc := ⟨.hbm, 100, rfl⟩
abbrev main_v73 : Ref sig .tc := ⟨.hbm, 101, rfl⟩
abbrev main_cst_26 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_27 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_28 : Ref sig .tc := ⟨.hbm, 110, rfl⟩
abbrev main_v80 : Ref sig .tc := ⟨.hbm, 111, rfl⟩
abbrev main_v81 : Ref sig .tc := ⟨.hbm, 112, rfl⟩
abbrev main_cst_29 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_30 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_31 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_32 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_33 : Ref sig .tc := ⟨.hbm, 129, rfl⟩
abbrev main_v94 : Ref sig .tc := ⟨.hbm, 130, rfl⟩
abbrev main_v95 : Ref sig .tc := ⟨.hbm, 131, rfl⟩
abbrev main_cst_34 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_35 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_36 : Ref sig .tc := ⟨.hbm, 140, rfl⟩
abbrev main_v102 : Ref sig .tc := ⟨.hbm, 141, rfl⟩
abbrev main_v103 : Ref sig .tc := ⟨.hbm, 142, rfl⟩
abbrev main_cst_37 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_38 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_39 : Ref sig .tc := ⟨.hbm, 151, rfl⟩
abbrev main_v110 : Ref sig .tc := ⟨.hbm, 152, rfl⟩
abbrev main_v111 : Ref sig .tc := ⟨.hbm, 153, rfl⟩
abbrev main_cst_40 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_cst_41 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_cst_42 : Ref sig .tc := ⟨.hbm, 162, rfl⟩
abbrev main_v118 : Ref sig .tc := ⟨.hbm, 163, rfl⟩
abbrev main_v119 : Ref sig .tc := ⟨.hbm, 164, rfl⟩
abbrev main_cst_43 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_cst_44 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_cst_45 : Ref sig .tc := ⟨.hbm, 173, rfl⟩
abbrev main_v126 : Ref sig .tc := ⟨.hbm, 174, rfl⟩
abbrev main_v127 : Ref sig .tc := ⟨.hbm, 175, rfl⟩
abbrev main_cst_46 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_cst_47 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_cst_48 : Ref sig .tc := ⟨.hbm, 184, rfl⟩
abbrev main_v134 : Ref sig .tc := ⟨.hbm, 185, rfl⟩
abbrev main_v135 : Ref sig .tc := ⟨.hbm, 186, rfl⟩
abbrev main_cst_49 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_cst_50 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_cst_51 : Ref sig .tc := ⟨.hbm, 195, rfl⟩
abbrev main_v142 : Ref sig .tc := ⟨.hbm, 196, rfl⟩
abbrev main_v143 : Ref sig .tc := ⟨.hbm, 197, rfl⟩
abbrev main_cst_52 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_cst_53 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_cst_54 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_cst_55 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_cst_56 : Ref sig .tc := ⟨.hbm, 214, rfl⟩
abbrev main_v156 : Ref sig .tc := ⟨.hbm, 215, rfl⟩
abbrev main_v157 : Ref sig .tc := ⟨.hbm, 216, rfl⟩
abbrev main_cst_57 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_cst_58 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_cst_59 : Ref sig .tc := ⟨.hbm, 225, rfl⟩
abbrev main_v164 : Ref sig .tc := ⟨.hbm, 226, rfl⟩
abbrev main_v165 : Ref sig .tc := ⟨.hbm, 227, rfl⟩
abbrev main_cst_60 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_cst_61 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_cst_62 : Ref sig .tc := ⟨.hbm, 236, rfl⟩
abbrev main_v172 : Ref sig .tc := ⟨.hbm, 237, rfl⟩
abbrev main_v173 : Ref sig .tc := ⟨.hbm, 238, rfl⟩
abbrev main_cst_63 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_cst_64 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_cst_65 : Ref sig .tc := ⟨.hbm, 247, rfl⟩
abbrev main_v180 : Ref sig .tc := ⟨.hbm, 248, rfl⟩
abbrev main_v181 : Ref sig .tc := ⟨.hbm, 249, rfl⟩
abbrev main_cst_66 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_cst_67 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_cst_68 : Ref sig .tc := ⟨.hbm, 258, rfl⟩
abbrev main_v188 : Ref sig .tc := ⟨.hbm, 259, rfl⟩
abbrev main_v189 : Ref sig .tc := ⟨.hbm, 260, rfl⟩
abbrev main_cst_69 : Ref sig .tc := ⟨.hbm, 261, rfl⟩
abbrev main_v190 : Ref sig .tc := ⟨.hbm, 262, rfl⟩
abbrev main_v191 : Ref sig .tc := ⟨.hbm, 263, rfl⟩
abbrev main_v192 : Ref sig .tc := ⟨.hbm, 264, rfl⟩
abbrev main_cst_70 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_cst_71 : Ref sig .tc := ⟨.hbm, 269, rfl⟩
abbrev main_v196 : Ref sig .tc := ⟨.hbm, 270, rfl⟩
abbrev main_v197 : Ref sig .tc := ⟨.hbm, 271, rfl⟩
abbrev main_cst_72 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_cst_73 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_cst_74 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_cst_75 : Ref sig .tc := ⟨.hbm, 284, rfl⟩
abbrev main_v207 : Ref sig .tc := ⟨.hbm, 285, rfl⟩
abbrev main_v208 : Ref sig .tc := ⟨.hbm, 286, rfl⟩
abbrev main_v209 : Ref sig .tc := ⟨.hbm, 287, rfl⟩
abbrev main_cst_76 : Ref sig .tc := ⟨.hbm, 288, rfl⟩
abbrev main_v210 : Ref sig .tc := ⟨.hbm, 289, rfl⟩
abbrev main_v211 : Ref sig .tc := ⟨.hbm, 290, rfl⟩
abbrev main_cst_77 : Ref sig .tc := ⟨.hbm, 291, rfl⟩
abbrev main_v212 : Ref sig .tc := ⟨.hbm, 292, rfl⟩
abbrev main_v213 : Ref sig .tc := ⟨.hbm, 293, rfl⟩
abbrev main_v214 : Ref sig .tc := ⟨.hbm, 294, rfl⟩
abbrev main_cst_78 : Ref sig .tc := ⟨.hbm, 295, rfl⟩
abbrev main_v215 : Ref sig .tc := ⟨.hbm, 296, rfl⟩
abbrev main_v216 : Ref sig .tc := ⟨.hbm, 297, rfl⟩
abbrev main_v217 : Ref sig .tc := ⟨.hbm, 298, rfl⟩
abbrev main_cst_79 : Ref sig .tc := ⟨.hbm, 299, rfl⟩
abbrev main_v218 : Ref sig .tc := ⟨.hbm, 300, rfl⟩
abbrev main_v219 : Ref sig .tc := ⟨.hbm, 301, rfl⟩
abbrev main_cst_80 : Ref sig .tc := ⟨.hbm, 302, rfl⟩
abbrev main_v220 : Ref sig .tc := ⟨.hbm, 303, rfl⟩
abbrev main_v221 : Ref sig .tc := ⟨.hbm, 304, rfl⟩
abbrev main_v222 : Ref sig .tc := ⟨.hbm, 305, rfl⟩
abbrev main_cst_81 : Ref sig .tc := ⟨.hbm, 306, rfl⟩
abbrev main_v223 : Ref sig .tc := ⟨.hbm, 307, rfl⟩
abbrev main_v224 : Ref sig .tc := ⟨.hbm, 308, rfl⟩
abbrev main_v225 : Ref sig .tc := ⟨.hbm, 309, rfl⟩
abbrev main_cst_82 : Ref sig .tc := ⟨.hbm, 310, rfl⟩
abbrev main_v226 : Ref sig .tc := ⟨.hbm, 311, rfl⟩
abbrev main_v227 : Ref sig .tc := ⟨.hbm, 312, rfl⟩
abbrev main_cst_83 : Ref sig .tc := ⟨.hbm, 313, rfl⟩
abbrev main_v228 : Ref sig .tc := ⟨.hbm, 314, rfl⟩
abbrev main_v229 : Ref sig .tc := ⟨.hbm, 315, rfl⟩
abbrev main_v230 : Ref sig .tc := ⟨.hbm, 316, rfl⟩
abbrev main_cst_84 : Ref sig .tc := ⟨.hbm, 317, rfl⟩
abbrev main_v231 : Ref sig .tc := ⟨.hbm, 318, rfl⟩
abbrev main_v232 : Ref sig .tc := ⟨.hbm, 319, rfl⟩
abbrev main_v233 : Ref sig .tc := ⟨.hbm, 320, rfl⟩
abbrev main_cst_85 : Ref sig .tc := ⟨.hbm, 321, rfl⟩
abbrev main_v234 : Ref sig .tc := ⟨.hbm, 322, rfl⟩
abbrev main_v235 : Ref sig .tc := ⟨.hbm, 323, rfl⟩
abbrev main_cst_86 : Ref sig .tc := ⟨.hbm, 324, rfl⟩
abbrev main_v236 : Ref sig .tc := ⟨.hbm, 325, rfl⟩
abbrev main_v237 : Ref sig .tc := ⟨.hbm, 326, rfl⟩
abbrev main_v238 : Ref sig .tc := ⟨.hbm, 327, rfl⟩
abbrev main_cst_87 : Ref sig .tc := ⟨.hbm, 328, rfl⟩
abbrev main_v239 : Ref sig .tc := ⟨.hbm, 329, rfl⟩
abbrev main_v240 : Ref sig .tc := ⟨.hbm, 330, rfl⟩
abbrev main_v241 : Ref sig .tc := ⟨.hbm, 331, rfl⟩
abbrev main_cst_88 : Ref sig .tc := ⟨.hbm, 332, rfl⟩
abbrev main_v242 : Ref sig .tc := ⟨.hbm, 333, rfl⟩
abbrev main_v243 : Ref sig .tc := ⟨.hbm, 334, rfl⟩
abbrev main_cst_89 : Ref sig .tc := ⟨.hbm, 335, rfl⟩
abbrev main_v244 : Ref sig .tc := ⟨.hbm, 336, rfl⟩
abbrev main_v245 : Ref sig .tc := ⟨.hbm, 337, rfl⟩
abbrev main_v246 : Ref sig .tc := ⟨.hbm, 338, rfl⟩
abbrev main_cst_90 : Ref sig .tc := ⟨.hbm, 339, rfl⟩
abbrev main_v247 : Ref sig .tc := ⟨.hbm, 340, rfl⟩
abbrev main_v248 : Ref sig .tc := ⟨.hbm, 341, rfl⟩
abbrev main_v249 : Ref sig .tc := ⟨.hbm, 342, rfl⟩
abbrev main_cst_91 : Ref sig .tc := ⟨.hbm, 343, rfl⟩
abbrev main_v250 : Ref sig .tc := ⟨.hbm, 344, rfl⟩
abbrev main_v251 : Ref sig .tc := ⟨.hbm, 345, rfl⟩
abbrev main_v252 : Ref sig .tc := ⟨.hbm, 346, rfl⟩
abbrev main_cst_92 : Ref sig .tc := ⟨.hbm, 347, rfl⟩
abbrev main_v253 : Ref sig .tc := ⟨.hbm, 348, rfl⟩
abbrev main_v254 : Ref sig .tc := ⟨.hbm, 349, rfl⟩
abbrev main_v255 : Ref sig .tc := ⟨.hbm, 350, rfl⟩
abbrev main_cst_93 : Ref sig .tc := ⟨.hbm, 351, rfl⟩
abbrev main_v256 : Ref sig .tc := ⟨.hbm, 352, rfl⟩
abbrev main_v257 : Ref sig .tc := ⟨.hbm, 353, rfl⟩
abbrev main_cst_94 : Ref sig .tc := ⟨.hbm, 354, rfl⟩
abbrev main_v258 : Ref sig .tc := ⟨.hbm, 355, rfl⟩
abbrev main_v259 : Ref sig .tc := ⟨.hbm, 356, rfl⟩
abbrev main_v260 : Ref sig .tc := ⟨.hbm, 357, rfl⟩
abbrev main_cst_95 : Ref sig .tc := ⟨.hbm, 358, rfl⟩
abbrev main_v261 : Ref sig .tc := ⟨.hbm, 359, rfl⟩
abbrev main_v262 : Ref sig .tc := ⟨.hbm, 360, rfl⟩
abbrev main_v263 : Ref sig .tc := ⟨.hbm, 361, rfl⟩
abbrev main_cst_96 : Ref sig .tc := ⟨.hbm, 362, rfl⟩
abbrev main_v264 : Ref sig .tc := ⟨.hbm, 363, rfl⟩
abbrev main_v265 : Ref sig .tc := ⟨.hbm, 364, rfl⟩
abbrev main_cst_97 : Ref sig .tc := ⟨.hbm, 365, rfl⟩
abbrev main_v266 : Ref sig .tc := ⟨.hbm, 366, rfl⟩
abbrev main_v267 : Ref sig .tc := ⟨.hbm, 367, rfl⟩
abbrev main_v268 : Ref sig .tc := ⟨.hbm, 368, rfl⟩
abbrev main_cst_98 : Ref sig .tc := ⟨.hbm, 369, rfl⟩
abbrev main_v269 : Ref sig .tc := ⟨.hbm, 370, rfl⟩
abbrev main_v270 : Ref sig .tc := ⟨.hbm, 371, rfl⟩
abbrev main_v271 : Ref sig .tc := ⟨.hbm, 372, rfl⟩
abbrev main_cst_99 : Ref sig .tc := ⟨.hbm, 373, rfl⟩
abbrev main_v272 : Ref sig .tc := ⟨.hbm, 374, rfl⟩
abbrev main_v273 : Ref sig .tc := ⟨.hbm, 375, rfl⟩
abbrev main_cst_100 : Ref sig .tc := ⟨.hbm, 376, rfl⟩
abbrev main_v274 : Ref sig .tc := ⟨.hbm, 377, rfl⟩
abbrev main_v275 : Ref sig .tc := ⟨.hbm, 378, rfl⟩
abbrev main_v276 : Ref sig .tc := ⟨.hbm, 379, rfl⟩
abbrev main_cst_101 : Ref sig .tc := ⟨.hbm, 380, rfl⟩
abbrev main_v277 : Ref sig .tc := ⟨.hbm, 381, rfl⟩
abbrev main_v278 : Ref sig .tc := ⟨.hbm, 382, rfl⟩
abbrev main_v279 : Ref sig .tc := ⟨.hbm, 383, rfl⟩
abbrev main_cst_102 : Ref sig .tc := ⟨.hbm, 384, rfl⟩
abbrev main_v280 : Ref sig .tc := ⟨.hbm, 385, rfl⟩
abbrev main_v281 : Ref sig .tc := ⟨.hbm, 386, rfl⟩
abbrev main_cst_103 : Ref sig .tc := ⟨.hbm, 387, rfl⟩
abbrev main_v282 : Ref sig .tc := ⟨.hbm, 388, rfl⟩
abbrev main_v283 : Ref sig .tc := ⟨.hbm, 389, rfl⟩
abbrev main_v284 : Ref sig .tc := ⟨.hbm, 390, rfl⟩
abbrev main_cst_104 : Ref sig .tc := ⟨.hbm, 391, rfl⟩
abbrev main_v285 : Ref sig .tc := ⟨.hbm, 392, rfl⟩
abbrev main_v286 : Ref sig .tc := ⟨.hbm, 393, rfl⟩
abbrev main_v287 : Ref sig .tc := ⟨.hbm, 394, rfl⟩
abbrev main_cst_105 : Ref sig .tc := ⟨.hbm, 395, rfl⟩
abbrev main_v288 : Ref sig .tc := ⟨.hbm, 396, rfl⟩
abbrev main_v289 : Ref sig .tc := ⟨.hbm, 397, rfl⟩
abbrev main_v290 : Ref sig .tc := ⟨.hbm, 398, rfl⟩
abbrev main_cst_106 : Ref sig .tc := ⟨.hbm, 399, rfl⟩
abbrev main_v291 : Ref sig .tc := ⟨.hbm, 400, rfl⟩
abbrev main_v292 : Ref sig .tc := ⟨.hbm, 401, rfl⟩
abbrev main_v293 : Ref sig .tc := ⟨.hbm, 402, rfl⟩
abbrev main_cst_107 : Ref sig .tc := ⟨.hbm, 403, rfl⟩
abbrev main_v294 : Ref sig .tc := ⟨.hbm, 404, rfl⟩
abbrev main_v295 : Ref sig .tc := ⟨.hbm, 405, rfl⟩
abbrev main_cst_108 : Ref sig .tc := ⟨.hbm, 406, rfl⟩
abbrev main_v296 : Ref sig .tc := ⟨.hbm, 407, rfl⟩
abbrev main_v297 : Ref sig .tc := ⟨.hbm, 408, rfl⟩
abbrev main_v298 : Ref sig .tc := ⟨.hbm, 409, rfl⟩
abbrev main_cst_109 : Ref sig .tc := ⟨.hbm, 410, rfl⟩
abbrev main_v299 : Ref sig .tc := ⟨.hbm, 411, rfl⟩
abbrev main_v300 : Ref sig .tc := ⟨.hbm, 412, rfl⟩
abbrev main_v301 : Ref sig .tc := ⟨.hbm, 413, rfl⟩
abbrev main_cst_110 : Ref sig .tc := ⟨.hbm, 414, rfl⟩
abbrev main_v302 : Ref sig .tc := ⟨.hbm, 415, rfl⟩
abbrev main_v303 : Ref sig .tc := ⟨.hbm, 416, rfl⟩
abbrev main_cst_111 : Ref sig .tc := ⟨.hbm, 417, rfl⟩
abbrev main_v304 : Ref sig .tc := ⟨.hbm, 418, rfl⟩
abbrev main_v305 : Ref sig .tc := ⟨.hbm, 419, rfl⟩
abbrev main_v306 : Ref sig .tc := ⟨.hbm, 420, rfl⟩
abbrev main_cst_112 : Ref sig .tc := ⟨.hbm, 421, rfl⟩
abbrev main_v307 : Ref sig .tc := ⟨.hbm, 422, rfl⟩
abbrev main_v308 : Ref sig .tc := ⟨.hbm, 423, rfl⟩
abbrev main_v309 : Ref sig .tc := ⟨.hbm, 424, rfl⟩
abbrev main_cst_113 : Ref sig .tc := ⟨.hbm, 425, rfl⟩
abbrev main_v310 : Ref sig .tc := ⟨.hbm, 426, rfl⟩
abbrev main_v311 : Ref sig .tc := ⟨.hbm, 427, rfl⟩
abbrev main_cst_114 : Ref sig .tc := ⟨.hbm, 428, rfl⟩
abbrev main_v312 : Ref sig .tc := ⟨.hbm, 429, rfl⟩
abbrev main_v313 : Ref sig .tc := ⟨.hbm, 430, rfl⟩
abbrev main_v314 : Ref sig .tc := ⟨.hbm, 431, rfl⟩
abbrev main_cst_115 : Ref sig .tc := ⟨.hbm, 432, rfl⟩
abbrev main_v315 : Ref sig .tc := ⟨.hbm, 433, rfl⟩
abbrev main_v316 : Ref sig .tc := ⟨.hbm, 434, rfl⟩
abbrev main_v317 : Ref sig .tc := ⟨.hbm, 435, rfl⟩
abbrev main_cst_116 : Ref sig .tc := ⟨.hbm, 436, rfl⟩
abbrev main_v318 : Ref sig .tc := ⟨.hbm, 437, rfl⟩
abbrev main_v319 : Ref sig .tc := ⟨.hbm, 438, rfl⟩
abbrev main_v320 : Ref sig .tc := ⟨.hbm, 439, rfl⟩
abbrev main_cst_117 : Ref sig .tc := ⟨.hbm, 440, rfl⟩
abbrev main_v321 : Ref sig .tc := ⟨.hbm, 441, rfl⟩
abbrev main_v322 : Ref sig .tc := ⟨.hbm, 442, rfl⟩
abbrev main_v323 : Ref sig .tc := ⟨.hbm, 443, rfl⟩
abbrev main_cst_118 : Ref sig .tc := ⟨.hbm, 444, rfl⟩
abbrev main_v324 : Ref sig .tc := ⟨.hbm, 445, rfl⟩
abbrev main_v325 : Ref sig .tc := ⟨.hbm, 446, rfl⟩
abbrev main_cst_119 : Ref sig .tc := ⟨.hbm, 447, rfl⟩
abbrev main_v326 : Ref sig .tc := ⟨.hbm, 448, rfl⟩
abbrev main_v327 : Ref sig .tc := ⟨.hbm, 449, rfl⟩
abbrev main_v328 : Ref sig .tc := ⟨.hbm, 450, rfl⟩
abbrev main_cst_120 : Ref sig .tc := ⟨.hbm, 451, rfl⟩
abbrev main_v329 : Ref sig .tc := ⟨.hbm, 452, rfl⟩
abbrev main_v330 : Ref sig .tc := ⟨.hbm, 453, rfl⟩
abbrev main_v331 : Ref sig .tc := ⟨.hbm, 454, rfl⟩
abbrev main_cst_121 : Ref sig .tc := ⟨.hbm, 455, rfl⟩
abbrev main_v332 : Ref sig .tc := ⟨.hbm, 456, rfl⟩
abbrev main_v333 : Ref sig .tc := ⟨.hbm, 457, rfl⟩
abbrev main_cst_122 : Ref sig .tc := ⟨.hbm, 458, rfl⟩
abbrev main_v334 : Ref sig .tc := ⟨.hbm, 459, rfl⟩
abbrev main_v335 : Ref sig .tc := ⟨.hbm, 460, rfl⟩
abbrev main_v336 : Ref sig .tc := ⟨.hbm, 461, rfl⟩
abbrev main_cst_123 : Ref sig .tc := ⟨.hbm, 462, rfl⟩
abbrev main_v337 : Ref sig .tc := ⟨.hbm, 463, rfl⟩
abbrev main_v338 : Ref sig .tc := ⟨.hbm, 464, rfl⟩
abbrev main_v339 : Ref sig .tc := ⟨.hbm, 465, rfl⟩
abbrev main_cst_124 : Ref sig .tc := ⟨.hbm, 466, rfl⟩
abbrev main_v340 : Ref sig .tc := ⟨.hbm, 467, rfl⟩
abbrev main_v341 : Ref sig .tc := ⟨.hbm, 468, rfl⟩
abbrev main_v342 : Ref sig .tc := ⟨.hbm, 469, rfl⟩
abbrev main_cst_125 : Ref sig .tc := ⟨.hbm, 470, rfl⟩
abbrev main_v343 : Ref sig .tc := ⟨.hbm, 471, rfl⟩
abbrev main_v344 : Ref sig .tc := ⟨.hbm, 472, rfl⟩
abbrev main_v345 : Ref sig .tc := ⟨.hbm, 473, rfl⟩
abbrev main_cst_126 : Ref sig .tc := ⟨.hbm, 474, rfl⟩
abbrev main_v346 : Ref sig .tc := ⟨.hbm, 475, rfl⟩
abbrev main_v347 : Ref sig .tc := ⟨.hbm, 476, rfl⟩
abbrev main_cst_127 : Ref sig .tc := ⟨.hbm, 477, rfl⟩
abbrev main_v348 : Ref sig .tc := ⟨.hbm, 478, rfl⟩
abbrev main_v349 : Ref sig .tc := ⟨.hbm, 479, rfl⟩
abbrev main_v350 : Ref sig .tc := ⟨.hbm, 480, rfl⟩
abbrev main_cst_128 : Ref sig .tc := ⟨.hbm, 481, rfl⟩
abbrev main_v351 : Ref sig .tc := ⟨.hbm, 482, rfl⟩
abbrev main_v352 : Ref sig .tc := ⟨.hbm, 483, rfl⟩
abbrev main_v353 : Ref sig .tc := ⟨.hbm, 484, rfl⟩
abbrev main_cst_129 : Ref sig .tc := ⟨.hbm, 485, rfl⟩
abbrev main_v354 : Ref sig .tc := ⟨.hbm, 486, rfl⟩
abbrev main_v355 : Ref sig .tc := ⟨.hbm, 487, rfl⟩
abbrev main_v356 : Ref sig .tc := ⟨.hbm, 488, rfl⟩
abbrev main_cst_130 : Ref sig .tc := ⟨.hbm, 489, rfl⟩
abbrev main_v357 : Ref sig .tc := ⟨.hbm, 490, rfl⟩
abbrev main_v358 : Ref sig .tc := ⟨.hbm, 491, rfl⟩
abbrev main_v359 : Ref sig .tc := ⟨.hbm, 492, rfl⟩
abbrev main_cst_131 : Ref sig .tc := ⟨.hbm, 493, rfl⟩
abbrev main_v360 : Ref sig .tc := ⟨.hbm, 494, rfl⟩
abbrev main_v361 : Ref sig .tc := ⟨.hbm, 495, rfl⟩
abbrev main_v362 : Ref sig .tc := ⟨.hbm, 496, rfl⟩
abbrev main_cst_132 : Ref sig .tc := ⟨.hbm, 497, rfl⟩
abbrev main_v363 : Ref sig .tc := ⟨.hbm, 498, rfl⟩
abbrev main_v364 : Ref sig .tc := ⟨.hbm, 499, rfl⟩
abbrev main_v365 : Ref sig .tc := ⟨.hbm, 500, rfl⟩
abbrev main_cst_133 : Ref sig .tc := ⟨.hbm, 501, rfl⟩
abbrev main_v366 : Ref sig .tc := ⟨.hbm, 502, rfl⟩
abbrev main_v367 : Ref sig .tc := ⟨.hbm, 503, rfl⟩
abbrev main_v368 : Ref sig .tc := ⟨.hbm, 504, rfl⟩
abbrev main_cst_134 : Ref sig .tc := ⟨.hbm, 505, rfl⟩
abbrev main_v369 : Ref sig .tc := ⟨.hbm, 506, rfl⟩
abbrev main_v370 : Ref sig .tc := ⟨.hbm, 507, rfl⟩
abbrev main_v371 : Ref sig .tc := ⟨.hbm, 508, rfl⟩
abbrev main_cst_135 : Ref sig .tc := ⟨.hbm, 509, rfl⟩
abbrev main_v372 : Ref sig .tc := ⟨.hbm, 510, rfl⟩
abbrev main_v373 : Ref sig .tc := ⟨.hbm, 511, rfl⟩
abbrev main_v374 : Ref sig .tc := ⟨.hbm, 512, rfl⟩
abbrev main_cst_136 : Ref sig .tc := ⟨.hbm, 513, rfl⟩
abbrev main_v375 : Ref sig .tc := ⟨.hbm, 514, rfl⟩
abbrev main_v376 : Ref sig .tc := ⟨.hbm, 515, rfl⟩
abbrev main_v377 : Ref sig .tc := ⟨.hbm, 516, rfl⟩
abbrev main_cst_137 : Ref sig .tc := ⟨.hbm, 517, rfl⟩
abbrev main_v378 : Ref sig .tc := ⟨.hbm, 518, rfl⟩
abbrev main_v379 : Ref sig .tc := ⟨.hbm, 519, rfl⟩
abbrev main_v380 : Ref sig .tc := ⟨.hbm, 520, rfl⟩
abbrev main_cst_138 : Ref sig .tc := ⟨.hbm, 521, rfl⟩
abbrev main_v381 : Ref sig .tc := ⟨.hbm, 522, rfl⟩
abbrev main_v382 : Ref sig .tc := ⟨.hbm, 523, rfl⟩
abbrev main_v383 : Ref sig .tc := ⟨.hbm, 524, rfl⟩
abbrev main_cst_139 : Ref sig .tc := ⟨.hbm, 525, rfl⟩
abbrev main_v384 : Ref sig .tc := ⟨.hbm, 526, rfl⟩
abbrev main_v385 : Ref sig .tc := ⟨.hbm, 527, rfl⟩
abbrev main_v386 : Ref sig .tc := ⟨.hbm, 528, rfl⟩
abbrev main_cst_140 : Ref sig .tc := ⟨.hbm, 529, rfl⟩
abbrev main_v387 : Ref sig .tc := ⟨.hbm, 530, rfl⟩
abbrev main_v388 : Ref sig .tc := ⟨.hbm, 531, rfl⟩
abbrev main_v389 : Ref sig .tc := ⟨.hbm, 532, rfl⟩
abbrev main_cst_141 : Ref sig .tc := ⟨.hbm, 533, rfl⟩
abbrev main_v390 : Ref sig .tc := ⟨.hbm, 534, rfl⟩
abbrev main_v391 : Ref sig .tc := ⟨.hbm, 535, rfl⟩
abbrev main_v392 : Ref sig .tc := ⟨.hbm, 536, rfl⟩
abbrev main_cst_142 : Ref sig .tc := ⟨.hbm, 537, rfl⟩
abbrev main_v393 : Ref sig .tc := ⟨.hbm, 538, rfl⟩
abbrev main_v394 : Ref sig .tc := ⟨.hbm, 539, rfl⟩
abbrev main_v395 : Ref sig .tc := ⟨.hbm, 540, rfl⟩
abbrev main_cst_143 : Ref sig .tc := ⟨.hbm, 541, rfl⟩
abbrev main_v396 : Ref sig .tc := ⟨.hbm, 542, rfl⟩
abbrev main_v397 : Ref sig .tc := ⟨.hbm, 543, rfl⟩
abbrev main_v398 : Ref sig .tc := ⟨.hbm, 544, rfl⟩
abbrev main_cst_144 : Ref sig .tc := ⟨.hbm, 545, rfl⟩
abbrev main_v399 : Ref sig .tc := ⟨.hbm, 546, rfl⟩
abbrev main_v400 : Ref sig .tc := ⟨.hbm, 547, rfl⟩
abbrev main_v401 : Ref sig .tc := ⟨.hbm, 548, rfl⟩
abbrev main_cst_145 : Ref sig .tc := ⟨.hbm, 549, rfl⟩
abbrev main_v402 : Ref sig .tc := ⟨.hbm, 550, rfl⟩
abbrev main_v403 : Ref sig .tc := ⟨.hbm, 551, rfl⟩
abbrev main_v404 : Ref sig .tc := ⟨.hbm, 552, rfl⟩
abbrev main_cst_146 : Ref sig .tc := ⟨.hbm, 553, rfl⟩
abbrev main_v405 : Ref sig .tc := ⟨.hbm, 554, rfl⟩
abbrev main_v406 : Ref sig .tc := ⟨.hbm, 555, rfl⟩
abbrev main_v407 : Ref sig .tc := ⟨.hbm, 556, rfl⟩
abbrev main_cst_147 : Ref sig .tc := ⟨.hbm, 557, rfl⟩
abbrev main_v408 : Ref sig .tc := ⟨.hbm, 558, rfl⟩
abbrev main_v409 : Ref sig .tc := ⟨.hbm, 559, rfl⟩
abbrev main_v410 : Ref sig .tc := ⟨.hbm, 560, rfl⟩
abbrev main_cst_148 : Ref sig .tc := ⟨.hbm, 561, rfl⟩
abbrev main_v411 : Ref sig .tc := ⟨.hbm, 562, rfl⟩
abbrev main_v412 : Ref sig .tc := ⟨.hbm, 563, rfl⟩
abbrev main_cst_149 : Ref sig .tc := ⟨.hbm, 564, rfl⟩
abbrev main_v413 : Ref sig .tc := ⟨.hbm, 565, rfl⟩
abbrev main_v414 : Ref sig .tc := ⟨.hbm, 566, rfl⟩
abbrev main_v415 : Ref sig .tc := ⟨.hbm, 567, rfl⟩
abbrev main_cst_150 : Ref sig .tc := ⟨.hbm, 568, rfl⟩
abbrev main_v416 : Ref sig .tc := ⟨.hbm, 569, rfl⟩
abbrev main_v417 : Ref sig .tc := ⟨.hbm, 570, rfl⟩
abbrev main_cst_151 : Ref sig .tc := ⟨.hbm, 571, rfl⟩
abbrev main_v418 : Ref sig .tc := ⟨.hbm, 572, rfl⟩
abbrev main_v419 : Ref sig .tc := ⟨.hbm, 573, rfl⟩
abbrev main_v420 : Ref sig .tc := ⟨.hbm, 574, rfl⟩
abbrev main_cst_152 : Ref sig .tc := ⟨.hbm, 575, rfl⟩
abbrev main_v421 : Ref sig .tc := ⟨.hbm, 576, rfl⟩
abbrev main_v422 : Ref sig .tc := ⟨.hbm, 577, rfl⟩
abbrev main_v423 : Ref sig .tc := ⟨.hbm, 578, rfl⟩
abbrev main_cst_153 : Ref sig .tc := ⟨.hbm, 579, rfl⟩
abbrev main_v424 : Ref sig .tc := ⟨.hbm, 580, rfl⟩
abbrev main_v425 : Ref sig .tc := ⟨.hbm, 581, rfl⟩
abbrev main_v426 : Ref sig .tc := ⟨.hbm, 582, rfl⟩
abbrev main_cst_154 : Ref sig .tc := ⟨.hbm, 583, rfl⟩
abbrev main_v427 : Ref sig .tc := ⟨.hbm, 584, rfl⟩
abbrev main_v428 : Ref sig .tc := ⟨.hbm, 585, rfl⟩
abbrev main_cst_155 : Ref sig .tc := ⟨.hbm, 586, rfl⟩
abbrev main_v429 : Ref sig .tc := ⟨.hbm, 587, rfl⟩
abbrev main_v430 : Ref sig .tc := ⟨.hbm, 588, rfl⟩
abbrev main_v431 : Ref sig .tc := ⟨.hbm, 589, rfl⟩
abbrev main_cst_156 : Ref sig .tc := ⟨.hbm, 590, rfl⟩
abbrev main_v432 : Ref sig .tc := ⟨.hbm, 591, rfl⟩
abbrev main_v433 : Ref sig .tc := ⟨.hbm, 592, rfl⟩
abbrev main_v434 : Ref sig .tc := ⟨.hbm, 593, rfl⟩
abbrev main_cst_157 : Ref sig .tc := ⟨.hbm, 594, rfl⟩
abbrev main_v435 : Ref sig .tc := ⟨.hbm, 595, rfl⟩
abbrev main_v436 : Ref sig .tc := ⟨.hbm, 596, rfl⟩
abbrev main_v437 : Ref sig .tc := ⟨.hbm, 597, rfl⟩
abbrev main_cst_158 : Ref sig .tc := ⟨.hbm, 598, rfl⟩
abbrev main_v438 : Ref sig .tc := ⟨.hbm, 599, rfl⟩
abbrev main_v439 : Ref sig .tc := ⟨.hbm, 600, rfl⟩
abbrev main_v440 : Ref sig .tc := ⟨.hbm, 601, rfl⟩
abbrev main_cst_159 : Ref sig .tc := ⟨.hbm, 602, rfl⟩
abbrev main_v441 : Ref sig .tc := ⟨.hbm, 603, rfl⟩
abbrev main_v442 : Ref sig .tc := ⟨.hbm, 604, rfl⟩
abbrev main_v443 : Ref sig .tc := ⟨.hbm, 605, rfl⟩
abbrev main_cst_160 : Ref sig .tc := ⟨.hbm, 606, rfl⟩
abbrev main_v444 : Ref sig .tc := ⟨.hbm, 607, rfl⟩
abbrev main_v445 : Ref sig .tc := ⟨.hbm, 608, rfl⟩
abbrev main_cst_161 : Ref sig .tc := ⟨.hbm, 609, rfl⟩
abbrev main_v446 : Ref sig .tc := ⟨.hbm, 610, rfl⟩
abbrev main_v447 : Ref sig .tc := ⟨.hbm, 611, rfl⟩
abbrev main_v448 : Ref sig .tc := ⟨.hbm, 612, rfl⟩
abbrev main_cst_162 : Ref sig .tc := ⟨.hbm, 613, rfl⟩
abbrev main_v449 : Ref sig .tc := ⟨.hbm, 614, rfl⟩
abbrev main_v450 : Ref sig .tc := ⟨.hbm, 615, rfl⟩
abbrev main_v451 : Ref sig .tc := ⟨.hbm, 616, rfl⟩
abbrev main_cst_163 : Ref sig .tc := ⟨.hbm, 617, rfl⟩
abbrev main_v452 : Ref sig .tc := ⟨.hbm, 618, rfl⟩
abbrev main_v453 : Ref sig .tc := ⟨.hbm, 619, rfl⟩
abbrev main_v454 : Ref sig .tc := ⟨.hbm, 620, rfl⟩
abbrev main_cst_164 : Ref sig .tc := ⟨.hbm, 621, rfl⟩
abbrev main_v455 : Ref sig .tc := ⟨.hbm, 622, rfl⟩
abbrev main_v456 : Ref sig .tc := ⟨.hbm, 623, rfl⟩
abbrev main_v457 : Ref sig .tc := ⟨.hbm, 624, rfl⟩
abbrev main_cst_165 : Ref sig .tc := ⟨.hbm, 625, rfl⟩
abbrev main_v458 : Ref sig .tc := ⟨.hbm, 626, rfl⟩
abbrev main_v459 : Ref sig .tc := ⟨.hbm, 627, rfl⟩
abbrev main_v460 : Ref sig .tc := ⟨.hbm, 628, rfl⟩
abbrev main_cst_166 : Ref sig .tc := ⟨.hbm, 629, rfl⟩
abbrev main_v461 : Ref sig .tc := ⟨.hbm, 630, rfl⟩
abbrev main_v462 : Ref sig .tc := ⟨.hbm, 631, rfl⟩
abbrev main_v463 : Ref sig .tc := ⟨.hbm, 632, rfl⟩
abbrev main_cst_167 : Ref sig .tc := ⟨.hbm, 633, rfl⟩
abbrev main_v464 : Ref sig .tc := ⟨.hbm, 634, rfl⟩
abbrev main_v465 : Ref sig .tc := ⟨.hbm, 635, rfl⟩
abbrev main_v466 : Ref sig .tc := ⟨.hbm, 636, rfl⟩
abbrev main_cst_168 : Ref sig .tc := ⟨.hbm, 637, rfl⟩
abbrev main_v467 : Ref sig .tc := ⟨.hbm, 638, rfl⟩
abbrev main_v468 : Ref sig .tc := ⟨.hbm, 639, rfl⟩
abbrev main_cst_169 : Ref sig .tc := ⟨.hbm, 640, rfl⟩
abbrev main_v469 : Ref sig .tc := ⟨.hbm, 641, rfl⟩
abbrev main_v470 : Ref sig .tc := ⟨.hbm, 642, rfl⟩
abbrev main_v471 : Ref sig .tc := ⟨.hbm, 643, rfl⟩
abbrev main_cst_170 : Ref sig .tc := ⟨.hbm, 644, rfl⟩
abbrev main_v472 : Ref sig .tc := ⟨.hbm, 645, rfl⟩
abbrev main_v473 : Ref sig .tc := ⟨.hbm, 646, rfl⟩
abbrev main_v474 : Ref sig .tc := ⟨.hbm, 647, rfl⟩
abbrev main_cst_171 : Ref sig .tc := ⟨.hbm, 648, rfl⟩
abbrev main_v475 : Ref sig .tc := ⟨.hbm, 649, rfl⟩
abbrev main_v476 : Ref sig .tc := ⟨.hbm, 650, rfl⟩
abbrev main_v477 : Ref sig .tc := ⟨.hbm, 651, rfl⟩
abbrev main_cst_172 : Ref sig .tc := ⟨.hbm, 652, rfl⟩
abbrev main_v478 : Ref sig .tc := ⟨.hbm, 653, rfl⟩
abbrev main_v479 : Ref sig .tc := ⟨.hbm, 654, rfl⟩
abbrev main_v480 : Ref sig .tc := ⟨.hbm, 655, rfl⟩
abbrev main_cst_173 : Ref sig .tc := ⟨.hbm, 656, rfl⟩
abbrev main_v481 : Ref sig .tc := ⟨.hbm, 657, rfl⟩
abbrev main_v482 : Ref sig .tc := ⟨.hbm, 658, rfl⟩
abbrev main_v483 : Ref sig .tc := ⟨.hbm, 659, rfl⟩
abbrev main_cst_174 : Ref sig .tc := ⟨.hbm, 660, rfl⟩
abbrev main_v484 : Ref sig .tc := ⟨.hbm, 661, rfl⟩
abbrev main_v485 : Ref sig .tc := ⟨.hbm, 662, rfl⟩
abbrev main_v486 : Ref sig .tc := ⟨.hbm, 663, rfl⟩
abbrev main_cst_175 : Ref sig .tc := ⟨.hbm, 664, rfl⟩
abbrev main_v487 : Ref sig .tc := ⟨.hbm, 665, rfl⟩
abbrev main_v488 : Ref sig .tc := ⟨.hbm, 666, rfl⟩
abbrev main_v489 : Ref sig .tc := ⟨.hbm, 667, rfl⟩
abbrev main_cst_176 : Ref sig .tc := ⟨.hbm, 668, rfl⟩
abbrev main_v490 : Ref sig .tc := ⟨.hbm, 669, rfl⟩
abbrev main_v491 : Ref sig .tc := ⟨.hbm, 670, rfl⟩
abbrev main_v492 : Ref sig .tc := ⟨.hbm, 671, rfl⟩
abbrev main_cst_177 : Ref sig .tc := ⟨.hbm, 672, rfl⟩
abbrev main_v493 : Ref sig .tc := ⟨.hbm, 673, rfl⟩
abbrev main_v494 : Ref sig .tc := ⟨.hbm, 674, rfl⟩
abbrev main_v495 : Ref sig .tc := ⟨.hbm, 675, rfl⟩
abbrev main_cst_178 : Ref sig .tc := ⟨.hbm, 676, rfl⟩
abbrev main_v496 : Ref sig .tc := ⟨.hbm, 677, rfl⟩
abbrev main_v497 : Ref sig .tc := ⟨.hbm, 678, rfl⟩
abbrev main_cst_179 : Ref sig .tc := ⟨.hbm, 679, rfl⟩
abbrev main_v498 : Ref sig .tc := ⟨.hbm, 680, rfl⟩
abbrev main_v499 : Ref sig .tc := ⟨.hbm, 681, rfl⟩
abbrev main_v500 : Ref sig .tc := ⟨.hbm, 682, rfl⟩
abbrev main_cst_180 : Ref sig .tc := ⟨.hbm, 683, rfl⟩
abbrev main_v501 : Ref sig .tc := ⟨.hbm, 684, rfl⟩
abbrev main_v502 : Ref sig .tc := ⟨.hbm, 685, rfl⟩
abbrev main_v503 : Ref sig .tc := ⟨.hbm, 686, rfl⟩
abbrev main_cst_181 : Ref sig .tc := ⟨.hbm, 687, rfl⟩
abbrev main_v504 : Ref sig .tc := ⟨.hbm, 688, rfl⟩
abbrev main_v505 : Ref sig .tc := ⟨.hbm, 689, rfl⟩
abbrev main_v506 : Ref sig .tc := ⟨.hbm, 690, rfl⟩
abbrev main_cst_182 : Ref sig .tc := ⟨.hbm, 691, rfl⟩
abbrev main_v507 : Ref sig .tc := ⟨.hbm, 692, rfl⟩
abbrev main_v508 : Ref sig .tc := ⟨.hbm, 693, rfl⟩
abbrev main_v509 : Ref sig .tc := ⟨.hbm, 694, rfl⟩
abbrev main_cst_183 : Ref sig .tc := ⟨.hbm, 695, rfl⟩
abbrev main_v510 : Ref sig .tc := ⟨.hbm, 696, rfl⟩
abbrev main_v511 : Ref sig .tc := ⟨.hbm, 697, rfl⟩
abbrev main_v512 : Ref sig .tc := ⟨.hbm, 698, rfl⟩
abbrev main_cst_184 : Ref sig .tc := ⟨.hbm, 699, rfl⟩
abbrev main_v513 : Ref sig .tc := ⟨.hbm, 700, rfl⟩
abbrev main_v514 : Ref sig .tc := ⟨.hbm, 701, rfl⟩
abbrev main_v515 : Ref sig .tc := ⟨.hbm, 702, rfl⟩
abbrev main_cst_185 : Ref sig .tc := ⟨.hbm, 703, rfl⟩
abbrev main_v516 : Ref sig .tc := ⟨.hbm, 704, rfl⟩
abbrev main_v517 : Ref sig .tc := ⟨.hbm, 705, rfl⟩
abbrev main_v518 : Ref sig .tc := ⟨.hbm, 706, rfl⟩
abbrev main_cst_186 : Ref sig .tc := ⟨.hbm, 707, rfl⟩
abbrev main_v519 : Ref sig .tc := ⟨.hbm, 708, rfl⟩
abbrev main_v520 : Ref sig .tc := ⟨.hbm, 709, rfl⟩
abbrev main_v521 : Ref sig .tc := ⟨.hbm, 710, rfl⟩
abbrev main_cst_187 : Ref sig .tc := ⟨.hbm, 711, rfl⟩
abbrev main_v522 : Ref sig .tc := ⟨.hbm, 712, rfl⟩
abbrev main_v523 : Ref sig .tc := ⟨.hbm, 713, rfl⟩
abbrev main_v524 : Ref sig .tc := ⟨.hbm, 714, rfl⟩
abbrev main_cst_188 : Ref sig .tc := ⟨.hbm, 715, rfl⟩
abbrev main_v525 : Ref sig .tc := ⟨.hbm, 716, rfl⟩
abbrev main_v526 : Ref sig .tc := ⟨.hbm, 717, rfl⟩
abbrev main_v527 : Ref sig .tc := ⟨.hbm, 718, rfl⟩
abbrev main_cst_189 : Ref sig .tc := ⟨.hbm, 719, rfl⟩
abbrev main_v528 : Ref sig .tc := ⟨.hbm, 720, rfl⟩
abbrev main_v529 : Ref sig .tc := ⟨.hbm, 721, rfl⟩
abbrev main_v530 : Ref sig .tc := ⟨.hbm, 722, rfl⟩
abbrev main_cst_190 : Ref sig .tc := ⟨.hbm, 723, rfl⟩
abbrev main_v531 : Ref sig .tc := ⟨.hbm, 724, rfl⟩
abbrev main_v532 : Ref sig .tc := ⟨.hbm, 725, rfl⟩
abbrev main_cst_191 : Ref sig .tc := ⟨.hbm, 726, rfl⟩
abbrev main_v533 : Ref sig .tc := ⟨.hbm, 727, rfl⟩
abbrev main_v534 : Ref sig .tc := ⟨.hbm, 728, rfl⟩
abbrev main_v535 : Ref sig .tc := ⟨.hbm, 729, rfl⟩
abbrev main_cst_192 : Ref sig .tc := ⟨.hbm, 730, rfl⟩
abbrev main_v536 : Ref sig .tc := ⟨.hbm, 731, rfl⟩
abbrev main_v537 : Ref sig .tc := ⟨.hbm, 732, rfl⟩
abbrev main_v538 : Ref sig .tc := ⟨.hbm, 733, rfl⟩
abbrev main_cst_193 : Ref sig .tc := ⟨.hbm, 734, rfl⟩
abbrev main_v539 : Ref sig .tc := ⟨.hbm, 735, rfl⟩
abbrev main_v540 : Ref sig .tc := ⟨.hbm, 736, rfl⟩
abbrev main_v541 : Ref sig .tc := ⟨.hbm, 737, rfl⟩
abbrev main_cst_194 : Ref sig .tc := ⟨.hbm, 738, rfl⟩
abbrev main_v542 : Ref sig .tc := ⟨.hbm, 739, rfl⟩
abbrev main_v543 : Ref sig .tc := ⟨.hbm, 740, rfl⟩
abbrev main_v544 : Ref sig .tc := ⟨.hbm, 741, rfl⟩
abbrev main_cst_195 : Ref sig .tc := ⟨.hbm, 742, rfl⟩
abbrev main_v545 : Ref sig .tc := ⟨.hbm, 743, rfl⟩
abbrev main_v546 : Ref sig .tc := ⟨.hbm, 744, rfl⟩
abbrev main_v547 : Ref sig .tc := ⟨.hbm, 745, rfl⟩
abbrev main_cst_196 : Ref sig .tc := ⟨.hbm, 746, rfl⟩
abbrev main_v548 : Ref sig .tc := ⟨.hbm, 747, rfl⟩
abbrev main_v549 : Ref sig .tc := ⟨.hbm, 748, rfl⟩
abbrev main_v550 : Ref sig .tc := ⟨.hbm, 749, rfl⟩
abbrev main_cst_197 : Ref sig .tc := ⟨.hbm, 750, rfl⟩
abbrev main_v551 : Ref sig .tc := ⟨.hbm, 751, rfl⟩
abbrev main_v552 : Ref sig .tc := ⟨.hbm, 752, rfl⟩
abbrev main_v553 : Ref sig .tc := ⟨.hbm, 753, rfl⟩
abbrev main_cst_198 : Ref sig .tc := ⟨.hbm, 754, rfl⟩
abbrev main_v554 : Ref sig .tc := ⟨.hbm, 755, rfl⟩
abbrev main_v555 : Ref sig .tc := ⟨.hbm, 756, rfl⟩
abbrev main_v556 : Ref sig .tc := ⟨.hbm, 757, rfl⟩
abbrev main_cst_199 : Ref sig .tc := ⟨.hbm, 758, rfl⟩
abbrev main_v557 : Ref sig .tc := ⟨.hbm, 759, rfl⟩
abbrev main_v558 : Ref sig .tc := ⟨.hbm, 760, rfl⟩
abbrev main_v559 : Ref sig .tc := ⟨.hbm, 761, rfl⟩
abbrev main_cst_200 : Ref sig .tc := ⟨.hbm, 762, rfl⟩
abbrev main_v560 : Ref sig .tc := ⟨.hbm, 763, rfl⟩
abbrev main_v561 : Ref sig .tc := ⟨.hbm, 764, rfl⟩
abbrev main_v562 : Ref sig .tc := ⟨.hbm, 765, rfl⟩
abbrev main_cst_201 : Ref sig .tc := ⟨.hbm, 766, rfl⟩
abbrev main_v563 : Ref sig .tc := ⟨.hbm, 767, rfl⟩
abbrev main_v564 : Ref sig .tc := ⟨.hbm, 768, rfl⟩
abbrev main_v565 : Ref sig .tc := ⟨.hbm, 769, rfl⟩
abbrev main_cst_202 : Ref sig .tc := ⟨.hbm, 770, rfl⟩
abbrev main_v566 : Ref sig .tc := ⟨.hbm, 771, rfl⟩
abbrev main_v567 : Ref sig .tc := ⟨.hbm, 772, rfl⟩
abbrev main_v568 : Ref sig .tc := ⟨.hbm, 773, rfl⟩
abbrev main_cst_203 : Ref sig .tc := ⟨.hbm, 774, rfl⟩
abbrev main_v569 : Ref sig .tc := ⟨.hbm, 775, rfl⟩
abbrev main_v570 : Ref sig .tc := ⟨.hbm, 776, rfl⟩
abbrev main_v571 : Ref sig .tc := ⟨.hbm, 777, rfl⟩
abbrev main_cst_204 : Ref sig .tc := ⟨.hbm, 778, rfl⟩
abbrev main_v572 : Ref sig .tc := ⟨.hbm, 779, rfl⟩
abbrev main_v573 : Ref sig .tc := ⟨.hbm, 780, rfl⟩
abbrev main_cst_205 : Ref sig .tc := ⟨.hbm, 781, rfl⟩
abbrev main_v574 : Ref sig .tc := ⟨.hbm, 782, rfl⟩
abbrev main_v575 : Ref sig .tc := ⟨.hbm, 783, rfl⟩
abbrev main_v576 : Ref sig .tc := ⟨.hbm, 784, rfl⟩
abbrev main_cst_206 : Ref sig .tc := ⟨.hbm, 785, rfl⟩
abbrev main_v577 : Ref sig .tc := ⟨.hbm, 786, rfl⟩
abbrev main_v578 : Ref sig .tc := ⟨.hbm, 787, rfl⟩
abbrev main_v579 : Ref sig .tc := ⟨.hbm, 788, rfl⟩
abbrev main_cst_207 : Ref sig .tc := ⟨.hbm, 789, rfl⟩
abbrev main_v580 : Ref sig .tc := ⟨.hbm, 790, rfl⟩
abbrev main_v581 : Ref sig .tc := ⟨.hbm, 791, rfl⟩
abbrev main_v582 : Ref sig .tc := ⟨.hbm, 792, rfl⟩
abbrev main_cst_208 : Ref sig .tc := ⟨.hbm, 793, rfl⟩
abbrev main_v583 : Ref sig .tc := ⟨.hbm, 794, rfl⟩
abbrev main_v584 : Ref sig .tc := ⟨.hbm, 795, rfl⟩
abbrev main_v585 : Ref sig .tc := ⟨.hbm, 796, rfl⟩
abbrev main_cst_209 : Ref sig .tc := ⟨.hbm, 797, rfl⟩
abbrev main_v586 : Ref sig .tc := ⟨.hbm, 798, rfl⟩
abbrev main_v587 : Ref sig .tc := ⟨.hbm, 799, rfl⟩
abbrev main_v588 : Ref sig .tc := ⟨.hbm, 800, rfl⟩
abbrev main_cst_210 : Ref sig .tc := ⟨.hbm, 801, rfl⟩
abbrev main_v589 : Ref sig .tc := ⟨.hbm, 802, rfl⟩
abbrev main_v590 : Ref sig .tc := ⟨.hbm, 803, rfl⟩
abbrev main_v591 : Ref sig .tc := ⟨.hbm, 804, rfl⟩
abbrev main_cst_211 : Ref sig .tc := ⟨.hbm, 805, rfl⟩
abbrev main_v592 : Ref sig .tc := ⟨.hbm, 806, rfl⟩
abbrev main_v593 : Ref sig .tc := ⟨.hbm, 807, rfl⟩
abbrev main_v594 : Ref sig .tc := ⟨.hbm, 808, rfl⟩
abbrev main_cst_212 : Ref sig .tc := ⟨.hbm, 809, rfl⟩
abbrev main_v595 : Ref sig .tc := ⟨.hbm, 810, rfl⟩
abbrev main_v596 : Ref sig .tc := ⟨.hbm, 811, rfl⟩
abbrev main_v597 : Ref sig .tc := ⟨.hbm, 812, rfl⟩
abbrev main_cst_213 : Ref sig .tc := ⟨.hbm, 813, rfl⟩
abbrev main_v598 : Ref sig .tc := ⟨.hbm, 814, rfl⟩
abbrev main_v599 : Ref sig .tc := ⟨.hbm, 815, rfl⟩
abbrev main_v600 : Ref sig .tc := ⟨.hbm, 816, rfl⟩
abbrev main_cst_214 : Ref sig .tc := ⟨.hbm, 817, rfl⟩
abbrev main_v601 : Ref sig .tc := ⟨.hbm, 818, rfl⟩
abbrev main_v602 : Ref sig .tc := ⟨.hbm, 819, rfl⟩
abbrev main_v603 : Ref sig .tc := ⟨.hbm, 820, rfl⟩
abbrev main_cst_215 : Ref sig .tc := ⟨.hbm, 821, rfl⟩
abbrev main_v604 : Ref sig .tc := ⟨.hbm, 822, rfl⟩
abbrev main_v605 : Ref sig .tc := ⟨.hbm, 823, rfl⟩
abbrev main_v606 : Ref sig .tc := ⟨.hbm, 824, rfl⟩
abbrev main_cst_216 : Ref sig .tc := ⟨.hbm, 825, rfl⟩
abbrev main_v607 : Ref sig .tc := ⟨.hbm, 826, rfl⟩
abbrev main_v608 : Ref sig .tc := ⟨.hbm, 827, rfl⟩
abbrev main_v609 : Ref sig .tc := ⟨.hbm, 828, rfl⟩
abbrev main_cst_217 : Ref sig .tc := ⟨.hbm, 829, rfl⟩
abbrev main_v610 : Ref sig .tc := ⟨.hbm, 830, rfl⟩
abbrev main_v611 : Ref sig .tc := ⟨.hbm, 831, rfl⟩
abbrev main_v612 : Ref sig .tc := ⟨.hbm, 832, rfl⟩
abbrev main_cst_218 : Ref sig .tc := ⟨.hbm, 833, rfl⟩
abbrev main_v613 : Ref sig .tc := ⟨.hbm, 834, rfl⟩
abbrev main_v614 : Ref sig .tc := ⟨.hbm, 835, rfl⟩
abbrev main_v615 : Ref sig .tc := ⟨.hbm, 836, rfl⟩
abbrev main_cst_219 : Ref sig .tc := ⟨.hbm, 837, rfl⟩
abbrev main_v616 : Ref sig .tc := ⟨.hbm, 838, rfl⟩
abbrev main_v617 : Ref sig .tc := ⟨.hbm, 839, rfl⟩
abbrev main_v618 : Ref sig .tc := ⟨.hbm, 840, rfl⟩
abbrev main_cst_220 : Ref sig .tc := ⟨.hbm, 841, rfl⟩
abbrev main_v619 : Ref sig .tc := ⟨.hbm, 842, rfl⟩
abbrev main_v620 : Ref sig .tc := ⟨.hbm, 843, rfl⟩
abbrev main_cst_221 : Ref sig .tc := ⟨.hbm, 844, rfl⟩
abbrev main_v621 : Ref sig .tc := ⟨.hbm, 845, rfl⟩
abbrev main_v622 : Ref sig .tc := ⟨.hbm, 846, rfl⟩
abbrev main_v623 : Ref sig .tc := ⟨.hbm, 847, rfl⟩
abbrev main_cst_222 : Ref sig .tc := ⟨.hbm, 848, rfl⟩
abbrev main_v624 : Ref sig .tc := ⟨.hbm, 849, rfl⟩
abbrev main_v625 : Ref sig .tc := ⟨.hbm, 850, rfl⟩
abbrev main_v626 : Ref sig .tc := ⟨.hbm, 851, rfl⟩
abbrev main_cst_223 : Ref sig .tc := ⟨.hbm, 852, rfl⟩
abbrev main_v627 : Ref sig .tc := ⟨.hbm, 853, rfl⟩
abbrev main_v628 : Ref sig .tc := ⟨.hbm, 854, rfl⟩
abbrev main_v629 : Ref sig .tc := ⟨.hbm, 855, rfl⟩
abbrev main_cst_224 : Ref sig .tc := ⟨.hbm, 856, rfl⟩
abbrev main_v630 : Ref sig .tc := ⟨.hbm, 857, rfl⟩
abbrev main_v631 : Ref sig .tc := ⟨.hbm, 858, rfl⟩
abbrev main_v632 : Ref sig .tc := ⟨.hbm, 859, rfl⟩
abbrev main_cst_225 : Ref sig .tc := ⟨.hbm, 860, rfl⟩
abbrev main_v633 : Ref sig .tc := ⟨.hbm, 861, rfl⟩
abbrev main_v634 : Ref sig .tc := ⟨.hbm, 862, rfl⟩
abbrev main_v635 : Ref sig .tc := ⟨.hbm, 863, rfl⟩
abbrev main_cst_226 : Ref sig .tc := ⟨.hbm, 864, rfl⟩
abbrev main_v636 : Ref sig .tc := ⟨.hbm, 865, rfl⟩
abbrev main_v637 : Ref sig .tc := ⟨.hbm, 866, rfl⟩
abbrev main_v638 : Ref sig .tc := ⟨.hbm, 867, rfl⟩
abbrev main_cst_227 : Ref sig .tc := ⟨.hbm, 868, rfl⟩
abbrev main_v639 : Ref sig .tc := ⟨.hbm, 869, rfl⟩
abbrev main_v640 : Ref sig .tc := ⟨.hbm, 870, rfl⟩
abbrev main_v641 : Ref sig .tc := ⟨.hbm, 871, rfl⟩
abbrev main_cst_228 : Ref sig .tc := ⟨.hbm, 872, rfl⟩
abbrev main_v642 : Ref sig .tc := ⟨.hbm, 873, rfl⟩
abbrev main_v643 : Ref sig .tc := ⟨.hbm, 874, rfl⟩
abbrev main_v644 : Ref sig .tc := ⟨.hbm, 875, rfl⟩
abbrev main_cst_229 : Ref sig .tc := ⟨.hbm, 876, rfl⟩
abbrev main_v645 : Ref sig .tc := ⟨.hbm, 877, rfl⟩
abbrev main_v646 : Ref sig .tc := ⟨.hbm, 878, rfl⟩
abbrev main_v647 : Ref sig .tc := ⟨.hbm, 879, rfl⟩
abbrev main_cst_230 : Ref sig .tc := ⟨.hbm, 880, rfl⟩
abbrev main_v648 : Ref sig .tc := ⟨.hbm, 881, rfl⟩
abbrev main_v649 : Ref sig .tc := ⟨.hbm, 882, rfl⟩
abbrev main_v650 : Ref sig .tc := ⟨.hbm, 883, rfl⟩
abbrev main_cst_231 : Ref sig .tc := ⟨.hbm, 884, rfl⟩
abbrev main_v651 : Ref sig .tc := ⟨.hbm, 885, rfl⟩
abbrev main_v652 : Ref sig .tc := ⟨.hbm, 886, rfl⟩
abbrev main_v653 : Ref sig .tc := ⟨.hbm, 887, rfl⟩
abbrev main_cst_232 : Ref sig .tc := ⟨.hbm, 888, rfl⟩
abbrev main_v654 : Ref sig .tc := ⟨.hbm, 889, rfl⟩
abbrev main_v655 : Ref sig .tc := ⟨.hbm, 890, rfl⟩
abbrev main_v656 : Ref sig .tc := ⟨.hbm, 891, rfl⟩
abbrev main_cst_233 : Ref sig .tc := ⟨.hbm, 892, rfl⟩
abbrev main_v657 : Ref sig .tc := ⟨.hbm, 893, rfl⟩
abbrev main_v658 : Ref sig .tc := ⟨.hbm, 894, rfl⟩
abbrev main_v659 : Ref sig .tc := ⟨.hbm, 895, rfl⟩
abbrev main_cst_234 : Ref sig .tc := ⟨.hbm, 896, rfl⟩
abbrev main_v660 : Ref sig .tc := ⟨.hbm, 897, rfl⟩
abbrev main_v661 : Ref sig .tc := ⟨.hbm, 898, rfl⟩
abbrev main_v662 : Ref sig .tc := ⟨.hbm, 899, rfl⟩
abbrev main_cst_235 : Ref sig .tc := ⟨.hbm, 900, rfl⟩
abbrev main_v663 : Ref sig .tc := ⟨.hbm, 901, rfl⟩
abbrev main_v664 : Ref sig .tc := ⟨.hbm, 902, rfl⟩
abbrev main_v665 : Ref sig .tc := ⟨.hbm, 903, rfl⟩
abbrev main_cst_236 : Ref sig .tc := ⟨.hbm, 904, rfl⟩
abbrev main_v666 : Ref sig .tc := ⟨.hbm, 905, rfl⟩
abbrev main_v667 : Ref sig .tc := ⟨.hbm, 906, rfl⟩
abbrev main_v668 : Ref sig .tc := ⟨.hbm, 907, rfl⟩
abbrev main_cst_237 : Ref sig .tc := ⟨.hbm, 908, rfl⟩
abbrev main_v669 : Ref sig .tc := ⟨.hbm, 909, rfl⟩
abbrev main_v670 : Ref sig .tc := ⟨.hbm, 910, rfl⟩
abbrev main_v671 : Ref sig .tc := ⟨.hbm, 911, rfl⟩
abbrev main_cst_238 : Ref sig .tc := ⟨.hbm, 912, rfl⟩
abbrev main_v672 : Ref sig .tc := ⟨.hbm, 913, rfl⟩
abbrev main_v673 : Ref sig .tc := ⟨.hbm, 914, rfl⟩
abbrev main_cst_239 : Ref sig .tc := ⟨.hbm, 915, rfl⟩
abbrev main_v674 : Ref sig .tc := ⟨.hbm, 916, rfl⟩
abbrev main_v675 : Ref sig .tc := ⟨.hbm, 917, rfl⟩
abbrev main_v676 : Ref sig .tc := ⟨.hbm, 918, rfl⟩
abbrev main_cst_240 : Ref sig .tc := ⟨.hbm, 919, rfl⟩
abbrev main_v677 : Ref sig .tc := ⟨.hbm, 920, rfl⟩
abbrev main_v678 : Ref sig .tc := ⟨.hbm, 921, rfl⟩
abbrev main_v679 : Ref sig .tc := ⟨.hbm, 922, rfl⟩
abbrev main_cst_241 : Ref sig .tc := ⟨.hbm, 923, rfl⟩
abbrev main_v680 : Ref sig .tc := ⟨.hbm, 924, rfl⟩
abbrev main_v681 : Ref sig .tc := ⟨.hbm, 925, rfl⟩
abbrev main_v682 : Ref sig .tc := ⟨.hbm, 926, rfl⟩
abbrev main_cst_242 : Ref sig .tc := ⟨.hbm, 927, rfl⟩
abbrev main_v683 : Ref sig .tc := ⟨.hbm, 928, rfl⟩
abbrev main_v684 : Ref sig .tc := ⟨.hbm, 929, rfl⟩
abbrev main_v685 : Ref sig .tc := ⟨.hbm, 930, rfl⟩
abbrev main_cst_243 : Ref sig .tc := ⟨.hbm, 931, rfl⟩
abbrev main_v686 : Ref sig .tc := ⟨.hbm, 932, rfl⟩
abbrev main_v687 : Ref sig .tc := ⟨.hbm, 933, rfl⟩
abbrev main_v688 : Ref sig .tc := ⟨.hbm, 934, rfl⟩
abbrev main_cst_244 : Ref sig .tc := ⟨.hbm, 935, rfl⟩
abbrev main_v689 : Ref sig .tc := ⟨.hbm, 936, rfl⟩
abbrev main_v690 : Ref sig .tc := ⟨.hbm, 937, rfl⟩
abbrev main_v691 : Ref sig .tc := ⟨.hbm, 938, rfl⟩
abbrev main_cst_245 : Ref sig .tc := ⟨.hbm, 939, rfl⟩
abbrev main_v692 : Ref sig .tc := ⟨.hbm, 940, rfl⟩
abbrev main_v693 : Ref sig .tc := ⟨.hbm, 941, rfl⟩
abbrev main_v694 : Ref sig .tc := ⟨.hbm, 942, rfl⟩
abbrev main_cst_246 : Ref sig .tc := ⟨.hbm, 943, rfl⟩
abbrev main_v695 : Ref sig .tc := ⟨.hbm, 944, rfl⟩
abbrev main_v696 : Ref sig .tc := ⟨.hbm, 945, rfl⟩
abbrev main_v697 : Ref sig .tc := ⟨.hbm, 946, rfl⟩
abbrev main_cst_247 : Ref sig .tc := ⟨.hbm, 947, rfl⟩
abbrev main_v698 : Ref sig .tc := ⟨.hbm, 948, rfl⟩
abbrev main_v699 : Ref sig .tc := ⟨.hbm, 949, rfl⟩
abbrev main_v700 : Ref sig .tc := ⟨.hbm, 950, rfl⟩
abbrev main_v701 : Ref sig .tc := ⟨.hbm, 951, rfl⟩
abbrev main_v702 : Ref sig .tc := ⟨.hbm, 952, rfl⟩
abbrev main_v703 : Ref sig .tc := ⟨.hbm, 953, rfl⟩
abbrev main_v704 : Ref sig .tc := ⟨.hbm, 954, rfl⟩
abbrev main_v705 : Ref sig .tc := ⟨.hbm, 955, rfl⟩
abbrev main_v706 : Ref sig .tc := ⟨.hbm, 956, rfl⟩
abbrev main_v707 : Ref sig .tc := ⟨.hbm, 957, rfl⟩
abbrev main_v708 : Ref sig .tc := ⟨.hbm, 958, rfl⟩
abbrev main_v709 : Ref sig .tc := ⟨.hbm, 959, rfl⟩
abbrev main_v710 : Ref sig .tc := ⟨.hbm, 960, rfl⟩
abbrev main_v711 : Ref sig .tc := ⟨.hbm, 961, rfl⟩
abbrev main_v712 : Ref sig .tc := ⟨.hbm, 962, rfl⟩
abbrev main_v713 : Ref sig .tc := ⟨.hbm, 963, rfl⟩
abbrev main_v714 : Ref sig .tc := ⟨.hbm, 964, rfl⟩
abbrev main_v715 : Ref sig .tc := ⟨.hbm, 965, rfl⟩
abbrev main_v716 : Ref sig .tc := ⟨.hbm, 966, rfl⟩
abbrev main_v717 : Ref sig .tc := ⟨.hbm, 967, rfl⟩
abbrev main_v718 : Ref sig .tc := ⟨.hbm, 968, rfl⟩
abbrev main_v719 : Ref sig .tc := ⟨.hbm, 969, rfl⟩
abbrev main_v720 : Ref sig .tc := ⟨.hbm, 970, rfl⟩
abbrev main_v721 : Ref sig .tc := ⟨.hbm, 971, rfl⟩
abbrev main_v722 : Ref sig .tc := ⟨.hbm, 972, rfl⟩
abbrev main_v723 : Ref sig .tc := ⟨.hbm, 973, rfl⟩
abbrev main_v724 : Ref sig .tc := ⟨.hbm, 974, rfl⟩
abbrev main_v725 : Ref sig .tc := ⟨.hbm, 975, rfl⟩
abbrev main_v726 : Ref sig .tc := ⟨.hbm, 976, rfl⟩
abbrev main_v727 : Ref sig .tc := ⟨.hbm, 977, rfl⟩
abbrev main_v728 : Ref sig .tc := ⟨.hbm, 978, rfl⟩
abbrev main_v729 : Ref sig .tc := ⟨.hbm, 979, rfl⟩
abbrev main_v730 : Ref sig .tc := ⟨.hbm, 980, rfl⟩
abbrev main_v731 : Ref sig .tc := ⟨.hbm, 981, rfl⟩
abbrev main_v732 : Ref sig .tc := ⟨.hbm, 982, rfl⟩
abbrev main_v733 : Ref sig .tc := ⟨.hbm, 983, rfl⟩
abbrev main_v734 : Ref sig .tc := ⟨.hbm, 984, rfl⟩
abbrev main_v735 : Ref sig .tc := ⟨.hbm, 985, rfl⟩
abbrev main_v736 : Ref sig .tc := ⟨.hbm, 986, rfl⟩
abbrev main_v737 : Ref sig .tc := ⟨.hbm, 987, rfl⟩
abbrev main_v738 : Ref sig .tc := ⟨.hbm, 988, rfl⟩
abbrev main_v739 : Ref sig .tc := ⟨.hbm, 989, rfl⟩
abbrev main_v740 : Ref sig .tc := ⟨.hbm, 990, rfl⟩
abbrev main_v741 : Ref sig .tc := ⟨.hbm, 991, rfl⟩
abbrev main_v742 : Ref sig .tc := ⟨.hbm, 992, rfl⟩
abbrev main_v743 : Ref sig .tc := ⟨.hbm, 993, rfl⟩
abbrev main_v744 : Ref sig .tc := ⟨.hbm, 994, rfl⟩
abbrev main_v745 : Ref sig .tc := ⟨.hbm, 995, rfl⟩
abbrev main_v746 : Ref sig .tc := ⟨.hbm, 996, rfl⟩
abbrev main_v747 : Ref sig .tc := ⟨.hbm, 997, rfl⟩
abbrev main_v748 : Ref sig .tc := ⟨.hbm, 998, rfl⟩
abbrev main_v749 : Ref sig .tc := ⟨.hbm, 999, rfl⟩
abbrev main_v750 : Ref sig .tc := ⟨.hbm, 1000, rfl⟩
abbrev main_v751 : Ref sig .tc := ⟨.hbm, 1001, rfl⟩
abbrev main_v752 : Ref sig .tc := ⟨.hbm, 1002, rfl⟩
abbrev main_v753 : Ref sig .tc := ⟨.hbm, 1003, rfl⟩
abbrev main_v754 : Ref sig .tc := ⟨.hbm, 1004, rfl⟩
abbrev main_v755 : Ref sig .tc := ⟨.hbm, 1005, rfl⟩
abbrev main_v756 : Ref sig .tc := ⟨.hbm, 1006, rfl⟩
abbrev main_v757 : Ref sig .tc := ⟨.hbm, 1007, rfl⟩
abbrev main_v758 : Ref sig .tc := ⟨.hbm, 1008, rfl⟩
abbrev main_v759 : Ref sig .tc := ⟨.hbm, 1009, rfl⟩
abbrev main_v760 : Ref sig .tc := ⟨.hbm, 1010, rfl⟩
abbrev main_v761 : Ref sig .tc := ⟨.hbm, 1011, rfl⟩
abbrev main_v762 : Ref sig .tc := ⟨.hbm, 1012, rfl⟩
abbrev main_v763 : Ref sig .tc := ⟨.hbm, 1013, rfl⟩
abbrev main_v764 : Ref sig .tc := ⟨.hbm, 1014, rfl⟩
abbrev main_v765 : Ref sig .tc := ⟨.hbm, 1015, rfl⟩
abbrev main_v766 : Ref sig .tc := ⟨.hbm, 1016, rfl⟩
abbrev main_v767 : Ref sig .tc := ⟨.hbm, 1017, rfl⟩
abbrev main_v768 : Ref sig .tc := ⟨.hbm, 1018, rfl⟩
abbrev main_v769 : Ref sig .tc := ⟨.hbm, 1019, rfl⟩
abbrev main_v770 : Ref sig .tc := ⟨.hbm, 1020, rfl⟩
abbrev main_v771 : Ref sig .tc := ⟨.hbm, 1021, rfl⟩
abbrev main_v772 : Ref sig .tc := ⟨.hbm, 1022, rfl⟩
abbrev main_v773 : Ref sig .tc := ⟨.hbm, 1023, rfl⟩
abbrev main_v774 : Ref sig .tc := ⟨.hbm, 1024, rfl⟩
abbrev main_v775 : Ref sig .tc := ⟨.hbm, 1025, rfl⟩
abbrev main_v776 : Ref sig .tc := ⟨.hbm, 1026, rfl⟩
abbrev main_v777 : Ref sig .tc := ⟨.hbm, 1027, rfl⟩
abbrev main_v778 : Ref sig .tc := ⟨.hbm, 1028, rfl⟩
abbrev main_v779 : Ref sig .tc := ⟨.hbm, 1029, rfl⟩
abbrev main_v780 : Ref sig .tc := ⟨.hbm, 1030, rfl⟩
abbrev main_v781 : Ref sig .tc := ⟨.hbm, 1031, rfl⟩
abbrev main_v782 : Ref sig .tc := ⟨.hbm, 1032, rfl⟩
abbrev main_v783 : Ref sig .tc := ⟨.hbm, 1033, rfl⟩
abbrev main_v784 : Ref sig .tc := ⟨.hbm, 1034, rfl⟩
abbrev main_v785 : Ref sig .tc := ⟨.hbm, 1035, rfl⟩
abbrev main_v786 : Ref sig .tc := ⟨.hbm, 1036, rfl⟩
abbrev main_v787 : Ref sig .tc := ⟨.hbm, 1037, rfl⟩
abbrev main_v788 : Ref sig .tc := ⟨.hbm, 1038, rfl⟩
abbrev main_v789 : Ref sig .tc := ⟨.hbm, 1039, rfl⟩
abbrev main_v790 : Ref sig .tc := ⟨.hbm, 1040, rfl⟩
abbrev main_v791 : Ref sig .tc := ⟨.hbm, 1041, rfl⟩
abbrev main_v792 : Ref sig .tc := ⟨.hbm, 1042, rfl⟩
abbrev main_v793 : Ref sig .tc := ⟨.hbm, 1043, rfl⟩
abbrev main_v794 : Ref sig .tc := ⟨.hbm, 1044, rfl⟩
abbrev main_v795 : Ref sig .tc := ⟨.hbm, 1045, rfl⟩
abbrev main_v796 : Ref sig .tc := ⟨.hbm, 1046, rfl⟩
abbrev main_v797 : Ref sig .tc := ⟨.hbm, 1047, rfl⟩
abbrev main_v798 : Ref sig .tc := ⟨.hbm, 1048, rfl⟩
abbrev main_v799 : Ref sig .tc := ⟨.hbm, 1049, rfl⟩
abbrev main_v800 : Ref sig .tc := ⟨.hbm, 1050, rfl⟩
abbrev main_v801 : Ref sig .tc := ⟨.hbm, 1051, rfl⟩
abbrev main_v802 : Ref sig .tc := ⟨.hbm, 1052, rfl⟩
abbrev main_v803 : Ref sig .tc := ⟨.hbm, 1053, rfl⟩
abbrev main_v804 : Ref sig .tc := ⟨.hbm, 1054, rfl⟩
abbrev main_v805 : Ref sig .tc := ⟨.hbm, 1055, rfl⟩
abbrev main_v806 : Ref sig .tc := ⟨.hbm, 1056, rfl⟩
abbrev main_v807 : Ref sig .tc := ⟨.hbm, 1057, rfl⟩
abbrev main_v808 : Ref sig .tc := ⟨.hbm, 1058, rfl⟩

abbrev nD : Nat := 1
abbrev τ : Topo := Topo.v7x

variable {F : FTy → Type} [FloatOps F]

class Facts₀ : Prop where
  slices_S1000000x2_S1000000x1_0_0 : S1000000x2.Slices ![0, 0] S1000000x1
  shapeCasts_S1000000x1_S1000000 : S1000000x1.ShapeCasts S1000000
  slices_S1000000x2_S1000000x1_0_1 : S1000000x2.Slices ![0, 1] S1000000x1
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x1_S1000000x1_S1000000x1_S1000000x1_S1000000x1_S1000000x1_S1000000x1_S1000000x1_S1000000x1_S1000000x1_S1000000x1_S1000000x1_S1000000x1_S1000000x1_S1000000x1_S1000000x1_S1000000x16_d1 : Shape.Concatenates [S1000000x1, S1000000x1, S1000000x1, S1000000x1, S1000000x1, S1000000x1, S1000000x1, S1000000x1, S1000000x1, S1000000x1, S1000000x1, S1000000x1, S1000000x1, S1000000x1, S1000000x1, S1000000x1] S1000000x16 1
  concatenates_S1000000x1_S1000000x1_S1000000x1_S1000000x1_S1000000x4_d1 : Shape.Concatenates [S1000000x1, S1000000x1, S1000000x1, S1000000x1] S1000000x4 1
  concatenates_S1000000x16_S1000000x16_S1000000x16_S1000000x16_S1000000x16_S1000000x16_S1000000x4_S1000000x100_d1 : Shape.Concatenates [S1000000x16, S1000000x16, S1000000x16, S1000000x16, S1000000x16, S1000000x16, S1000000x4] S1000000x100 1

variable [Facts₀]

class Facts : Prop extends Facts₀ where

variable [Facts]
-- ==== Proof.LibRowwise.lean ====
/-
  Rows of arrays: the small layout facts a row-by-row (pointwise in the row index) computation is read through.

  An `[n, 2]` array of coordinate pairs is split into its two columns (a unit-stride slice of one column, recast to a
  vector of `n` entries); the computed columns, vectors of `n` entries, are laid side by side again (recast, or
  broadcast, to `[n, 1]` and concatenated along the second axis).  Each of these re-layings, read at row `r`, is
  the operand at row `r`; a splat of a constant word reads that word's value at every row; and at the ideal instance
  the host's quotient, cosine and sine are the vector unit's, entry by entry.  All for every number of rows `n`.
-/
import Idealize.ShloMosaic.Lib.ValueIdx
import Idealize.ShloMosaic.Lib.Pipeline.Value
import Idealize.ShloMosaic.PureOps.Ideal

noncomputable section

namespace Cert.LibRowwise

open Idealize.ShloMosaic Idealize.ShloMosaic.ValueIdx

variable {α : Type} {n : ℕ}

/-- An `[n, 1]` column recast to a vector of `n` entries, read at `r`: the column's row `r`. -/
theorem vecOfCol_apply (v : (⟨2, ![n, 1]⟩ : Shape).Idx → α) (h : (⟨2, ![n, 1]⟩ : Shape).ShapeCasts ⟨1, ![n]⟩)
    (r : Fin n) : shapeCast ⟨1, ![n]⟩ v h (ix1 r) = v (ix2 r 0) :=
  shapeCast_apply v h _ _ (by
    rw [Shape.rowMajor_val_two, Shape.rowMajor_val_one]
    show r.val * 1 + 0 = r.val
    omega)

/-- A vector of `n` entries recast to an `[n, 1]` column, read at row `r`: the vector's entry `r`. -/
theorem colOfVec_apply (v : (⟨1, ![n]⟩ : Shape).Idx → α) (h : (⟨1, ![n]⟩ : Shape).ShapeCasts ⟨2, ![n, 1]⟩)
    (r : Fin n) (c : Fin 1) : shapeCast ⟨2, ![n, 1]⟩ v h (ix2 r c) = v (ix1 r) :=
  shapeCast_apply v h _ _ (by
    rw [Shape.rowMajor_val_two, Shape.rowMajor_val_one]
    show r.val = r.val * 1 + c.val
    omega)

/-- A vector of `n` entries broadcast to an `[n, 1]` column (whichever axis map the broadcast is allowed), read at row
    `r`: the entry `r`. -/
theorem colOfVec_bcast_apply (dims : Fin 1 → Fin 2) (v : (⟨1, ![n]⟩ : Shape).Idx → α)
    (h : (⟨1, ![n]⟩ : Shape).BroadcastsInDim ⟨2, ![n, 1]⟩ dims) (r : Fin n) (c : Fin 1) :
    broadcastInDim ⟨2, ![n, 1]⟩ dims h v (ix2 r c) = v (ix1 r) :=
  broadcastInDim_apply dims h v (ix2 r c) (ix1 r) (fun a => by
    obtain rfl : a = 0 := Subsingleton.elim _ _
    show r.val = if n = 1 then 0 else ((ix2 r c) (dims 0)).val
    by_cases h1 : n = 1
    · rw [if_pos h1]; have := r.isLt; omega
    · rw [if_neg h1]
      rcases h.2 0 with h2 | h2
      · exact absurd h2 h1
      · have h3 : n = (![n, 1] : Fin 2 → ℕ) (dims 0) := h2
        match hd : dims 0 with
        | ⟨0, _⟩ => rfl
        | ⟨1, _⟩ => rw [hd] at h3; exact absurd h3 h1)

/-- Column `k` of an `[n, 2]` array, cut out as an `[n, 1]` slice, read at row `r`: the array at `(r, k)`. -/
theorem sliceCol_apply (x : (⟨2, ![n, 2]⟩ : Shape).Idx → α) (k : Fin 2)
    (h : (⟨2, ![n, 2]⟩ : Shape).Slices ![0, k.val] ⟨2, ![n, 1]⟩) (r : Fin n) (c : Fin 1) :
    extractStridedSlice ⟨2, ![n, 1]⟩ ![0, k.val] x h (ix2 r c) = x (ix2 r k) :=
  extractStridedSlice_apply _ x h _ _ (fun a => by
    match a with
    | ⟨0, _⟩ => show r.val = 0 + r.val; omega
    | ⟨1, _⟩ => show k.val = k.val + c.val; omega)

/-- The first column of an `[n, 2]` array, cut out as an `[n, 1]` slice, read at row `r`. -/
theorem sliceCol0_apply (x : (⟨2, ![n, 2]⟩ : Shape).Idx → α)
    (h : (⟨2, ![n, 2]⟩ : Shape).Slices ![0, 0] ⟨2, ![n, 1]⟩) (r : Fin n) (c : Fin 1) :
    extractStridedSlice ⟨2, ![n, 1]⟩ ![0, 0] x h (ix2 r c) = x (ix2 r 0) :=
  sliceCol_apply x 0 h r c

/-- The second column of an `[n, 2]` array, cut out as an `[n, 1]` slice, read at row `r`. -/
theorem sliceCol1_apply (x : (⟨2, ![n, 2]⟩ : Shape).Idx → α)
    (h : (⟨2, ![n, 2]⟩ : Shape).Slices ![0, 1] ⟨2, ![n, 1]⟩) (r : Fin n) (c : Fin 1) :
    extractStridedSlice ⟨2, ![n, 1]⟩ ![0, 1] x h (ix2 r c) = x (ix2 r 1) :=
  sliceCol_apply x 1 h r c

/-! ## The entrywise operations of a row-by-row computation at the ideal instance, read at an entry -/

section AtIdeal
variable {s : Shape} {φ : FTy}

/-- A cosine at an entry is the cosine of the entry. -/
theorem cos_apply (a : FVec Ideal s φ) (i : s.Idx) : cos a i = Ideal.cos (a i) := rfl
/-- A sine at an entry is the sine of the entry. -/
theorem sin_apply (a : FVec Ideal s φ) (i : s.Idx) : sin a i = Ideal.sin (a i) := rfl
/-- The host's cosine is the same function of the entry. -/
theorem hostCos_apply (a : FVec Ideal s φ) (i : s.Idx) : Host.cos a i = Ideal.cos (a i) := rfl
/-- The host's sine is the same function of the entry. -/
theorem hostSin_apply (a : FVec Ideal s φ) (i : s.Idx) : Host.sin a i = Ideal.sin (a i) := rfl
/-- The host's quotient is the same function of the entries as the vector unit's. -/
theorem hostDivf_apply (a b : FVec Ideal s φ) (i : s.Idx) : Host.divf a b i = Ideal.div (a i) (b i) := rfl
/-- A splat of a word reads the extended real the word denotes, at every entry. -/
theorem splat_apply (b : BitVec φ.bits) (i : s.Idx) :
    broadcast s (FloatOps.ofBits (F := Ideal) φ b) i = Ideal.ofBits φ b := rfl
/-- The host's splat — a rank-0 constant broadcast to the shape — reads the same extended real at every entry. -/
theorem hostSplat_apply (dims : Fin 0 → Fin s.rank) (h : (⟨0, ![]⟩ : Shape).BroadcastsInDim s dims)
    (b : BitVec φ.bits) (i : s.Idx) :
    broadcastInDim s dims h (constant (F := Ideal) ⟨0, ![]⟩ φ b) i = Ideal.ofBits φ b := rfl

end AtIdeal

/-- A rank-0 operand broadcast to any shape reads the operand's one entry everywhere (whatever the entries are). -/
theorem rank0_bcast_apply {s : Shape} {β : Type} (dims : Fin 0 → Fin s.rank)
    (h : (⟨0, ![]⟩ : Shape).BroadcastsInDim s dims) (c : (⟨0, ![]⟩ : Shape).Idx → β) (i : s.Idx) :
    broadcastInDim s dims h c i = c ix0 :=
  congrArg c (funext fun a => a.elim0)

end Cert.LibRowwise

end
-- ==== Proof.LibStackCols.lean ====
/-
  Columns laid side by side.

  A concatenation along the second axis of `N` columns `[n, 1]`, read at `(R, k)`, is column `k` at row `R`
  (`stackCols_apply`; spelt out for the literal lists of 4, 16 and 100 columns, the column given as a natural number); and a concatenation of six groups of
  16 columns and one of 4, read at `(R, j)`, is group `j / 16` at `(R, j % 16)`, or the last group at `(R, j - 96)`.
  For every number of rows `n` and any entries.
-/
import Idealize.ShloMosaic.Lib.ValueIdx
import Idealize.ShloMosaic.Lib.Pipeline.Value

noncomputable section

namespace Cert.LibStackCols

open Idealize.ShloMosaic Idealize.ShloMosaic.ValueIdx

variable {α : Type} {n : ℕ}

/-- `N` columns side by side, read at `(R, k)`: column `k` at row `R`. -/
theorem stackCols_apply {N : ℕ} (f : Fin N → (⟨2, ![n, 1]⟩ : Shape).Idx → α)
    (h : Shape.Concatenates ((List.ofFn fun k : Fin N =>
      (⟨⟨2, ![n, 1]⟩, f k⟩ : (s : Shape) × (s.Idx → α))).map (·.1)) ⟨2, ![n, N]⟩ 1)
    (R : Fin n) (k : Fin N) :
    concatenate ⟨2, ![n, N]⟩ 1 (List.ofFn fun k : Fin N => ⟨⟨2, ![n, 1]⟩, f k⟩) h (ix2 R k) = f k (ix2 R 0) :=
  concatenate_ofFn_unit_apply 1 f h rfl rfl (ix2 R k) k rfl (ix2 R 0) (fun b hb => by
    match b with
    | ⟨0, _⟩ => rfl
    | ⟨1, _⟩ => exact absurd rfl hb)

/-- Four columns side by side, the column given as a natural number. -/
theorem stack4_nat_apply (u0 u1 u2 u3 : (⟨2, ![n, 1]⟩ : Shape).Idx → α)
    (h : Shape.Concatenates (([⟨⟨2, ![n, 1]⟩, u0⟩, ⟨⟨2, ![n, 1]⟩, u1⟩, ⟨⟨2, ![n, 1]⟩, u2⟩, ⟨⟨2, ![n, 1]⟩, u3⟩] : List ((s : Shape) × (s.Idx → α))).map (·.1)) ⟨2, ![n, 4]⟩ 1)
    (R : Fin n) (k : ℕ) (hk : k < 4) :
    concatenate ⟨2, ![n, 4]⟩ 1 [⟨⟨2, ![n, 1]⟩, u0⟩, ⟨⟨2, ![n, 1]⟩, u1⟩, ⟨⟨2, ![n, 1]⟩, u2⟩, ⟨⟨2, ![n, 1]⟩, u3⟩] h (ix2 R ⟨k, hk⟩)
      = ([u0, u1, u2, u3].getD k u0) (ix2 R 0) := by
  rw [show ([u0, u1, u2, u3].getD k u0) = (![u0, u1, u2, u3] ⟨k, hk⟩) from by
    interval_cases k <;> rfl]
  exact stackCols_apply (N := 4) ![u0, u1, u2, u3] h R ⟨k, hk⟩

/-- Sixteen columns side by side, the column given as a natural number. -/
theorem stack16_nat_apply (u0 u1 u2 u3 u4 u5 u6 u7 u8 u9 u10 u11 u12 u13 u14 u15 : (⟨2, ![n, 1]⟩ : Shape).Idx → α)
    (h : Shape.Concatenates (([⟨⟨2, ![n, 1]⟩, u0⟩, ⟨⟨2, ![n, 1]⟩, u1⟩, ⟨⟨2, ![n, 1]⟩, u2⟩, ⟨⟨2, ![n, 1]⟩, u3⟩, ⟨⟨2, ![n, 1]⟩, u4⟩, ⟨⟨2, ![n, 1]⟩, u5⟩, ⟨⟨2, ![n, 1]⟩, u6⟩, ⟨⟨2, ![n, 1]⟩, u7⟩, ⟨⟨2, ![n, 1]⟩, u8⟩, ⟨⟨2, ![n, 1]⟩, u9⟩, ⟨⟨2, ![n, 1]⟩, u10⟩, ⟨⟨2, ![n, 1]⟩, u11⟩, ⟨⟨2, ![n, 1]⟩, u12⟩, ⟨⟨2, ![n, 1]⟩, u13⟩, ⟨⟨2, ![n, 1]⟩, u14⟩, ⟨⟨2, ![n, 1]⟩, u15⟩] : List ((s : Shape) × (s.Idx → α))).map (·.1)) ⟨2, ![n, 16]⟩ 1)
    (R : Fin n) (k : ℕ) (hk : k < 16) :
    concatenate ⟨2, ![n, 16]⟩ 1 [⟨⟨2, ![n, 1]⟩, u0⟩, ⟨⟨2, ![n, 1]⟩, u1⟩, ⟨⟨2, ![n, 1]⟩, u2⟩, ⟨⟨2, ![n, 1]⟩, u3⟩, ⟨⟨2, ![n, 1]⟩, u4⟩, ⟨⟨2, ![n, 1]⟩, u5⟩, ⟨⟨2, ![n, 1]⟩, u6⟩, ⟨⟨2, ![n, 1]⟩, u7⟩, ⟨⟨2, ![n, 1]⟩, u8⟩, ⟨⟨2, ![n, 1]⟩, u9⟩, ⟨⟨2, ![n, 1]⟩, u10⟩, ⟨⟨2, ![n, 1]⟩, u11⟩, ⟨⟨2, ![n, 1]⟩, u12⟩, ⟨⟨2, ![n, 1]⟩, u13⟩, ⟨⟨2, ![n, 1]⟩, u14⟩, ⟨⟨2, ![n, 1]⟩, u15⟩] h (ix2 R ⟨k, hk⟩)
      = ([u0, u1, u2, u3, u4, u5, u6, u7, u8, u9, u10, u11, u12, u13, u14, u15].getD k u0) (ix2 R 0) := by
  rw [show ([u0, u1, u2, u3, u4, u5, u6, u7, u8, u9, u10, u11, u12, u13, u14, u15].getD k u0) = (![u0, u1, u2, u3, u4, u5, u6, u7, u8, u9, u10, u11, u12, u13, u14, u15] ⟨k, hk⟩) from by
    interval_cases k <;> rfl]
  exact stackCols_apply (N := 16) ![u0, u1, u2, u3, u4, u5, u6, u7, u8, u9, u10, u11, u12, u13, u14, u15] h R ⟨k, hk⟩

/-- A hundred columns side by side, the column given as a natural number. -/
theorem stack100_nat_apply (u0 u1 u2 u3 u4 u5 u6 u7 u8 u9 u10 u11 u12 u13 u14 u15 u16 u17 u18 u19 u20 u21 u22 u23 u24 u25 u26 u27 u28 u29 u30 u31 u32 u33 u34 u35 u36 u37 u38 u39 u40 u41 u42 u43 u44 u45 u46 u47 u48 u49 u50 u51 u52 u53 u54 u55 u56 u57 u58 u59 u60 u61 u62 u63 u64 u65 u66 u67 u68 u69 u70 u71 u72 u73 u74 u75 u76 u77 u78 u79 u80 u81 u82 u83 u84 u85 u86 u87 u88 u89 u90 u91 u92 u93 u94 u95 u96 u97 u98 u99 : (⟨2, ![n, 1]⟩ : Shape).Idx → α)
    (h : Shape.Concatenates (([⟨⟨2, ![n, 1]⟩, u0⟩, ⟨⟨2, ![n, 1]⟩, u1⟩, ⟨⟨2, ![n, 1]⟩, u2⟩, ⟨⟨2, ![n, 1]⟩, u3⟩, ⟨⟨2, ![n, 1]⟩, u4⟩, ⟨⟨2, ![n, 1]⟩, u5⟩, ⟨⟨2, ![n, 1]⟩, u6⟩, ⟨⟨2, ![n, 1]⟩, u7⟩, ⟨⟨2, ![n, 1]⟩, u8⟩, ⟨⟨2, ![n, 1]⟩, u9⟩, ⟨⟨2, ![n, 1]⟩, u10⟩, ⟨⟨2, ![n, 1]⟩, u11⟩, ⟨⟨2, ![n, 1]⟩, u12⟩, ⟨⟨2, ![n, 1]⟩, u13⟩, ⟨⟨2, ![n, 1]⟩, u14⟩, ⟨⟨2, ![n, 1]⟩, u15⟩, ⟨⟨2, ![n, 1]⟩, u16⟩, ⟨⟨2, ![n, 1]⟩, u17⟩, ⟨⟨2, ![n, 1]⟩, u18⟩, ⟨⟨2, ![n, 1]⟩, u19⟩, ⟨⟨2, ![n, 1]⟩, u20⟩, ⟨⟨2, ![n, 1]⟩, u21⟩, ⟨⟨2, ![n, 1]⟩, u22⟩, ⟨⟨2, ![n, 1]⟩, u23⟩, ⟨⟨2, ![n, 1]⟩, u24⟩, ⟨⟨2, ![n, 1]⟩, u25⟩, ⟨⟨2, ![n, 1]⟩, u26⟩, ⟨⟨2, ![n, 1]⟩, u27⟩, ⟨⟨2, ![n, 1]⟩, u28⟩, ⟨⟨2, ![n, 1]⟩, u29⟩, ⟨⟨2, ![n, 1]⟩, u30⟩, ⟨⟨2, ![n, 1]⟩, u31⟩, ⟨⟨2, ![n, 1]⟩, u32⟩, ⟨⟨2, ![n, 1]⟩, u33⟩, ⟨⟨2, ![n, 1]⟩, u34⟩, ⟨⟨2, ![n, 1]⟩, u35⟩, ⟨⟨2, ![n, 1]⟩, u36⟩, ⟨⟨2, ![n, 1]⟩, u37⟩, ⟨⟨2, ![n, 1]⟩, u38⟩, ⟨⟨2, ![n, 1]⟩, u39⟩, ⟨⟨2, ![n, 1]⟩, u40⟩, ⟨⟨2, ![n, 1]⟩, u41⟩, ⟨⟨2, ![n, 1]⟩, u42⟩, ⟨⟨2, ![n, 1]⟩, u43⟩, ⟨⟨2, ![n, 1]⟩, u44⟩, ⟨⟨2, ![n, 1]⟩, u45⟩, ⟨⟨2, ![n, 1]⟩, u46⟩, ⟨⟨2, ![n, 1]⟩, u47⟩, ⟨⟨2, ![n, 1]⟩, u48⟩, ⟨⟨2, ![n, 1]⟩, u49⟩, ⟨⟨2, ![n, 1]⟩, u50⟩, ⟨⟨2, ![n, 1]⟩, u51⟩, ⟨⟨2, ![n, 1]⟩, u52⟩, ⟨⟨2, ![n, 1]⟩, u53⟩, ⟨⟨2, ![n, 1]⟩, u54⟩, ⟨⟨2, ![n, 1]⟩, u55⟩, ⟨⟨2, ![n, 1]⟩, u56⟩, ⟨⟨2, ![n, 1]⟩, u57⟩, ⟨⟨2, ![n, 1]⟩, u58⟩, ⟨⟨2, ![n, 1]⟩, u59⟩, ⟨⟨2, ![n, 1]⟩, u60⟩, ⟨⟨2, ![n, 1]⟩, u61⟩, ⟨⟨2, ![n, 1]⟩, u62⟩, ⟨⟨2, ![n, 1]⟩, u63⟩, ⟨⟨2, ![n, 1]⟩, u64⟩, ⟨⟨2, ![n, 1]⟩, u65⟩, ⟨⟨2, ![n, 1]⟩, u66⟩, ⟨⟨2, ![n, 1]⟩, u67⟩, ⟨⟨2, ![n, 1]⟩, u68⟩, ⟨⟨2, ![n, 1]⟩, u69⟩, ⟨⟨2, ![n, 1]⟩, u70⟩, ⟨⟨2, ![n, 1]⟩, u71⟩, ⟨⟨2, ![n, 1]⟩, u72⟩, ⟨⟨2, ![n, 1]⟩, u73⟩, ⟨⟨2, ![n, 1]⟩, u74⟩, ⟨⟨2, ![n, 1]⟩, u75⟩, ⟨⟨2, ![n, 1]⟩, u76⟩, ⟨⟨2, ![n, 1]⟩, u77⟩, ⟨⟨2, ![n, 1]⟩, u78⟩, ⟨⟨2, ![n, 1]⟩, u79⟩, ⟨⟨2, ![n, 1]⟩, u80⟩, ⟨⟨2, ![n, 1]⟩, u81⟩, ⟨⟨2, ![n, 1]⟩, u82⟩, ⟨⟨2, ![n, 1]⟩, u83⟩, ⟨⟨2, ![n, 1]⟩, u84⟩, ⟨⟨2, ![n, 1]⟩, u85⟩, ⟨⟨2, ![n, 1]⟩, u86⟩, ⟨⟨2, ![n, 1]⟩, u87⟩, ⟨⟨2, ![n, 1]⟩, u88⟩, ⟨⟨2, ![n, 1]⟩, u89⟩, ⟨⟨2, ![n, 1]⟩, u90⟩, ⟨⟨2, ![n, 1]⟩, u91⟩, ⟨⟨2, ![n, 1]⟩, u92⟩, ⟨⟨2, ![n, 1]⟩, u93⟩, ⟨⟨2, ![n, 1]⟩, u94⟩, ⟨⟨2, ![n, 1]⟩, u95⟩, ⟨⟨2, ![n, 1]⟩, u96⟩, ⟨⟨2, ![n, 1]⟩, u97⟩, ⟨⟨2, ![n, 1]⟩, u98⟩, ⟨⟨2, ![n, 1]⟩, u99⟩] : List ((s : Shape) × (s.Idx → α))).map (·.1)) ⟨2, ![n, 100]⟩ 1)
    (R : Fin n) (k : ℕ) (hk : k < 100) :
    concatenate ⟨2, ![n, 100]⟩ 1 [⟨⟨2, ![n, 1]⟩, u0⟩, ⟨⟨2, ![n, 1]⟩, u1⟩, ⟨⟨2, ![n, 1]⟩, u2⟩, ⟨⟨2, ![n, 1]⟩, u3⟩, ⟨⟨2, ![n, 1]⟩, u4⟩, ⟨⟨2, ![n, 1]⟩, u5⟩, ⟨⟨2, ![n, 1]⟩, u6⟩, ⟨⟨2, ![n, 1]⟩, u7⟩, ⟨⟨2, ![n, 1]⟩, u8⟩, ⟨⟨2, ![n, 1]⟩, u9⟩, ⟨⟨2, ![n, 1]⟩, u10⟩, ⟨⟨2, ![n, 1]⟩, u11⟩, ⟨⟨2, ![n, 1]⟩, u12⟩, ⟨⟨2, ![n, 1]⟩, u13⟩, ⟨⟨2, ![n, 1]⟩, u14⟩, ⟨⟨2, ![n, 1]⟩, u15⟩, ⟨⟨2, ![n, 1]⟩, u16⟩, ⟨⟨2, ![n, 1]⟩, u17⟩, ⟨⟨2, ![n, 1]⟩, u18⟩, ⟨⟨2, ![n, 1]⟩, u19⟩, ⟨⟨2, ![n, 1]⟩, u20⟩, ⟨⟨2, ![n, 1]⟩, u21⟩, ⟨⟨2, ![n, 1]⟩, u22⟩, ⟨⟨2, ![n, 1]⟩, u23⟩, ⟨⟨2, ![n, 1]⟩, u24⟩, ⟨⟨2, ![n, 1]⟩, u25⟩, ⟨⟨2, ![n, 1]⟩, u26⟩, ⟨⟨2, ![n, 1]⟩, u27⟩, ⟨⟨2, ![n, 1]⟩, u28⟩, ⟨⟨2, ![n, 1]⟩, u29⟩, ⟨⟨2, ![n, 1]⟩, u30⟩, ⟨⟨2, ![n, 1]⟩, u31⟩, ⟨⟨2, ![n, 1]⟩, u32⟩, ⟨⟨2, ![n, 1]⟩, u33⟩, ⟨⟨2, ![n, 1]⟩, u34⟩, ⟨⟨2, ![n, 1]⟩, u35⟩, ⟨⟨2, ![n, 1]⟩, u36⟩, ⟨⟨2, ![n, 1]⟩, u37⟩, ⟨⟨2, ![n, 1]⟩, u38⟩, ⟨⟨2, ![n, 1]⟩, u39⟩, ⟨⟨2, ![n, 1]⟩, u40⟩, ⟨⟨2, ![n, 1]⟩, u41⟩, ⟨⟨2, ![n, 1]⟩, u42⟩, ⟨⟨2, ![n, 1]⟩, u43⟩, ⟨⟨2, ![n, 1]⟩, u44⟩, ⟨⟨2, ![n, 1]⟩, u45⟩, ⟨⟨2, ![n, 1]⟩, u46⟩, ⟨⟨2, ![n, 1]⟩, u47⟩, ⟨⟨2, ![n, 1]⟩, u48⟩, ⟨⟨2, ![n, 1]⟩, u49⟩, ⟨⟨2, ![n, 1]⟩, u50⟩, ⟨⟨2, ![n, 1]⟩, u51⟩, ⟨⟨2, ![n, 1]⟩, u52⟩, ⟨⟨2, ![n, 1]⟩, u53⟩, ⟨⟨2, ![n, 1]⟩, u54⟩, ⟨⟨2, ![n, 1]⟩, u55⟩, ⟨⟨2, ![n, 1]⟩, u56⟩, ⟨⟨2, ![n, 1]⟩, u57⟩, ⟨⟨2, ![n, 1]⟩, u58⟩, ⟨⟨2, ![n, 1]⟩, u59⟩, ⟨⟨2, ![n, 1]⟩, u60⟩, ⟨⟨2, ![n, 1]⟩, u61⟩, ⟨⟨2, ![n, 1]⟩, u62⟩, ⟨⟨2, ![n, 1]⟩, u63⟩, ⟨⟨2, ![n, 1]⟩, u64⟩, ⟨⟨2, ![n, 1]⟩, u65⟩, ⟨⟨2, ![n, 1]⟩, u66⟩, ⟨⟨2, ![n, 1]⟩, u67⟩, ⟨⟨2, ![n, 1]⟩, u68⟩, ⟨⟨2, ![n, 1]⟩, u69⟩, ⟨⟨2, ![n, 1]⟩, u70⟩, ⟨⟨2, ![n, 1]⟩, u71⟩, ⟨⟨2, ![n, 1]⟩, u72⟩, ⟨⟨2, ![n, 1]⟩, u73⟩, ⟨⟨2, ![n, 1]⟩, u74⟩, ⟨⟨2, ![n, 1]⟩, u75⟩, ⟨⟨2, ![n, 1]⟩, u76⟩, ⟨⟨2, ![n, 1]⟩, u77⟩, ⟨⟨2, ![n, 1]⟩, u78⟩, ⟨⟨2, ![n, 1]⟩, u79⟩, ⟨⟨2, ![n, 1]⟩, u80⟩, ⟨⟨2, ![n, 1]⟩, u81⟩, ⟨⟨2, ![n, 1]⟩, u82⟩, ⟨⟨2, ![n, 1]⟩, u83⟩, ⟨⟨2, ![n, 1]⟩, u84⟩, ⟨⟨2, ![n, 1]⟩, u85⟩, ⟨⟨2, ![n, 1]⟩, u86⟩, ⟨⟨2, ![n, 1]⟩, u87⟩, ⟨⟨2, ![n, 1]⟩, u88⟩, ⟨⟨2, ![n, 1]⟩, u89⟩, ⟨⟨2, ![n, 1]⟩, u90⟩, ⟨⟨2, ![n, 1]⟩, u91⟩, ⟨⟨2, ![n, 1]⟩, u92⟩, ⟨⟨2, ![n, 1]⟩, u93⟩, ⟨⟨2, ![n, 1]⟩, u94⟩, ⟨⟨2, ![n, 1]⟩, u95⟩, ⟨⟨2, ![n, 1]⟩, u96⟩, ⟨⟨2, ![n, 1]⟩, u97⟩, ⟨⟨2, ![n, 1]⟩, u98⟩, ⟨⟨2, ![n, 1]⟩, u99⟩] h (ix2 R ⟨k, hk⟩)
      = ([u0, u1, u2, u3, u4, u5, u6, u7, u8, u9, u10, u11, u12, u13, u14, u15, u16, u17, u18, u19, u20, u21, u22, u23, u24, u25, u26, u27, u28, u29, u30, u31, u32, u33, u34, u35, u36, u37, u38, u39, u40, u41, u42, u43, u44, u45, u46, u47, u48, u49, u50, u51, u52, u53, u54, u55, u56, u57, u58, u59, u60, u61, u62, u63, u64, u65, u66, u67, u68, u69, u70, u71, u72, u73, u74, u75, u76, u77, u78, u79, u80, u81, u82, u83, u84, u85, u86, u87, u88, u89, u90, u91, u92, u93, u94, u95, u96, u97, u98, u99].getD k u0) (ix2 R 0) := by
  rw [show ([u0, u1, u2, u3, u4, u5, u6, u7, u8, u9, u10, u11, u12, u13, u14, u15, u16, u17, u18, u19, u20, u21, u22, u23, u24, u25, u26, u27, u28, u29, u30, u31, u32, u33, u34, u35, u36, u37, u38, u39, u40, u41, u42, u43, u44, u45, u46, u47, u48, u49, u50, u51, u52, u53, u54, u55, u56, u57, u58, u59, u60, u61, u62, u63, u64, u65, u66, u67, u68, u69, u70, u71, u72, u73, u74, u75, u76, u77, u78, u79, u80, u81, u82, u83, u84, u85, u86, u87, u88, u89, u90, u91, u92, u93, u94, u95, u96, u97, u98, u99].getD k u0) = (![u0, u1, u2, u3, u4, u5, u6, u7, u8, u9, u10, u11, u12, u13, u14, u15, u16, u17, u18, u19, u20, u21, u22, u23, u24, u25, u26, u27, u28, u29, u30, u31, u32, u33, u34, u35, u36, u37, u38, u39, u40, u41, u42, u43, u44, u45, u46, u47, u48, u49, u50, u51, u52, u53, u54, u55, u56, u57, u58, u59, u60, u61, u62, u63, u64, u65, u66, u67, u68, u69, u70, u71, u72, u73, u74, u75, u76, u77, u78, u79, u80, u81, u82, u83, u84, u85, u86, u87, u88, u89, u90, u91, u92, u93, u94, u95, u96, u97, u98, u99] ⟨k, hk⟩) from by
    interval_cases k <;> rfl]
  exact stackCols_apply (N := 100) ![u0, u1, u2, u3, u4, u5, u6, u7, u8, u9, u10, u11, u12, u13, u14, u15, u16, u17, u18, u19, u20, u21, u22, u23, u24, u25, u26, u27, u28, u29, u30, u31, u32, u33, u34, u35, u36, u37, u38, u39, u40, u41, u42, u43, u44, u45, u46, u47, u48, u49, u50, u51, u52, u53, u54, u55, u56, u57, u58, u59, u60, u61, u62, u63, u64, u65, u66, u67, u68, u69, u70, u71, u72, u73, u74, u75, u76, u77, u78, u79, u80, u81, u82, u83, u84, u85, u86, u87, u88, u89, u90, u91, u92, u93, u94, u95, u96, u97, u98, u99] h R ⟨k, hk⟩

/-- Six groups of sixteen columns and one of four, side by side: column `j` is column `j % 16` of group `j / 16`, or,
    from column 96 on, column `j - 96` of the last group. -/
theorem stackGroups_apply (U0 U1 U2 U3 U4 U5 : (⟨2, ![n, 16]⟩ : Shape).Idx → α) (U6 : (⟨2, ![n, 4]⟩ : Shape).Idx → α)
    (h : Shape.Concatenates (([⟨⟨2, ![n, 16]⟩, U0⟩, ⟨⟨2, ![n, 16]⟩, U1⟩, ⟨⟨2, ![n, 16]⟩, U2⟩, ⟨⟨2, ![n, 16]⟩, U3⟩, ⟨⟨2, ![n, 16]⟩, U4⟩, ⟨⟨2, ![n, 16]⟩, U5⟩, ⟨⟨2, ![n, 4]⟩, U6⟩] : List ((s : Shape) × (s.Idx → α))).map (·.1)) ⟨2, ![n, 100]⟩ 1)
    (R : Fin n) (j : ℕ) (hj : j < 100) :
    concatenate ⟨2, ![n, 100]⟩ 1 [⟨⟨2, ![n, 16]⟩, U0⟩, ⟨⟨2, ![n, 16]⟩, U1⟩, ⟨⟨2, ![n, 16]⟩, U2⟩, ⟨⟨2, ![n, 16]⟩, U3⟩, ⟨⟨2, ![n, 16]⟩, U4⟩, ⟨⟨2, ![n, 16]⟩, U5⟩, ⟨⟨2, ![n, 4]⟩, U6⟩] h (ix2 R ⟨j, hj⟩)
      = if h96 : j < 96 then ([U0, U1, U2, U3, U4, U5].getD (j / 16) U0) (ix2 R ⟨j % 16, Nat.mod_lt _ (by decide)⟩)
        else U6 (ix2 R ⟨j - 96, by omega⟩) := by
  by_cases h96 : j < 96
  · rw [dif_pos h96]
    have hg : j / 16 < 6 := by omega
    generalize hq : j / 16 = q at hg ⊢
    interval_cases q
    · exact concatenate_apply_piece 1 _ h _ 0 (by show (0 : ℕ) < 7; decide) _ U0 rfl rfl 0 rfl
        (ix2 R ⟨j % 16, Nat.mod_lt _ (by decide)⟩) (fun b hb => by
        match b with
        | ⟨0, _⟩ => rfl
        | ⟨1, _⟩ => exact absurd rfl hb) (by show 0 + j % 16 = j; omega)
    · exact concatenate_apply_piece 1 _ h _ 1 (by show (1 : ℕ) < 7; decide) _ U1 rfl rfl 16 rfl
        (ix2 R ⟨j % 16, Nat.mod_lt _ (by decide)⟩) (fun b hb => by
        match b with
        | ⟨0, _⟩ => rfl
        | ⟨1, _⟩ => exact absurd rfl hb) (by show 16 + j % 16 = j; omega)
    · exact concatenate_apply_piece 1 _ h _ 2 (by show (2 : ℕ) < 7; decide) _ U2 rfl rfl 32 rfl
        (ix2 R ⟨j % 16, Nat.mod_lt _ (by decide)⟩) (fun b hb => by
        match b with
        | ⟨0, _⟩ => rfl
        | ⟨1, _⟩ => exact absurd rfl hb) (by show 32 + j % 16 = j; omega)
    · exact concatenate_apply_piece 1 _ h _ 3 (by show (3 : ℕ) < 7; decide) _ U3 rfl rfl 48 rfl
        (ix2 R ⟨j % 16, Nat.mod_lt _ (by decide)⟩) (fun b hb => by
        match b with
        | ⟨0, _⟩ => rfl
        | ⟨1, _⟩ => exact absurd rfl hb) (by show 48 + j % 16 = j; omega)
    · exact concatenate_apply_piece 1 _ h _ 4 (by show (4 : ℕ) < 7; decide) _ U4 rfl rfl 64 rfl
        (ix2 R ⟨j % 16, Nat.mod_lt _ (by decide)⟩) (fun b hb => by
        match b with
        | ⟨0, _⟩ => rfl
        | ⟨1, _⟩ => exact absurd rfl hb) (by show 64 + j % 16 = j; omega)
    · exact concatenate_apply_piece 1 _ h _ 5 (by show (5 : ℕ) < 7; decide) _ U5 rfl rfl 80 rfl
        (ix2 R ⟨j % 16, Nat.mod_lt _ (by decide)⟩) (fun b hb => by
        match b with
        | ⟨0, _⟩ => rfl
        | ⟨1, _⟩ => exact absurd rfl hb) (by show 80 + j % 16 = j; omega)
  · rw [dif_neg h96]
    exact concatenate_apply_piece 1 _ h _ 6 (by show (6 : ℕ) < 7; decide) _ U6 rfl rfl 96 rfl
      (ix2 R ⟨j - 96, by omega⟩) (fun b hb => by
        match b with
        | ⟨0, _⟩ => rfl
        | ⟨1, _⟩ => exact absurd rfl hb) (by show 96 + (j - 96) = j; omega)

end Cert.LibStackCols

end
-- ==== Proof.RowValue.lean ====
/-
  One row of the result.

  The kernel's body, run on a block of 400 coordinate pairs, and the reference, run on all 1,000,000 pairs, apply the
  same straight-line computation to every row separately: from the pair (lon, lat) of the row the two angles
  φ = (lon + 180)·c and θ = (lat + 90)·c, then x = cos θ and s = sin θ, the associated Legendre values P(l, m) for
  0 ≤ m ≤ l ≤ 9 by the diagonal step P(m, m) = P(m−1, m−1)·(−(2m−1))·s, the first off-diagonal step
  P(m+1, m) = x·(2m+1)·P(m, m) and the three-term recurrence
  P(l, m) = ((2l−1)·x·P(l−1, m) − (l+m−1)·P(l−2, m)) / (l−m), then cos(mφ) and sin(mφ) for 1 ≤ m ≤ 9, and the hundred
  columns K·P(l, 0), (√2·K)·cos(mφ)·P(l, m) and (√2·K)·sin(mφ)·P(l, m) with the same constant words, operation by
  operation in the same order.  Every operation acts entry by entry, so a result entry in row r depends on the pair in
  row r alone, and the two results at a row are one expression of that pair: `row_eq` below, column by column.
-/
import proofs.«118288_j6399501271671_2_alg».proof.Proof.FrameKI
import proofs.«118288_j6399501271671_2_alg».proof.Proof.Gen.ReferenceIdeal.Run
import proofs.«118288_j6399501271671_2_alg».proof.Proof.LibRowwise
import proofs.«118288_j6399501271671_2_alg».proof.Proof.LibStackCols
import Idealize.ShloMosaic.Lib.Pipeline.Value

set_option maxRecDepth 16384

noncomputable section

namespace Cert.RowValue

open Idealize.ShloMosaic Idealize.ShloMosaic.ValueIdx Idealize.ShloMosaic.StableHlo Idealize.ShloMosaic.TcCoe
open Cert.LibRowwise Cert.LibStackCols

/-- The offsets of a whole-block access, however the zeros are spelt. -/
theorem hz : (![0, 0] : Fin 2 → Nat) = fun _ => 0 := funext fun a => by fin_cases a <;> rfl

/-- The reference's azimuth of row `R`: (lon + 180)·c, the longitude read out of the argument's first column. -/
theorem ref_phi (V0 : Valuation Cert.ReferenceIdeal.τ Cert.ReferenceIdeal.sig (Elt Ideal)) (R : Fin 1000000) :
    Cert.ReferenceIdeal.Value.res_main_v7 V0 (ix1 R)
      = HAdd.hAdd (α := Ideal .f32) (V0 (Proc.devRef .tc Cert.ReferenceIdeal.main_arg0) (ix2 R 0))
            (Ideal.ofBits .f32 0x43340000#32) * Ideal.ofBits .f32 0x3C8EFA35#32 := by
  have e : shapeCast Cert.ReferenceIdeal.S1000000
      (extractStridedSlice Cert.ReferenceIdeal.S1000000x1 ![0, 0] (V0 (Proc.devRef .tc Cert.ReferenceIdeal.main_arg0))
        Cert.ReferenceIdeal.Gen.slices_S1000000x2_S1000000x1_0_0)
      Cert.ReferenceIdeal.Gen.shapeCasts_S1000000x1_S1000000 (ix1 R)
      = V0 (Proc.devRef .tc Cert.ReferenceIdeal.main_arg0) (ix2 R 0) := by
    rw [vecOfCol_apply, sliceCol0_apply]
  exact congrArg (fun z : Ideal .f32 => (z + Ideal.ofBits .f32 0x43340000#32) * Ideal.ofBits .f32 0x3C8EFA35#32) e

/-- The reference's polar angle of row `R`: (lat + 90)·c, the latitude read out of the argument's second column. -/
theorem ref_theta (V0 : Valuation Cert.ReferenceIdeal.τ Cert.ReferenceIdeal.sig (Elt Ideal)) (R : Fin 1000000) :
    Cert.ReferenceIdeal.Value.res_main_v11 V0 (ix1 R)
      = HAdd.hAdd (α := Ideal .f32) (V0 (Proc.devRef .tc Cert.ReferenceIdeal.main_arg0) (ix2 R 1))
            (Ideal.ofBits .f32 0x42B40000#32) * Ideal.ofBits .f32 0x3C8EFA35#32 := by
  have e : shapeCast Cert.ReferenceIdeal.S1000000
      (extractStridedSlice Cert.ReferenceIdeal.S1000000x1 ![0, 1] (V0 (Proc.devRef .tc Cert.ReferenceIdeal.main_arg0))
        Cert.ReferenceIdeal.Gen.slices_S1000000x2_S1000000x1_0_1)
      Cert.ReferenceIdeal.Gen.shapeCasts_S1000000x1_S1000000 (ix1 R)
      = V0 (Proc.devRef .tc Cert.ReferenceIdeal.main_arg0) (ix2 R 1) := by
    rw [vecOfCol_apply, sliceCol1_apply]
  exact congrArg (fun z : Ideal .f32 => (z + Ideal.ofBits .f32 0x42B40000#32) * Ideal.ofBits .f32 0x3C8EFA35#32) e

set_option maxHeartbeats 4000000 in
/-- THE ROW: if row `r` of the kernel's input block holds the pair that row `R` of the reference's argument holds, then
    row `r` of what the kernel's body stores is row `R` of the reference's result, in every one of the hundred columns. -/
theorem row_eq (x : Vec Ideal Cert.KernelIdeal.S400x2 .f32)
    (V0 : Valuation Cert.ReferenceIdeal.τ Cert.ReferenceIdeal.sig (Elt Ideal)) (r : Fin 400) (R : Fin 1000000)
    (h0 : x (ix2 r 0) = V0 (Proc.devRef .tc Cert.ReferenceIdeal.main_arg0) (ix2 R 0))
    (h1 : x (ix2 r 1) = V0 (Proc.devRef .tc Cert.ReferenceIdeal.main_arg0) (ix2 R 1))
    (j : ℕ) (hj : j < 100) :
    Cert.KernelIdeal.GenP.out0_1 x (ix2 r ⟨j, hj⟩) = Cert.ReferenceIdeal.Value.res_main_v808 V0 (ix2 R ⟨j, hj⟩) := by
  unfold Cert.KernelIdeal.GenP.out0_1
  rw [View.canon_unit_zero hz]
  simp only [View.ld_unit_zero (S := Cert.KernelIdeal.S400x2) hz]
  -- column by column: first the column is picked out of the two concatenations, then both sides are read at the row
  interval_cases j <;>
    (simp only [Cert.KernelIdeal.Gen.k0_pay1, Cert.ReferenceIdeal.Value.res_main_v808,
      Cert.ReferenceIdeal.Value.fn_main_v801, Cert.ReferenceIdeal.Value.fn_main_v802, Cert.ReferenceIdeal.Value.fn_main_v803, Cert.ReferenceIdeal.Value.fn_main_v804, Cert.ReferenceIdeal.Value.fn_main_v805, Cert.ReferenceIdeal.Value.fn_main_v806, Cert.ReferenceIdeal.Value.fn_main_v807, Cert.ReferenceIdeal.Value.fn_main_v808,
      stack100_nat_apply, stackGroups_apply, stack16_nat_apply, stack4_nat_apply,
      List.getD_cons_succ, List.getD_cons_zero, Nat.reduceDiv, Nat.reduceMod, Nat.reduceSub, Nat.reduceLT,
      reduceDIte]
     simp only [
      Cert.KernelIdeal.Gen.k0_pay2, Cert.KernelIdeal.Gen.k0_pay3, Cert.KernelIdeal.Gen.k0_pay4,
      Cert.KernelIdeal.Gen.k0_pay5, Cert.KernelIdeal.Gen.k0_pay6, Cert.KernelIdeal.Gen.k0_pay7,
      Cert.KernelIdeal.Gen.k0_pay8, Cert.KernelIdeal.Gen.k0_pay9, Cert.KernelIdeal.Gen.k0_pay10,
      Cert.KernelIdeal.Gen.k0_pay11, Cert.KernelIdeal.Gen.k0_pay12, Cert.KernelIdeal.Gen.k0_pay13,
      Cert.KernelIdeal.Gen.k0_pay14, Cert.KernelIdeal.Gen.k0_pay15, Cert.KernelIdeal.Gen.k0_pay16,
      Cert.KernelIdeal.Gen.k0_pay17, Cert.KernelIdeal.Gen.k0_pay18, Cert.KernelIdeal.Gen.k0_pay19,
      Cert.KernelIdeal.Gen.k0_pay20, Cert.KernelIdeal.Gen.k0_pay21, Cert.KernelIdeal.Gen.k0_pay22,
      Cert.KernelIdeal.Gen.k0_pay23, Cert.KernelIdeal.Gen.k0_pay24, Cert.KernelIdeal.Gen.k0_pay25,
      Cert.KernelIdeal.Gen.k0_pay26, Cert.KernelIdeal.Gen.k0_pay27, Cert.KernelIdeal.Gen.k0_pay28,
      Cert.KernelIdeal.Gen.k0_pay29, Cert.KernelIdeal.Gen.k0_pay30, Cert.KernelIdeal.Gen.k0_pay31,
      Cert.KernelIdeal.Gen.k0_pay32, Cert.KernelIdeal.Gen.k0_pay33, Cert.KernelIdeal.Gen.k0_pay34,
      Cert.KernelIdeal.Gen.k0_pay35, Cert.KernelIdeal.Gen.k0_pay36, Cert.KernelIdeal.Gen.k0_pay37,
      Cert.KernelIdeal.Gen.k0_pay38, Cert.KernelIdeal.Gen.k0_pay39, Cert.KernelIdeal.Gen.k0_pay40,
      Cert.KernelIdeal.Gen.k0_pay41, Cert.KernelIdeal.Gen.k0_pay42, Cert.KernelIdeal.Gen.k0_pay43,
      Cert.KernelIdeal.Gen.k0_pay44, Cert.KernelIdeal.Gen.k0_pay45, Cert.KernelIdeal.Gen.k0_pay46,
      Cert.KernelIdeal.Gen.k0_pay47, Cert.KernelIdeal.Gen.k0_pay48, Cert.KernelIdeal.Gen.k0_pay49,
      Cert.KernelIdeal.Gen.k0_pay50, Cert.KernelIdeal.Gen.k0_pay51, Cert.KernelIdeal.Gen.k0_pay52,
      Cert.KernelIdeal.Gen.k0_pay53, Cert.KernelIdeal.Gen.k0_pay54, Cert.KernelIdeal.Gen.k0_pay55,
      Cert.KernelIdeal.Gen.k0_pay56, Cert.KernelIdeal.Gen.k0_pay57, Cert.KernelIdeal.Gen.k0_pay58,
      Cert.KernelIdeal.Gen.k0_pay59, Cert.KernelIdeal.Gen.k0_pay60, Cert.KernelIdeal.Gen.k0_pay61,
      Cert.KernelIdeal.Gen.k0_pay62, Cert.KernelIdeal.Gen.k0_pay63, Cert.KernelIdeal.Gen.k0_pay64,
      Cert.KernelIdeal.Gen.k0_pay65, Cert.KernelIdeal.Gen.k0_pay66, Cert.KernelIdeal.Gen.k0_pay67,
      Cert.KernelIdeal.Gen.k0_pay68, Cert.KernelIdeal.Gen.k0_pay69, Cert.KernelIdeal.Gen.k0_pay70,
      Cert.KernelIdeal.Gen.k0_pay71, Cert.KernelIdeal.Gen.k0_pay72, Cert.KernelIdeal.Gen.k0_pay73,
      Cert.KernelIdeal.Gen.k0_pay74, Cert.KernelIdeal.Gen.k0_pay75, Cert.KernelIdeal.Gen.k0_pay76,
      Cert.KernelIdeal.Gen.k0_pay77, Cert.KernelIdeal.Gen.k0_pay78, Cert.KernelIdeal.Gen.k0_pay79,
      Cert.KernelIdeal.Gen.k0_pay80, Cert.KernelIdeal.Gen.k0_pay81, Cert.KernelIdeal.Gen.k0_pay82,
      Cert.KernelIdeal.Gen.k0_pay83, Cert.KernelIdeal.Gen.k0_pay84, Cert.KernelIdeal.Gen.k0_pay85,
      Cert.KernelIdeal.Gen.k0_pay86, Cert.KernelIdeal.Gen.k0_pay87, Cert.KernelIdeal.Gen.k0_pay88,
      Cert.KernelIdeal.Gen.k0_pay89, Cert.KernelIdeal.Gen.k0_pay90, Cert.KernelIdeal.Gen.k0_pay91,
      Cert.KernelIdeal.Gen.k0_pay92, Cert.KernelIdeal.Gen.k0_pay93, Cert.KernelIdeal.Gen.k0_pay94,
      Cert.KernelIdeal.Gen.k0_pay95, Cert.KernelIdeal.Gen.k0_pay96, Cert.KernelIdeal.Gen.k0_pay97,
      Cert.KernelIdeal.Gen.k0_pay98, Cert.KernelIdeal.Gen.k0_pay99, Cert.KernelIdeal.Gen.k0_pay100,
      Cert.KernelIdeal.Gen.k0_pay101, Cert.KernelIdeal.Gen.k0_pay102, Cert.KernelIdeal.Gen.k0_pay103,
      Cert.KernelIdeal.Gen.k0_pay104, Cert.KernelIdeal.Gen.k0_pay105, Cert.KernelIdeal.Gen.k0_pay106,
      Cert.KernelIdeal.Gen.k0_pay107, Cert.KernelIdeal.Gen.k0_pay108, Cert.KernelIdeal.Gen.k0_pay109,
      Cert.KernelIdeal.Gen.k0_pay110, Cert.KernelIdeal.Gen.k0_pay111, Cert.KernelIdeal.Gen.k0_pay112,
      Cert.KernelIdeal.Gen.k0_pay113, Cert.KernelIdeal.Gen.k0_pay114, Cert.KernelIdeal.Gen.k0_pay115,
      Cert.KernelIdeal.Gen.k0_pay116, Cert.KernelIdeal.Gen.k0_pay117, Cert.KernelIdeal.Gen.k0_pay118,
      Cert.KernelIdeal.Gen.k0_pay119, Cert.KernelIdeal.Gen.k0_pay120, Cert.KernelIdeal.Gen.k0_pay121,
      Cert.KernelIdeal.Gen.k0_pay122, Cert.KernelIdeal.Gen.k0_pay123, Cert.KernelIdeal.Gen.k0_pay124,
      Cert.KernelIdeal.Gen.k0_pay125, Cert.KernelIdeal.Gen.k0_pay126, Cert.KernelIdeal.Gen.k0_pay127,
      Cert.KernelIdeal.Gen.k0_pay128, Cert.KernelIdeal.Gen.k0_pay129, Cert.KernelIdeal.Gen.k0_pay130,
      Cert.KernelIdeal.Gen.k0_pay131, Cert.KernelIdeal.Gen.k0_pay132, Cert.KernelIdeal.Gen.k0_pay133,
      Cert.KernelIdeal.Gen.k0_pay134, Cert.KernelIdeal.Gen.k0_pay135, Cert.KernelIdeal.Gen.k0_pay136,
      Cert.KernelIdeal.Gen.k0_pay137, Cert.KernelIdeal.Gen.k0_pay138, Cert.KernelIdeal.Gen.k0_pay139,
      Cert.KernelIdeal.Gen.k0_pay140, Cert.KernelIdeal.Gen.k0_pay141, Cert.KernelIdeal.Gen.k0_pay142,
      Cert.KernelIdeal.Gen.k0_pay143, Cert.KernelIdeal.Gen.k0_pay144, Cert.KernelIdeal.Gen.k0_pay145,
      Cert.KernelIdeal.Gen.k0_pay146, Cert.KernelIdeal.Gen.k0_pay147, Cert.KernelIdeal.Gen.k0_pay148,
      Cert.KernelIdeal.Gen.k0_pay149, Cert.KernelIdeal.Gen.k0_pay150, Cert.KernelIdeal.Gen.k0_pay151,
      Cert.KernelIdeal.Gen.k0_pay152, Cert.KernelIdeal.Gen.k0_pay153, Cert.KernelIdeal.Gen.k0_pay154,
      Cert.KernelIdeal.Gen.k0_pay155, Cert.KernelIdeal.Gen.k0_pay156, Cert.KernelIdeal.Gen.k0_pay157,
      Cert.KernelIdeal.Gen.k0_pay158, Cert.KernelIdeal.Gen.k0_pay159, Cert.KernelIdeal.Gen.k0_pay160,
      Cert.KernelIdeal.Gen.k0_pay161, Cert.KernelIdeal.Gen.k0_pay162, Cert.KernelIdeal.Gen.k0_pay163,
      Cert.KernelIdeal.Gen.k0_pay164, Cert.KernelIdeal.Gen.k0_pay165, Cert.KernelIdeal.Gen.k0_pay166,
      Cert.KernelIdeal.Gen.k0_pay167, Cert.KernelIdeal.Gen.k0_pay168, Cert.KernelIdeal.Gen.k0_pay169,
      Cert.KernelIdeal.Gen.k0_pay170, Cert.KernelIdeal.Gen.k0_pay171, Cert.KernelIdeal.Gen.k0_pay172,
      Cert.KernelIdeal.Gen.k0_pay173, Cert.KernelIdeal.Gen.k0_pay174, Cert.KernelIdeal.Gen.k0_pay175,
      Cert.KernelIdeal.Gen.k0_pay176, Cert.KernelIdeal.Gen.k0_pay177, Cert.KernelIdeal.Gen.k0_pay178,
      Cert.KernelIdeal.Gen.k0_pay179, Cert.KernelIdeal.Gen.k0_pay180, Cert.KernelIdeal.Gen.k0_pay181,
      Cert.KernelIdeal.Gen.k0_pay182, Cert.KernelIdeal.Gen.k0_pay183, Cert.KernelIdeal.Gen.k0_pay184,
      Cert.KernelIdeal.Gen.k0_pay185, Cert.KernelIdeal.Gen.k0_pay186, Cert.KernelIdeal.Gen.k0_pay187,
      Cert.KernelIdeal.Gen.k0_pay188, Cert.KernelIdeal.Gen.k0_pay189, Cert.KernelIdeal.Gen.k0_pay190,
      Cert.KernelIdeal.Gen.k0_pay191, Cert.KernelIdeal.Gen.k0_pay192, Cert.KernelIdeal.Gen.k0_pay193,
      Cert.KernelIdeal.Gen.k0_pay194, Cert.KernelIdeal.Gen.k0_pay195, Cert.KernelIdeal.Gen.k0_pay196,
      Cert.KernelIdeal.Gen.k0_pay197, Cert.KernelIdeal.Gen.k0_pay198, Cert.KernelIdeal.Gen.k0_pay199,
      Cert.KernelIdeal.Gen.k0_pay200, Cert.KernelIdeal.Gen.k0_pay201, Cert.KernelIdeal.Gen.k0_pay202,
      Cert.KernelIdeal.Gen.k0_pay203, Cert.KernelIdeal.Gen.k0_pay204, Cert.KernelIdeal.Gen.k0_pay205,
      Cert.KernelIdeal.Gen.k0_pay206, Cert.KernelIdeal.Gen.k0_pay207, Cert.KernelIdeal.Gen.k0_pay208,
      Cert.KernelIdeal.Gen.k0_pay209, Cert.KernelIdeal.Gen.k0_pay210, Cert.KernelIdeal.Gen.k0_pay211,
      Cert.KernelIdeal.Gen.k0_pay212, Cert.KernelIdeal.Gen.k0_pay213, Cert.KernelIdeal.Gen.k0_pay214,
      Cert.KernelIdeal.Gen.k0_pay215, Cert.KernelIdeal.Gen.k0_pay216, Cert.KernelIdeal.Gen.k0_pay217,
      Cert.KernelIdeal.Gen.k0_pay218, Cert.KernelIdeal.Gen.k0_pay219, Cert.KernelIdeal.Gen.k0_pay220,
      Cert.KernelIdeal.Gen.k0_pay221, Cert.KernelIdeal.Gen.k0_pay222, Cert.KernelIdeal.Gen.k0_pay223,
      Cert.KernelIdeal.Gen.k0_pay224, Cert.KernelIdeal.Gen.k0_pay225, Cert.KernelIdeal.Gen.k0_pay226,
      Cert.KernelIdeal.Gen.k0_pay227, Cert.KernelIdeal.Gen.k0_pay228, Cert.KernelIdeal.Gen.k0_pay229,
      Cert.KernelIdeal.Gen.k0_pay230, Cert.KernelIdeal.Gen.k0_pay231, Cert.KernelIdeal.Gen.k0_pay232,
      Cert.KernelIdeal.Gen.k0_pay233, Cert.KernelIdeal.Gen.k0_pay234, Cert.KernelIdeal.Gen.k0_pay235,
      Cert.KernelIdeal.Gen.k0_pay236, Cert.KernelIdeal.Gen.k0_pay237, Cert.KernelIdeal.Gen.k0_pay238,
      Cert.KernelIdeal.Gen.k0_pay239, Cert.KernelIdeal.Gen.k0_pay240, Cert.KernelIdeal.Gen.k0_pay241,
      Cert.KernelIdeal.Gen.k0_pay242, Cert.KernelIdeal.Gen.k0_pay243, Cert.KernelIdeal.Gen.k0_pay244,
      Cert.KernelIdeal.Gen.k0_pay245, Cert.KernelIdeal.Gen.k0_pay246, Cert.KernelIdeal.Gen.k0_pay247,
      Cert.KernelIdeal.Gen.k0_pay248, Cert.KernelIdeal.Gen.k0_pay249, Cert.KernelIdeal.Gen.k0_pay250,
      Cert.KernelIdeal.Gen.k0_pay251, Cert.KernelIdeal.Gen.k0_pay252, Cert.KernelIdeal.Gen.k0_pay253,
      ref_phi, ref_theta,
      Cert.ReferenceIdeal.Value.res_main_v12, Cert.ReferenceIdeal.Value.res_main_v13,
      Cert.ReferenceIdeal.Value.res_main_v14, Cert.ReferenceIdeal.Value.res_main_v17,
      Cert.ReferenceIdeal.Value.res_main_v25, Cert.ReferenceIdeal.Value.res_main_v33,
      Cert.ReferenceIdeal.Value.res_main_v41, Cert.ReferenceIdeal.Value.res_main_v49,
      Cert.ReferenceIdeal.Value.res_main_v57, Cert.ReferenceIdeal.Value.res_main_v65,
      Cert.ReferenceIdeal.Value.res_main_v73, Cert.ReferenceIdeal.Value.res_main_v84,
      Cert.ReferenceIdeal.Value.res_main_v87, Cert.ReferenceIdeal.Value.res_main_v95,
      Cert.ReferenceIdeal.Value.res_main_v103, Cert.ReferenceIdeal.Value.res_main_v111,
      Cert.ReferenceIdeal.Value.res_main_v119, Cert.ReferenceIdeal.Value.res_main_v127,
      Cert.ReferenceIdeal.Value.res_main_v135, Cert.ReferenceIdeal.Value.res_main_v143,
      Cert.ReferenceIdeal.Value.res_main_v146, Cert.ReferenceIdeal.Value.res_main_v149,
      Cert.ReferenceIdeal.Value.res_main_v157, Cert.ReferenceIdeal.Value.res_main_v165,
      Cert.ReferenceIdeal.Value.res_main_v173, Cert.ReferenceIdeal.Value.res_main_v181,
      Cert.ReferenceIdeal.Value.res_main_v189, Cert.ReferenceIdeal.Value.res_main_v197,
      Cert.ReferenceIdeal.Value.res_main_v200, Cert.ReferenceIdeal.Value.res_main_v203,
      Cert.ReferenceIdeal.Value.res_main_v211, Cert.ReferenceIdeal.Value.res_main_v219,
      Cert.ReferenceIdeal.Value.res_main_v227, Cert.ReferenceIdeal.Value.res_main_v235,
      Cert.ReferenceIdeal.Value.res_main_v243, Cert.ReferenceIdeal.Value.res_main_v246,
      Cert.ReferenceIdeal.Value.res_main_v249, Cert.ReferenceIdeal.Value.res_main_v257,
      Cert.ReferenceIdeal.Value.res_main_v265, Cert.ReferenceIdeal.Value.res_main_v273,
      Cert.ReferenceIdeal.Value.res_main_v281, Cert.ReferenceIdeal.Value.res_main_v284,
      Cert.ReferenceIdeal.Value.res_main_v287, Cert.ReferenceIdeal.Value.res_main_v295,
      Cert.ReferenceIdeal.Value.res_main_v303, Cert.ReferenceIdeal.Value.res_main_v311,
      Cert.ReferenceIdeal.Value.res_main_v314, Cert.ReferenceIdeal.Value.res_main_v317,
      Cert.ReferenceIdeal.Value.res_main_v325, Cert.ReferenceIdeal.Value.res_main_v333,
      Cert.ReferenceIdeal.Value.res_main_v336, Cert.ReferenceIdeal.Value.res_main_v339,
      Cert.ReferenceIdeal.Value.res_main_v347, Cert.ReferenceIdeal.Value.res_main_v350,
      Cert.ReferenceIdeal.Value.res_main_v353, Cert.ReferenceIdeal.Value.res_main_v356,
      Cert.ReferenceIdeal.Value.res_main_v359, Cert.ReferenceIdeal.Value.res_main_v362,
      Cert.ReferenceIdeal.Value.res_main_v365, Cert.ReferenceIdeal.Value.res_main_v368,
      Cert.ReferenceIdeal.Value.res_main_v371, Cert.ReferenceIdeal.Value.res_main_v374,
      Cert.ReferenceIdeal.Value.res_main_v377, Cert.ReferenceIdeal.Value.res_main_v380,
      Cert.ReferenceIdeal.Value.res_main_v386, Cert.ReferenceIdeal.Value.res_main_v389,
      Cert.ReferenceIdeal.Value.res_main_v392, Cert.ReferenceIdeal.Value.res_main_v395,
      Cert.ReferenceIdeal.Value.res_main_v398, Cert.ReferenceIdeal.Value.res_main_v401,
      Cert.ReferenceIdeal.Value.res_main_v404, Cert.ReferenceIdeal.Value.res_main_v407,
      colOfVec_apply, colOfVec_bcast_apply, vecOfCol_apply, sliceCol0_apply, sliceCol1_apply,
      mulf_apply, addf_apply, subf_apply, divf_apply, cos_apply, sin_apply, hostCos_apply, hostSin_apply,
      hostDivf_apply, broadcast_apply, splat_apply, hostSplat_apply, rank0_bcast_apply, constant_apply,
      Ideal.ofBits_def, h0, h1])

end Cert.RowValue

end
-- ==== Proof.WholeArray.lean ====
/-
  From the blocks to the whole array.

  The kernel's grid has 2500 points; point `t` reads rows 400·t … 400·t + 399 of the argument (both columns) and writes
  the same rows of the result (all hundred columns).  A row of what the body stores depends on that row of the input
  block alone, and equals that row of the reference's result (RowValue.lean), so what point `t` writes back is block
  `t` of the reference's result array; the 2500 blocks tile the array (row `R` lies in block `R / 400`), so after the run
  the kernel's result array IS the reference's composed term of the argument.
-/
import proofs.«118288_j6399501271671_2_alg».proof.Proof.RowValue

set_option maxRecDepth 16384

noncomputable section

namespace Cert.WholeArray

open Cert.KernelIdeal Cert.KernelIdeal.Gen Cert.KernelIdeal.GenP Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The printed index maps, decided over the grid: at point `t` both windows sit at block row `t`, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- WHAT POINT `t` WRITES BACK is block `t` of the reference's result term, at any valuation `V0` of the reference's
    buffers that holds the kernel's argument array. -/
theorem flushed_eq (c : Dev nD)
    (V0 : Valuation Cert.ReferenceIdeal.τ Cert.ReferenceIdeal.sig (Elt Ideal))
    (hV : V0 (Proc.devRef .tc Cert.ReferenceIdeal.main_arg0) = V m c main_arg0) (t : Fin cfg0.N) :
    (dats m 0 c).flushed 1 t
      = ((cfg0.win 1).blk t).view.read (Elt Ideal) (Cert.ReferenceIdeal.Value.res_main_v808 V0) := by
  show (cfg0.win 1).cut (grid0.coords t) ((dats m 0 c).after 1 t) = _
  rw [after0_1]
  obtain ⟨e0, e1, e2, e3⟩ := idx_facts t
  have ht : t.val < 2500 := by have h := t.isLt; have hN : cfg0.N = 2500 := N_0; omega
  funext y
  have hy0 : (y 0).val < 400 := (y 0).isLt
  have hy1 : (y 1).val < 100 := (y 1).isLt
  show out0_1 (iblk m c 0 t) y
    = Cert.ReferenceIdeal.Value.res_main_v808 V0 (((cfg0.win 1).blk t).view.emb y)
  have hemb : ((cfg0.win 1).blk t).view.emb y
      = ix2 (⟨400 * t.val + (y 0).val, by omega⟩ : Fin 1000000) (⟨(y 1).val, hy1⟩ : Fin 100) := by
    funext a; apply Fin.ext
    match a with
    | ⟨0, _⟩ => show win0_1.index t (0 : Fin 2) * 400 + 1 * (y 0).val = 400 * t.val + (y 0).val; omega
    | ⟨1, _⟩ => show win0_1.index t (1 : Fin 2) * 100 + 1 * (y 1).val = (y 1).val; omega
  have hin : ∀ k : Fin 2, iblk m c 0 t (ix2 (y 0) k)
      = V0 (Proc.devRef .tc Cert.ReferenceIdeal.main_arg0)
          (ix2 (⟨400 * t.val + (y 0).val, by omega⟩ : Fin 1000000) k) := by
    intro k
    have hk : k.val < 2 := k.isLt
    refine Eq.trans ?_ (congrFun hV _).symm
    show V m c main_arg0 (((cfg0.win 0).blk t).view.emb (ix2 (y 0) k)) = V m c main_arg0 _
    refine congrArg _ (funext fun a => Fin.ext ?_)
    match a with
    | ⟨0, _⟩ => show win0_0.index t (0 : Fin 2) * 400 + 1 * (y 0).val = 400 * t.val + (y 0).val; omega
    | ⟨1, _⟩ => show win0_0.index t (1 : Fin 2) * 2 + 1 * k.val = k.val; omega
  rw [hemb]
  have hy : y = ix2 (y 0) (⟨(y 1).val, hy1⟩ : Fin 100) := eq_ix2 y
  refine (congrArg (out0_1 (iblk m c 0 t)) hy).trans ?_
  exact Cert.RowValue.row_eq (iblk m c 0 t) V0 (y 0) _ (hin 0) (hin 1) (y 1).val hy1

/-- Every index of the result array lies in some point's block: row `R` in the block of point `R / 400`. -/
theorem cover (c : Dev nD) (i : ((cfg0.win 1).arr.view.loc (c.tc : Thread nD τ)).2.ty.Idx) :
    ∃ t : Fin cfg0.N, (cfg0.win 1).flush t = true ∧ i ∈ ((cfg0.win 1).blk t).view.set := by
  have hi0 : (i 0).val < 1000000 := (i 0).isLt
  have hi1 : (i 1).val < 100 := (i 1).isLt
  have hN : cfg0.N = 2500 := N_0
  let t : Fin cfg0.N := ⟨(i 0).val / 400, by rw [hN]; omega⟩
  obtain ⟨e0, e1, e2, e3⟩ := idx_facts t
  have e2' : win0_1.index t (0 : Fin 2) = (i 0).val / 400 := e2
  refine ⟨t, flush0_1 t, ?_⟩
  show i ∈ ((View.whole main_v0).slice (win0_1.rect t)).set
  rw [View.set_slice_whole, Rect.mem_set_unit]
  intro a
  match a with
  | ⟨0, _⟩ =>
    show win0_1.index t (0 : Fin 2) * 400 ≤ (i 0).val ∧ (i 0).val < win0_1.index t (0 : Fin 2) * 400 + 400
    omega
  | ⟨1, _⟩ =>
    show win0_1.index t (1 : Fin 2) * 100 ≤ (i 1).val ∧ (i 1).val < win0_1.index t (1 : Fin 2) * 100 + 100
    omega

/-- THE ARRAY after the run: the reference's result term of the kernel's argument array. -/
theorem final (c : Dev nD)
    (V0 : Valuation Cert.ReferenceIdeal.τ Cert.ReferenceIdeal.sig (Elt Ideal))
    (hV : V0 (Proc.devRef .tc Cert.ReferenceIdeal.main_arg0) = V m c main_arg0) :
    (dats m 0 c).arrAt 1 cfg0.N = Cert.ReferenceIdeal.Value.res_main_v808 V0 :=
  (dats m 0 c).arrAt_eq_of_cover 1 (Cert.ReferenceIdeal.Value.res_main_v808 V0)
    (fun t _ => flushed_eq m c V0 hV t) (cover c)

/-- The frame run, read: the result array at the reference's term of the argument array, the argument unchanged. -/
theorem run (V0 : Dev nD → Valuation Cert.ReferenceIdeal.τ Cert.ReferenceIdeal.sig (Elt Ideal))
    (hV : ∀ c, V0 c (Proc.devRef .tc Cert.ReferenceIdeal.main_arg0) = m ((c : Thread nD τ).loc main_arg0)) :
    θ_run defs (onTc (τ := τ) (main (F := Ideal))) ⟨m, fun _ => 0, ρ⟩ fun r => ∀ c : Dev nD,
      r.2.mem ((c : Thread nD τ).loc main_v0) = Cert.ReferenceIdeal.Value.res_main_v808 (V0 c)
      ∧ r.2.mem ((c : Thread nD τ).loc main_arg0) = m ((c : Thread nD τ).loc main_arg0) :=
  (θ_run defs _ _).mono (fun r h c => ⟨((h c).1 1).trans (final m c (V0 c) (hV c)),
      ((h c).1 0).trans (((dats m 0 c).arrAt_in 0 rfl _).trans ((A_eq m c 0).trans (V_main_arg0 m c)))⟩)
    (run_main m ρ)

end Cert.WholeArray

end
-- ==== Proof.lean ====
/-
  The kernel computes a hundred real spherical harmonics of each of 1,000,000 (longitude, latitude) pairs, 400 rows to
  a grid point; the reference computes the same hundred columns of all rows at once, by the same operations in the same
  order with the same constant words.  Every operation acts row by row, so the kernel's result array — its 2500 row
  blocks, which tile it — is, entry by entry, the reference's composed term of the argument (Proof/RowValue.lean for a
  row, Proof/WholeArray.lean for the array).  No algebraic law is used, and the precondition (finite inputs) is never
  opened: the two results agree on every extended real.  The three frames are the programs' runs; the ideal pass rewrote
  nothing, so `preserves` is trivial.
-/
import proofs.«118288_j6399501271671_2_alg».proof.Defs
import proofs.«118288_j6399501271671_2_alg».proof.Proof.Gen.Kernel
import proofs.«118288_j6399501271671_2_alg».proof.Proof.Gen.Kernel.Skeleton
import proofs.«118288_j6399501271671_2_alg».proof.Proof.Gen.Kernel.Launch
import proofs.«118288_j6399501271671_2_alg».proof.Proof.Gen.Kernel.Points
import proofs.«118288_j6399501271671_2_alg».proof.Proof.Gen.KernelIdeal
import proofs.«118288_j6399501271671_2_alg».proof.Proof.Gen.KernelIdeal.Skeleton
import proofs.«118288_j6399501271671_2_alg».proof.Proof.Gen.KernelIdeal.Launch
import proofs.«118288_j6399501271671_2_alg».proof.Proof.Gen.KernelIdeal.Points
import proofs.«118288_j6399501271671_2_alg».proof.Proof.Gen.ReferenceIdeal
import proofs.«118288_j6399501271671_2_alg».proof.Proof.Gen.Pre_finite_inputs
import proofs.«118288_j6399501271671_2_alg».proof.Proof.FrameK
import proofs.«118288_j6399501271671_2_alg».proof.Proof.FrameKI
import proofs.«118288_j6399501271671_2_alg».proof.Proof.Gen.ReferenceIdeal.Run
import proofs.«118288_j6399501271671_2_alg».proof.Proof.WholeArray
import Idealize.ShloMosaic.Adequacy
import Idealize.ShloMosaic.Init

noncomputable section

namespace Cert.Proof

open Idealize.ShloMosaic Idealize.SL.Sem Idealize.ShloMosaic.StableHlo

/-- The kernel as printed runs and leaves its argument as it found it. -/
theorem frame_k : Cert.frame_Kernel := fun m ρ _ => Cert.Kernel.GenP.frame m ρ

/-- So does the idealized kernel. -/
theorem frame_ki : Cert.frame_KernelIdeal := fun m ρ _ => Cert.KernelIdeal.GenP.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end with the reference's composed term of the (agreeing) argument in their result arrays. -/
theorem algebraic : Cert.algebraic_KernelIdeal_ReferenceIdeal := by
  intro m ρ m' ρ' _ hagree
  refine ⟨fun c => Cert.ReferenceIdeal.Value.res_main_v808 (launchContents m' c), ?_,
    Cert.ReferenceIdeal.Value.run (F := Ideal) m' ρ'⟩
  exact Cert.WholeArray.run m ρ (fun c => launchContents m' c) hagree

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
